-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x256 : Shape := ⟨2, ![16384, 256]⟩
abbrev S2x524288 : Shape := ⟨2, ![2, 524288]⟩
abbrev S256x256 : Shape := ⟨2, ![256, 256]⟩
abbrev S256 : Shape := ⟨1, ![256]⟩
abbrev S_ : Shape := ⟨0, ![]⟩

class Facts : Prop where
  bcast_S_S16384x256 : S_.BroadcastsInDim S16384x256 (![] : Fin 0 → Fin S16384x256.rank)
  reducesTo_S16384x256_S_d0_1 : S16384x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg5 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  main_v23

def fn {F : FTy → Type} [FloatOps F] (main_arg0 : FVec F S16384x256 .f32) (main_arg1 : IVec S2x524288 32) (main_arg2 : FVec F S256x256 .f32) (main_arg3 : FVec F S256 .f32) (main_arg4 : FVec F S256x256 .f32) (main_arg5 : FVec F S256 .f32) : IVec S_ 1 :=
  let main_v0 : FVec F S16384x256 .f32 := Host.absf main_arg0
  let main_cst : FVec F S_ .f32 := constant S_ .f32 0x7F800000#32
  let main_v1 : FVec F S16384x256 .f32 := broadcastInDim S16384x256 ![] bcast_S_S16384x256 main_cst
  let main_v2 : IVec S16384x256 1 := cmpf .olt main_v0 main_v1
  let main_c : IVec S_ 1 := constantI S_ 1 1#1
  let main_v3 : IVec S_ 1 := (fun x v => Host.reduce IntOp.andi x v reducesTo_S16384x256_S_d0_1 h_S_) main_v2 main_c
  let main_v4 : FVec F S256x256 .f32 := Host.absf main_arg2
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg4
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg5 main_v13 main_v16
-- ==== Kernel.lean ====
abbrev S16384x256 : Shape := ⟨2, ![16384, 256]⟩
abbrev S2x524288 : Shape := ⟨2, ![2, 524288]⟩
abbrev S256x256 : Shape := ⟨2, ![256, 256]⟩
abbrev S256 : Shape := ⟨1, ![256]⟩
abbrev S1x524288 : Shape := ⟨2, ![1, 524288]⟩
abbrev S524288 : Shape := ⟨1, ![524288]⟩
abbrev S_ : Shape := ⟨0, ![]⟩
abbrev S16384x16384 : Shape := ⟨2, ![16384, 16384]⟩
abbrev S524288x1 : Shape := ⟨2, ![524288, 1]⟩
abbrev S524288x2 : Shape := ⟨2, ![524288, 2]⟩
abbrev S512x4096 : Shape := ⟨2, ![512, 4096]⟩
abbrev S4096x256 : Shape := ⟨2, ![4096, 256]⟩
abbrev S512x256 : Shape := ⟨2, ![512, 256]⟩
abbrev S1x256 : Shape := ⟨2, ![1, 256]⟩

abbrev nBuf : Space → Nat
  | .hbm => 58
  | .vmem => 13
  | .smem => 0
  | _ => 0

abbrev bufTy : (tb : Table) → Fin (tcTables nBuf tb) → BufTy
  | .hbm, ⟨0, _⟩ => ⟨S16384x256, .f32⟩
  | .hbm, ⟨1, _⟩ => ⟨S2x524288, .i32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S1x524288, .i32⟩
  | .hbm, ⟨7, _⟩ => ⟨S524288, .i32⟩
  | .hbm, ⟨8, _⟩ => ⟨S1x524288, .i32⟩
  | .hbm, ⟨9, _⟩ => ⟨S524288, .i32⟩
  | .hbm, ⟨10, _⟩ => ⟨S_, .bf16⟩
  | .hbm, ⟨11, _⟩ => ⟨S16384x16384, .bf16⟩
  | .hbm, ⟨12, _⟩ => ⟨S_, .i32⟩
  | .hbm, ⟨13, _⟩ => ⟨S524288, .i32⟩
  | .hbm, ⟨14, _⟩ => ⟨S524288, .i1⟩
  | .hbm, ⟨15, _⟩ => ⟨S_, .i32⟩
  | .hbm, ⟨16, _⟩ => ⟨S524288, .i32⟩
  | .hbm, ⟨17, _⟩ => ⟨S524288, .i32⟩
  | .hbm, ⟨18, _⟩ => ⟨S524288, .i32⟩
  | .hbm, ⟨19, _⟩ => ⟨S_, .i32⟩
  | .hbm, ⟨20, _⟩ => ⟨S524288, .i32⟩
  | .hbm, ⟨21, _⟩ => ⟨S524288, .i1⟩
  | .hbm, ⟨22, _⟩ => ⟨S_, .i32⟩
  | .hbm, ⟨23, _⟩ => ⟨S524288, .i32⟩
  | .hbm, ⟨24, _⟩ => ⟨S524288, .i32⟩
  | .hbm, ⟨25, _⟩ => ⟨S524288, .i32⟩
  | .hbm, ⟨26, _⟩ => ⟨S524288x1, .i32⟩
  | .hbm, ⟨27, _⟩ => ⟨S524288x1, .i32⟩
  | .hbm, ⟨28, _⟩ => ⟨S524288x2, .i32⟩
  | .hbm, ⟨29, _⟩ => ⟨S_, .bf16⟩
  | .hbm, ⟨30, _⟩ => ⟨S524288, .bf16⟩
  | .hbm, ⟨31, _⟩ => ⟨S16384x16384, .bf16⟩
  | .hbm, ⟨32, _⟩ => ⟨S_, .i32⟩
  | .hbm, ⟨33, _⟩ => ⟨S524288, .i32⟩
  | .hbm, ⟨34, _⟩ => ⟨S524288, .i1⟩
  | .hbm, ⟨35, _⟩ => ⟨S_, .i32⟩
  | .hbm, ⟨36, _⟩ => ⟨S524288, .i32⟩
  | .hbm, ⟨37, _⟩ => ⟨S524288, .i32⟩
  | .hbm, ⟨38, _⟩ => ⟨S524288, .i32⟩
  | .hbm, ⟨39, _⟩ => ⟨S_, .i32⟩
  | .hbm, ⟨40, _⟩ => ⟨S524288, .i32⟩
  | .hbm, ⟨41, _⟩ => ⟨S524288, .i1⟩
  | .hbm, ⟨42, _⟩ => ⟨S_, .i32⟩
  | .hbm, ⟨43, _⟩ => ⟨S524288, .i32⟩
  | .hbm, ⟨44, _⟩ => ⟨S524288, .i32⟩
  | .hbm, ⟨45, _⟩ => ⟨S524288, .i32⟩
  | .hbm, ⟨46, _⟩ => ⟨S524288x1, .i32⟩
  | .hbm, ⟨47, _⟩ => ⟨S524288x1, .i32⟩
  | .hbm, ⟨48, _⟩ => ⟨S524288x2, .i32⟩
  | .hbm, ⟨49, _⟩ => ⟨S_, .bf16⟩
  | .hbm, ⟨50, _⟩ => ⟨S524288, .bf16⟩
  | .hbm, ⟨51, _⟩ => ⟨S16384x16384, .bf16⟩
  | .hbm, ⟨52, _⟩ => ⟨S16384x256, .bf16⟩
  | .hbm, ⟨53, _⟩ => ⟨S256x256, .f32⟩
  | .hbm, ⟨54, _⟩ => ⟨S256x256, .bf16⟩
  | .hbm, ⟨55, _⟩ => ⟨S256x256, .f32⟩
  | .hbm, ⟨56, _⟩ => ⟨S256x256, .bf16⟩
  | .hbm, ⟨57, _⟩ => ⟨S16384x256, .f32⟩
  | .local _ .vmem, ⟨0, _⟩ => ⟨S512x4096, .bf16⟩
  | .local _ .vmem, ⟨1, _⟩ => ⟨S512x4096, .bf16⟩
  | .local _ .vmem, ⟨2, _⟩ => ⟨S4096x256, .bf16⟩
  | .local _ .vmem, ⟨3, _⟩ => ⟨S4096x256, .bf16⟩
  | .local _ .vmem, ⟨4, _⟩ => ⟨S512x256, .bf16⟩
  | .local _ .vmem, ⟨5, _⟩ => ⟨S512x256, .bf16⟩
  | .local _ .vmem, ⟨6, _⟩ => ⟨S256x256, .bf16⟩
  | .local _ .vmem, ⟨7, _⟩ => ⟨S256, .f32⟩
  | .local _ .vmem, ⟨8, _⟩ => ⟨S256x256, .bf16⟩
  | .local _ .vmem, ⟨9, _⟩ => ⟨S256, .f32⟩
  | .local _ .vmem, ⟨10, _⟩ => ⟨S512x256, .f32⟩
  | .local _ .vmem, ⟨11, _⟩ => ⟨S512x256, .f32⟩
  | .local _ .vmem, ⟨12, _⟩ => ⟨S512x256, .f32⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_c : Ref sig .tc := ⟨.hbm, 12, rfl⟩
abbrev main_v5 : Ref sig .tc := ⟨.hbm, 13, rfl⟩
abbrev main_v6 : Ref sig .tc := ⟨.hbm, 14, rfl⟩
abbrev main_c_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c_1 : Ref sig .tc := ⟨.hbm, 19, rfl⟩
abbrev main_v10 : Ref sig .tc := ⟨.hbm, 20, rfl⟩
abbrev main_v11 : Ref sig .tc := ⟨.hbm, 21, rfl⟩
abbrev main_c_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_c_4 : Ref sig .tc := ⟨.hbm, 32, rfl⟩
abbrev main_v20 : Ref sig .tc := ⟨.hbm, 33, rfl⟩
abbrev main_v21 : Ref sig .tc := ⟨.hbm, 34, rfl⟩
abbrev main_c_5 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_c_6 : Ref sig .tc := ⟨.hbm, 39, rfl⟩
abbrev main_v25 : Ref sig .tc := ⟨.hbm, 40, rfl⟩
abbrev main_v26 : Ref sig .tc := ⟨.hbm, 41, rfl⟩
abbrev main_c_7 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_8 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![32, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

class Facts₀ : Prop where
  slices_S2x524288_S1x524288_0_0 : S2x524288.Slices ![0, 0] S1x524288
  shapeCasts_S1x524288_S524288 : S1x524288.ShapeCasts S524288
  slices_S2x524288_S1x524288_1_0 : S2x524288.Slices ![1, 0] S1x524288
  bcast_S_S16384x16384 : S_.BroadcastsInDim S16384x16384 (![] : Fin 0 → Fin S16384x16384.rank)
  bcast_S_S524288 : S_.BroadcastsInDim S524288 (![] : Fin 0 → Fin S524288.rank)
  bcast_S524288_S524288x1_0 : S524288.BroadcastsInDim S524288x1 (![0] : Fin 1 → Fin S524288x1.rank)
  concatenates_S524288x1_S524288x1_S524288x2_d1 : Shape.Concatenates [S524288x1, S524288x1] S524288x2 1
  bitsLt_bf16_f32 : FTy.bits .bf16 < FTy.bits .f32
  transposes_S256x256_S256x256_1_0 : S256x256.Transposes [1, 0] S256x256
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256_S256_0 : ∀ a, (![0] : Fin 1 → Nat) a + S256.size a ≤ S256.size a
  h_S256 : 0 < S256.numel
  shapeCasts_S256_S1x256 : S256.ShapeCasts S1x256
  broadcasts_S1x256_S512x256 : S1x256.Broadcasts S512x256
  scatter_S16384x16384_S524288x2_S524288_n_01_01_1_wf : ScatterDims.WF S16384x16384 S524288x2 S524288 [] [0, 1] [0, 1] 1
  dot_S512x4096_S4096x256_S512x256_1_0_0_1_n_n_wf : DotDims.WF S512x4096 S4096x256 S512x256 [1] [0] [0] [1] [] []
  dot_S512x256_S256x256_S512x256_1_0_0_1_n_n_wf : DotDims.WF S512x256 S256x256 S512x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S16384x16384.size a
  hwx0_0 : ∀ i : grid0.Coords, EltTy.bits .bf16 = 32 ∨ (Rect.block (s := S16384x16384) S512x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x256.size a ≤ S16384x256.size a
  hwx0_1 : ∀ i : grid0.Coords, EltTy.bits .bf16 = 32 ∨ (Rect.block (s := S16384x256) S4096x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x256.size a ≤ S16384x256.size a
  hwx0_2 : ∀ i : grid0.Coords, EltTy.bits .bf16 = 32 ∨ (Rect.block (s := S16384x256) S512x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .bf16 = 32 ∨ (Rect.block (s := S256x256) S256x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .bf16 = 32 ∨ (Rect.block (s := S256x256) S256x256.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256.size a ≤ S256.size a
  hwx0_6 : ∀ i : grid0.Coords, EltTy.bits .f32 = 32 ∨ (Rect.block (s := S256) S256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x256.size a ≤ S16384x256.size a
  hwx0_7 : ∀ i : grid0.Coords, EltTy.bits .f32 = 32 ∨ (Rect.block (s := S16384x256) S512x256.size (cc0_transform_7 i) (hinb0_7 i)).WholeWords (EltTy.packing .f32)

variable [Facts₀]

def scatter_S16384x16384_S524288x2_S524288_n_01_01_1 : ScatterDims S16384x16384 S524288x2 S524288 where
  updateWindowDims := []
  insertedWindowDims := [0, 1]
  scatterDimsToOperandDims := [0, 1]
  indexVectorDim := 1
  wf := scatter_S16384x16384_S524288x2_S524288_n_01_01_1_wf
def dot_S512x4096_S4096x256_S512x256_1_0_0_1_n_n : DotDims S512x4096 S4096x256 S512x256 where
  lhsContracting := [1]
  rhsContracting := [0]
  lhsNonContracting := [0]
  rhsNonContracting := [1]
  lhsBatch := []
  rhsBatch := []
  wf := dot_S512x4096_S4096x256_S512x256_1_0_0_1_n_n_wf
def dot_S512x256_S256x256_S512x256_1_0_0_1_n_n : DotDims S512x256 S256x256 S512x256 where
  lhsContracting := [1]
  rhsContracting := [0]
  lhsNonContracting := [0]
  rhsNonContracting := [1]
  lhsBatch := []
  rhsBatch := []
  wf := dot_S512x256_S256x256_S512x256_1_0_0_1_n_n_wf

abbrev win0_0 : Pipeline.Window sig grid0 :=
  Pipeline.Window.ofSpec (Memref.whole main_v34) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v35) S4096x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v35) S512x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v37) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v39) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg3) S256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v40) S512x256.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond2 i == 1#1) | ⟨_ + 8, h⟩ => absurd h (Nat.not_lt.2 (Nat.le_add_left _ _))

class Facts : Prop extends Facts₀ where

variable [Facts]
-- ==== ReferenceIdeal.lean ====
abbrev S16384x256 : Shape := ⟨2, ![16384, 256]⟩
abbrev S2x524288 : Shape := ⟨2, ![2, 524288]⟩
abbrev S256x256 : Shape := ⟨2, ![256, 256]⟩
abbrev S256 : Shape := ⟨1, ![256]⟩
abbrev S1x524288 : Shape := ⟨2, ![1, 524288]⟩
abbrev S524288 : Shape := ⟨1, ![524288]⟩
abbrev S_ : Shape := ⟨0, ![]⟩
abbrev S16384x16384 : Shape := ⟨2, ![16384, 16384]⟩
abbrev S524288x1 : Shape := ⟨2, ![524288, 1]⟩
abbrev S524288x2 : Shape := ⟨2, ![524288, 2]⟩
abbrev S1x256 : Shape := ⟨2, ![1, 256]⟩

abbrev nBuf : Space → Nat
  | .hbm => 64
  | .vmem => 0
  | .smem => 0
  | _ => 0

abbrev bufTy : (tb : Table) → Fin (tcTables nBuf tb) → BufTy
  | .hbm, ⟨0, _⟩ => ⟨S16384x256, .f32⟩
  | .hbm, ⟨1, _⟩ => ⟨S2x524288, .i32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S1x524288, .i32⟩
  | .hbm, ⟨7, _⟩ => ⟨S524288, .i32⟩
  | .hbm, ⟨8, _⟩ => ⟨S1x524288, .i32⟩
  | .hbm, ⟨9, _⟩ => ⟨S524288, .i32⟩
  | .hbm, ⟨10, _⟩ => ⟨S_, .f32⟩
  | .hbm, ⟨11, _⟩ => ⟨S16384x16384, .f32⟩
  | .hbm, ⟨12, _⟩ => ⟨S_, .i32⟩
  | .hbm, ⟨13, _⟩ => ⟨S524288, .i32⟩
  | .hbm, ⟨14, _⟩ => ⟨S524288, .i1⟩
  | .hbm, ⟨15, _⟩ => ⟨S_, .i32⟩
  | .hbm, ⟨16, _⟩ => ⟨S524288, .i32⟩
  | .hbm, ⟨17, _⟩ => ⟨S524288, .i32⟩
  | .hbm, ⟨18, _⟩ => ⟨S524288, .i32⟩
  | .hbm, ⟨19, _⟩ => ⟨S_, .i32⟩
  | .hbm, ⟨20, _⟩ => ⟨S524288, .i32⟩
  | .hbm, ⟨21, _⟩ => ⟨S524288, .i1⟩
  | .hbm, ⟨22, _⟩ => ⟨S_, .i32⟩
  | .hbm, ⟨23, _⟩ => ⟨S524288, .i32⟩
  | .hbm, ⟨24, _⟩ => ⟨S524288, .i32⟩
  | .hbm, ⟨25, _⟩ => ⟨S524288, .i32⟩
  | .hbm, ⟨26, _⟩ => ⟨S524288x1, .i32⟩
  | .hbm, ⟨27, _⟩ => ⟨S524288x1, .i32⟩
  | .hbm, ⟨28, _⟩ => ⟨S524288x2, .i32⟩
  | .hbm, ⟨29, _⟩ => ⟨S_, .f32⟩
  | .hbm, ⟨30, _⟩ => ⟨S524288, .f32⟩
  | .hbm, ⟨31, _⟩ => ⟨S16384x16384, .f32⟩
  | .hbm, ⟨32, _⟩ => ⟨S_, .i32⟩
  | .hbm, ⟨33, _⟩ => ⟨S524288, .i32⟩
  | .hbm, ⟨34, _⟩ => ⟨S524288, .i1⟩
  | .hbm, ⟨35, _⟩ => ⟨S_, .i32⟩
  | .hbm, ⟨36, _⟩ => ⟨S524288, .i32⟩
  | .hbm, ⟨37, _⟩ => ⟨S524288, .i32⟩
  | .hbm, ⟨38, _⟩ => ⟨S524288, .i32⟩
  | .hbm, ⟨39, _⟩ => ⟨S_, .i32⟩
  | .hbm, ⟨40, _⟩ => ⟨S524288, .i32⟩
  | .hbm, ⟨41, _⟩ => ⟨S524288, .i1⟩
  | .hbm, ⟨42, _⟩ => ⟨S_, .i32⟩
  | .hbm, ⟨43, _⟩ => ⟨S524288, .i32⟩
  | .hbm, ⟨44, _⟩ => ⟨S524288, .i32⟩
  | .hbm, ⟨45, _⟩ => ⟨S524288, .i32⟩
  | .hbm, ⟨46, _⟩ => ⟨S524288x1, .i32⟩
  | .hbm, ⟨47, _⟩ => ⟨S524288x1, .i32⟩
  | .hbm, ⟨48, _⟩ => ⟨S524288x2, .i32⟩
  | .hbm, ⟨49, _⟩ => ⟨S_, .f32⟩
  | .hbm, ⟨50, _⟩ => ⟨S524288, .f32⟩
  | .hbm, ⟨51, _⟩ => ⟨S16384x16384, .f32⟩
  | .hbm, ⟨52, _⟩ => ⟨S16384x256, .f32⟩
  | .hbm, ⟨53, _⟩ => ⟨S256x256, .f32⟩
  | .hbm, ⟨54, _⟩ => ⟨S16384x256, .f32⟩
  | .hbm, ⟨55, _⟩ => ⟨S1x256, .f32⟩
  | .hbm, ⟨56, _⟩ => ⟨S16384x256, .f32⟩
  | .hbm, ⟨57, _⟩ => ⟨S16384x256, .f32⟩
  | .hbm, ⟨58, _⟩ => ⟨S256x256, .f32⟩
  | .hbm, ⟨59, _⟩ => ⟨S16384x256, .f32⟩
  | .hbm, ⟨60, _⟩ => ⟨S1x256, .f32⟩
  | .hbm, ⟨61, _⟩ => ⟨S16384x256, .f32⟩
  | .hbm, ⟨62, _⟩ => ⟨S16384x256, .f32⟩
  | .hbm, ⟨63, _⟩ => ⟨S16384x256, .f32⟩
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_c : Ref sig .tc := ⟨.hbm, 12, rfl⟩
abbrev main_v5 : Ref sig .tc := ⟨.hbm, 13, rfl⟩
abbrev main_v6 : Ref sig .tc := ⟨.hbm, 14, rfl⟩
abbrev main_c_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c_1 : Ref sig .tc := ⟨.hbm, 19, rfl⟩
abbrev main_v10 : Ref sig .tc := ⟨.hbm, 20, rfl⟩
abbrev main_v11 : Ref sig .tc := ⟨.hbm, 21, rfl⟩
abbrev main_c_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_c_4 : Ref sig .tc := ⟨.hbm, 32, rfl⟩
abbrev main_v20 : Ref sig .tc := ⟨.hbm, 33, rfl⟩
abbrev main_v21 : Ref sig .tc := ⟨.hbm, 34, rfl⟩
abbrev main_c_5 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_c_6 : Ref sig .tc := ⟨.hbm, 39, rfl⟩
abbrev main_v25 : Ref sig .tc := ⟨.hbm, 40, rfl⟩
abbrev main_v26 : Ref sig .tc := ⟨.hbm, 41, rfl⟩
abbrev main_c_7 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_8 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩

abbrev nD : Nat := 1
abbrev τ : Topo := Topo.v7x

variable {F : FTy → Type} [FloatOps F]

class Facts₀ : Prop where
  slices_S2x524288_S1x524288_0_0 : S2x524288.Slices ![0, 0] S1x524288
  shapeCasts_S1x524288_S524288 : S1x524288.ShapeCasts S524288
  slices_S2x524288_S1x524288_1_0 : S2x524288.Slices ![1, 0] S1x524288
  bcast_S_S16384x16384 : S_.BroadcastsInDim S16384x16384 (![] : Fin 0 → Fin S16384x16384.rank)
  bcast_S_S524288 : S_.BroadcastsInDim S524288 (![] : Fin 0 → Fin S524288.rank)
  bcast_S524288_S524288x1_0 : S524288.BroadcastsInDim S524288x1 (![0] : Fin 1 → Fin S524288x1.rank)
  concatenates_S524288x1_S524288x1_S524288x2_d1 : Shape.Concatenates [S524288x1, S524288x1] S524288x2 1
  transposes_S256x256_S256x256_1_0 : S256x256.Transposes [1, 0] S256x256
  bcast_S256_S1x256_1 : S256.BroadcastsInDim S1x256 (![1] : Fin 1 → Fin S1x256.rank)
  bcast_S1x256_S16384x256_0_1 : S1x256.BroadcastsInDim S16384x256 (![0, 1] : Fin 2 → Fin S16384x256.rank)
  scatter_S16384x16384_S524288x2_S524288_n_01_01_1_wf : ScatterDims.WF S16384x16384 S524288x2 S524288 [] [0, 1] [0, 1] 1
  dot_S16384x16384_S16384x256_S16384x256_1_0_0_1_n_n_wf : DotDims.WF S16384x16384 S16384x256 S16384x256 [1] [0] [0] [1] [] []
  dot_S16384x256_S256x256_S16384x256_1_0_0_1_n_n_wf : DotDims.WF S16384x256 S256x256 S16384x256 [1] [0] [0] [1] [] []

variable [Facts₀]

def scatter_S16384x16384_S524288x2_S524288_n_01_01_1 : ScatterDims S16384x16384 S524288x2 S524288 where
  updateWindowDims := []
  insertedWindowDims := [0, 1]
  scatterDimsToOperandDims := [0, 1]
  indexVectorDim := 1
  wf := scatter_S16384x16384_S524288x2_S524288_n_01_01_1_wf
def dot_S16384x16384_S16384x256_S16384x256_1_0_0_1_n_n : DotDims S16384x16384 S16384x256 S16384x256 where
  lhsContracting := [1]
  rhsContracting := [0]
  lhsNonContracting := [0]
  rhsNonContracting := [1]
  lhsBatch := []
  rhsBatch := []
  wf := dot_S16384x16384_S16384x256_S16384x256_1_0_0_1_n_n_wf
def dot_S16384x256_S256x256_S16384x256_1_0_0_1_n_n : DotDims S16384x256 S256x256 S16384x256 where
  lhsContracting := [1]
  rhsContracting := [0]
  lhsNonContracting := [0]
  rhsNonContracting := [1]
  lhsBatch := []
  rhsBatch := []
  wf := dot_S16384x256_S256x256_S16384x256_1_0_0_1_n_n_wf

class Facts : Prop extends Facts₀ where

variable [Facts]
-- ==== Proof.K.Entry.lean ====
/-
  The region's surroundings, shared by everything about the kernel's run: what the TensorCore's buffers hold
  when the one kernel region is entered (the fold of the host operations before it over the launch memory),
  that @main is those operations followed by the region, that no host operation writes an argument array,
  each window's block at a grid point read off its array, the two conditions of the body's branches decided
  over the grid (the reduction's first step: point ≡ 0 mod 4; its last: point ≡ 3 mod 4), where the output
  window is idle and where it is written back, and the staging memrefs the body is called with.
-/
import proofs.«165845_j14061722927244_1_alg».proof.Proof.Gen.Kernel.Launch
import proofs.«165845_j14061722927244_1_alg».proof.Proof.Gen.Kernel.Skeleton
import proofs.«165845_j14061722927244_1_alg».proof.Proof.Gen.Kernel.Points
import Idealize.ShloMosaic.Lib.Pipeline.FrameBody
import Idealize.ShloMosaic.Lib.Pipeline.Frame
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffer contents when the region is entered: the host operations before it, folded over the launch memory. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- @main is the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-! No host operation writes an argument array: the region finds each as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's current staging buffer holds its block at every point, fetched there or not: the index
    has not moved since the last fetch, the windows are uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- The condition of the body's first branch (the accumulator is reset), from the grid coordinates. -/
abbrev cond0_0 (i : grid0.Coords) : Prop := (Scalar.cmpi .ne (Scalar.extui (Scalar.cmpi .eq (BitVec.ofNat 32 (i 1).val) 0#32)) 0#32) = 1#1
/-- It holds at the points ≡ 0 (mod 4): the first step of each row block's reduction. -/
theorem hcond0_0 : ∀ t : Fin cfg0.N, cond0_0 (grid0.coords t) ↔ t.val % 4 = 0 :=
  (by decide +kernel : ∀ t : Fin grid0.N, cond0_0 (grid0.coords t) ↔ t.val % 4 = 0)
/-- The condition of the body's second branch (the epilogue: both linear layers, the output stored). -/
abbrev cond0_1 (i : grid0.Coords) : Prop := k0_cond2 i = 1#1
/-- It holds at the points ≡ 3 (mod 4): the last step of each row block's reduction. -/
theorem hcond0_1 : ∀ t : Fin cfg0.N, cond0_1 (grid0.coords t) ↔ t.val % 4 = 3 :=
  (by decide +kernel : ∀ t : Fin grid0.N, cond0_1 (grid0.coords t) ↔ t.val % 4 = 3)

/-! The input windows are never idle; the output window is idle, and not written back, away from the last step. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
theorem idleAt0_7 : ∀ t : Fin cfg0.N, ¬cond0_1 (grid0.coords t) → cfg0.idle 7 (grid0.coords t) = true := by decide +kernel
theorem noFlush0_7 : ∀ t : Fin cfg0.N, ¬cond0_1 (grid0.coords t) → (cfg0.win 7).flush t = false := by decide +kernel
theorem liveAt0_7 : ∀ t : Fin cfg0.N, cond0_1 (grid0.coords t) → cfg0.idle 7 (grid0.coords t) = false := by decide +kernel

/-- One staging buffer of the output window, through which its contents are stated. -/
abbrev VO0_7 : View sig .tc .vmem S512x256 .f32 := (Memref.whole cc0_stg7_0 : Memref sig .tc .vmem S512x256 .f32).view
/-! Each window's current staging memref at point `t`, as the pipeline passes it, and its wholeness. -/
abbrev ms0_0 (t : Fin cfg0.N) : Memref sig .tc .vmem S512x4096 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4096x256 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x256 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x256 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x256 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S512x256 .f32 := win0_7.stage (cfg0.slots t 7)
abbrev hs0_7 (t : Fin cfg0.N) : (ms0_7 t).IsWhole := hstage0_7 ((cfg0.slots t 7).cast nbuf0_7)
/-- The accumulator: a whole scoped buffer of the kernel's own, carried between points. -/
abbrev scM0_0 : Memref sig .tc .vmem S512x256 .f32 := Memref.whole cc0_scratch0
abbrev VS0_0 : View sig .tc .vmem S512x256 .f32 := scM0_0.view

/-- The region's invariant with the accumulator as a memref owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Hand

end
-- ==== Proof.K.RunA.lean ====
/-
  The kernel body run once, at a first reduction step (the accumulator is reset, then the block's product added; no epilogue): on whole staging
  memrefs holding the seven input blocks, the output's buffer and the accumulator, the body terminates without
  a fault, leaves the inputs as they were, and leaves in each buffer it stores into the stores' pieces written
  over what was there — the pieces are the witness the run finds.
-/
import proofs.«165845_j14061722927244_1_alg».proof.Proof.K.Entry

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def kernelRun0_A (c : Dev nD) (i : grid0.Coords) (arg2 : Memref sig .tc .vmem S512x4096 .bf16) (harg2 : arg2.IsWhole) (arg3 : Memref sig .tc .vmem S4096x256 .bf16) (harg3 : arg3.IsWhole) (arg4 : Memref sig .tc .vmem S512x256 .bf16) (harg4 : arg4.IsWhole) (arg5 : Memref sig .tc .vmem S256x256 .bf16) (harg5 : arg5.IsWhole) (arg6 : Memref sig .tc .vmem S256 .f32) (harg6 : arg6.IsWhole) (arg7 : Memref sig .tc .vmem S256x256 .bf16) (harg7 : arg7.IsWhole) (arg8 : Memref sig .tc .vmem S256 .f32) (harg8 : arg8.IsWhole) (arg9 : Memref sig .tc .vmem S512x256 .f32) (harg9 : arg9.IsWhole) (arg10 : Memref sig .tc .vmem S512x256 .f32) (harg10 : arg10.IsWhole) (hc0 : cond0_0 i) (hc1 : ¬cond0_1 i)
    (x0 : Vec F S512x4096 .bf16) (x1 : Vec F S4096x256 .bf16) (x2 : Vec F S512x256 .bf16) (x3 : Vec F S256x256 .bf16) (x4 : Vec F S256 .f32) (x5 : Vec F S256x256 .bf16) (x6 : Vec F S256 .f32) :
    Σ' (L7 : List (View.Piece (Elt F) S512x256 .f32)), { LS0 : List (View.Piece (Elt F) S512x256 .f32) //
      ∀ (xi7 : Vec F S512x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ (∃ f, arg10.view.loc (c : Thread nD τ) ↦[arg10.view.set]{fullShare} arg10.view.writes (Elt F) f LS0)) -∗ K ⟨⟩))
          ⊢ wp frame (wpE (defs₀ (F := F)) Variants.none c none) E (cc0__mp_kernel i arg2 harg2 arg3 harg3 arg4 harg4 arg5 harg5 arg6 harg6 arg7 harg7 arg8 harg8 arg9 harg9 arg10 harg10) K } := by
  refine ⟨[], ?_, fun xi7 E K => ?run⟩
  case run =>
    simp only [cc0__mp_kernel_eq_skeleton]; unfold cc0__mp_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    iexists _; iexact HS0

end Cert.Kernel.Hand

end
-- ==== Proof.K.RunB.lean ====
/-
  The kernel body run once, at a middle reduction step (the block's product added to the accumulator; no reset, no epilogue): on whole staging
  memrefs holding the seven input blocks, the output's buffer and the accumulator, the body terminates without
  a fault, leaves the inputs as they were, and leaves in each buffer it stores into the stores' pieces written
  over what was there — the pieces are the witness the run finds.
-/
import proofs.«165845_j14061722927244_1_alg».proof.Proof.K.Entry

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def kernelRun0_B (c : Dev nD) (i : grid0.Coords) (arg2 : Memref sig .tc .vmem S512x4096 .bf16) (harg2 : arg2.IsWhole) (arg3 : Memref sig .tc .vmem S4096x256 .bf16) (harg3 : arg3.IsWhole) (arg4 : Memref sig .tc .vmem S512x256 .bf16) (harg4 : arg4.IsWhole) (arg5 : Memref sig .tc .vmem S256x256 .bf16) (harg5 : arg5.IsWhole) (arg6 : Memref sig .tc .vmem S256 .f32) (harg6 : arg6.IsWhole) (arg7 : Memref sig .tc .vmem S256x256 .bf16) (harg7 : arg7.IsWhole) (arg8 : Memref sig .tc .vmem S256 .f32) (harg8 : arg8.IsWhole) (arg9 : Memref sig .tc .vmem S512x256 .f32) (harg9 : arg9.IsWhole) (arg10 : Memref sig .tc .vmem S512x256 .f32) (harg10 : arg10.IsWhole) (hc0 : ¬cond0_0 i) (hc1 : ¬cond0_1 i)
    (x0 : Vec F S512x4096 .bf16) (x1 : Vec F S4096x256 .bf16) (x2 : Vec F S512x256 .bf16) (x3 : Vec F S256x256 .bf16) (x4 : Vec F S256 .f32) (x5 : Vec F S256x256 .bf16) (x6 : Vec F S256 .f32) (xs0 : Vec F S512x256 .f32) :
    Σ' (L7 : List (View.Piece (Elt F) S512x256 .f32)), { LS0 : List (View.Piece (Elt F) S512x256 .f32) //
      ∀ (xi7 : Vec F S512x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ owns (c : Thread nD τ) arg10 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ (∃ f, arg10.view.loc (c : Thread nD τ) ↦[arg10.view.set]{fullShare} arg10.view.writes (Elt F) f LS0)) -∗ K ⟨⟩))
          ⊢ wp frame (wpE (defs₀ (F := F)) Variants.none c none) E (cc0__mp_kernel i arg2 harg2 arg3 harg3 arg4 harg4 arg5 harg5 arg6 harg6 arg7 harg7 arg8 harg8 arg9 harg9 arg10 harg10) K } := by
  refine ⟨[], ?_, fun xi7 E K => ?run⟩
  case run =>
    simp only [cc0__mp_kernel_eq_skeleton]; unfold cc0__mp_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    iexists _; iexact HS0

end Cert.Kernel.Hand

end
-- ==== Proof.K.RunC.lean ====
/-
  The kernel body run once, at a last reduction step (the block's product added to the accumulator, then the epilogue: both linear layers and the output block stored): on whole staging
  memrefs holding the seven input blocks, the output's buffer and the accumulator, the body terminates without
  a fault, leaves the inputs as they were, and leaves in each buffer it stores into the stores' pieces written
  over what was there — the pieces are the witness the run finds.
-/
import proofs.«165845_j14061722927244_1_alg».proof.Proof.K.Entry

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def kernelRun0_C (c : Dev nD) (i : grid0.Coords) (arg2 : Memref sig .tc .vmem S512x4096 .bf16) (harg2 : arg2.IsWhole) (arg3 : Memref sig .tc .vmem S4096x256 .bf16) (harg3 : arg3.IsWhole) (arg4 : Memref sig .tc .vmem S512x256 .bf16) (harg4 : arg4.IsWhole) (arg5 : Memref sig .tc .vmem S256x256 .bf16) (harg5 : arg5.IsWhole) (arg6 : Memref sig .tc .vmem S256 .f32) (harg6 : arg6.IsWhole) (arg7 : Memref sig .tc .vmem S256x256 .bf16) (harg7 : arg7.IsWhole) (arg8 : Memref sig .tc .vmem S256 .f32) (harg8 : arg8.IsWhole) (arg9 : Memref sig .tc .vmem S512x256 .f32) (harg9 : arg9.IsWhole) (arg10 : Memref sig .tc .vmem S512x256 .f32) (harg10 : arg10.IsWhole) (hc0 : ¬cond0_0 i) (hc1 : cond0_1 i)
    (x0 : Vec F S512x4096 .bf16) (x1 : Vec F S4096x256 .bf16) (x2 : Vec F S512x256 .bf16) (x3 : Vec F S256x256 .bf16) (x4 : Vec F S256 .f32) (x5 : Vec F S256x256 .bf16) (x6 : Vec F S256 .f32) (xs0 : Vec F S512x256 .f32) :
    Σ' (L7 : List (View.Piece (Elt F) S512x256 .f32)), { LS0 : List (View.Piece (Elt F) S512x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LS0)) -∗ K ⟨⟩))
          ⊢ wp frame (wpE (defs₀ (F := F)) Variants.none c none) E (cc0__mp_kernel i arg2 harg2 arg3 harg3 arg4 harg4 arg5 harg5 arg6 harg6 arg7 harg7 arg8 harg8 arg9 harg9 arg10 harg10) K } := by
  refine ⟨?_, ?_, fun E K => ?run⟩
  case run =>
    simp only [cc0__mp_kernel_eq_skeleton]; unfold cc0__mp_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    iexists _; iexact HS0

end Cert.Kernel.Hand

end
-- ==== Proof.K.Shares.lean ====
/-
  How the full share of each input window's array is dealt: the two windows that read the node features
  (window 1 its reduction rows, window 2 its output rows) each hold one half of that one array; every other
  input window holds its own array whole.
-/
import Idealize.ShloMosaic.Lib.Pipeline.Frame

noncomputable section

namespace Cert.Kernel.Hand

open Idealize.ShloMosaic Idealize.SL Idealize.SL.RA

def qshare : Fin 8 → PosShare TreeShare :=
  fun w => if w = 1 then fullShare.left else if w = 2 then fullShare.right else fullShare

theorem qshare_1 : qshare 1 = fullShare.left := rfl
theorem qshare_2 : qshare 2 = fullShare.right := rfl

end Cert.Kernel.Hand

end
-- ==== Proof.K.Frame.lean ====
/-
  What the kernel leaves, step by step, and the body's obligation to the pipeline.  A grid point is (row
  block, reduction step); steps come in three kinds — first (≡ 0 mod 4: the accumulator reset, then the
  block's product added), middle (≡ 1, 2: the product added), last (≡ 3: the product added, then both
  linear layers applied and the output block stored).  `outsAt0` is, by recursion on the point, what the
  output's staging buffer and the accumulator hold after it: the step's kind run on the point's seven input
  blocks, a middle or last step over what the point before left in the accumulator.  The proof data name
  exactly that; the invariant carries the accumulator at it; and at every point the body, run from the
  invariant and the windows' blocks, re-establishes both.
-/
import proofs.«165845_j14061722927244_1_alg».proof.Proof.K.RunA
import proofs.«165845_j14061722927244_1_alg».proof.Proof.K.RunB
import proofs.«165845_j14061722927244_1_alg».proof.Proof.K.RunC
import proofs.«165845_j14061722927244_1_alg».proof.Proof.K.Shares
import Idealize.ShloMosaic.Lib.Ring

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each kind of step leaves -/

/-- What a step of this kind leaves in the output's staging buffer (it stores nothing there: a placeholder nothing consults, the window being idle and not written back). -/
def out0_A_7 (c : Dev nD) (i : grid0.Coords) (arg2 : Memref sig .tc .vmem S512x4096 .bf16) (harg2 : arg2.IsWhole) (arg3 : Memref sig .tc .vmem S4096x256 .bf16) (harg3 : arg3.IsWhole) (arg4 : Memref sig .tc .vmem S512x256 .bf16) (harg4 : arg4.IsWhole) (arg5 : Memref sig .tc .vmem S256x256 .bf16) (harg5 : arg5.IsWhole) (arg6 : Memref sig .tc .vmem S256 .f32) (harg6 : arg6.IsWhole) (arg7 : Memref sig .tc .vmem S256x256 .bf16) (harg7 : arg7.IsWhole) (arg8 : Memref sig .tc .vmem S256 .f32) (harg8 : arg8.IsWhole) (arg9 : Memref sig .tc .vmem S512x256 .f32) (harg9 : arg9.IsWhole) (arg10 : Memref sig .tc .vmem S512x256 .f32) (harg10 : arg10.IsWhole) (hc0 : cond0_0 i) (hc1 : ¬cond0_1 i)
    (x0 : Vec F S512x4096 .bf16) (x1 : Vec F S4096x256 .bf16) (x2 : Vec F S512x256 .bf16) (x3 : Vec F S256x256 .bf16) (x4 : Vec F S256 .f32) (x5 : Vec F S256x256 .bf16) (x6 : Vec F S256 .f32) : Vec F S512x256 .f32 :=
  VO0_7.read (Elt F) (VO0_7.writes (Elt F) VO0_7.junk (kernelRun0_A c i arg2 harg2 arg3 harg3 arg4 harg4 arg5 harg5 arg6 harg6 arg7 harg7 arg8 harg8 arg9 harg9 arg10 harg10 hc0 hc1 x0 x1 x2 x3 x4 x5 x6).1)

/-- The stores into the accumulator cover it. -/
theorem scover0_A_0 (c : Dev nD) (i : grid0.Coords) (arg2 : Memref sig .tc .vmem S512x4096 .bf16) (harg2 : arg2.IsWhole) (arg3 : Memref sig .tc .vmem S4096x256 .bf16) (harg3 : arg3.IsWhole) (arg4 : Memref sig .tc .vmem S512x256 .bf16) (harg4 : arg4.IsWhole) (arg5 : Memref sig .tc .vmem S256x256 .bf16) (harg5 : arg5.IsWhole) (arg6 : Memref sig .tc .vmem S256 .f32) (harg6 : arg6.IsWhole) (arg7 : Memref sig .tc .vmem S256x256 .bf16) (harg7 : arg7.IsWhole) (arg8 : Memref sig .tc .vmem S256 .f32) (harg8 : arg8.IsWhole) (arg9 : Memref sig .tc .vmem S512x256 .f32) (harg9 : arg9.IsWhole) (arg10 : Memref sig .tc .vmem S512x256 .f32) (harg10 : arg10.IsWhole) (hc0 : cond0_0 i) (hc1 : ¬cond0_1 i)
    (x0 : Vec F S512x4096 .bf16) (x1 : Vec F S4096x256 .bf16) (x2 : Vec F S512x256 .bf16) (x3 : Vec F S256x256 .bf16) (x4 : Vec F S256 .f32) (x5 : Vec F S256x256 .bf16) (x6 : Vec F S256 .f32) (y : S512x256.Idx) :
    ∃ pc ∈ (kernelRun0_A c i arg2 harg2 arg3 harg3 arg4 harg4 arg5 harg5 arg6 harg6 arg7 harg7 arg8 harg8 arg9 harg9 arg10 harg10 hc0 hc1 x0 x1 x2 x3 x4 x5 x6).2.1, y ∈ pc.1.set :=
  View.cover_of_tiledL (kernelRun0_A c i arg2 harg2 arg3 harg3 arg4 harg4 arg5 harg5 arg6 harg6 arg7 harg7 arg8 harg8 arg9 harg9 arg10 harg10 hc0 hc1 x0 x1 x2 x3 x4 x5 x6).2.1 S512x256.size (by sl_kernel_rfl) y

/-- What a step of this kind leaves in the accumulator: its pieces read back. -/
def sout0_A_0 (c : Dev nD) (i : grid0.Coords) (arg2 : Memref sig .tc .vmem S512x4096 .bf16) (harg2 : arg2.IsWhole) (arg3 : Memref sig .tc .vmem S4096x256 .bf16) (harg3 : arg3.IsWhole) (arg4 : Memref sig .tc .vmem S512x256 .bf16) (harg4 : arg4.IsWhole) (arg5 : Memref sig .tc .vmem S256x256 .bf16) (harg5 : arg5.IsWhole) (arg6 : Memref sig .tc .vmem S256 .f32) (harg6 : arg6.IsWhole) (arg7 : Memref sig .tc .vmem S256x256 .bf16) (harg7 : arg7.IsWhole) (arg8 : Memref sig .tc .vmem S256 .f32) (harg8 : arg8.IsWhole) (arg9 : Memref sig .tc .vmem S512x256 .f32) (harg9 : arg9.IsWhole) (arg10 : Memref sig .tc .vmem S512x256 .f32) (harg10 : arg10.IsWhole) (hc0 : cond0_0 i) (hc1 : ¬cond0_1 i)
    (x0 : Vec F S512x4096 .bf16) (x1 : Vec F S4096x256 .bf16) (x2 : Vec F S512x256 .bf16) (x3 : Vec F S256x256 .bf16) (x4 : Vec F S256 .f32) (x5 : Vec F S256x256 .bf16) (x6 : Vec F S256 .f32) : Vec F S512x256 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 hc0 hc1 x0 x1 x2 x3 x4 x5 x6).2.1)

/-- What a step of this kind leaves in the output's staging buffer (it stores nothing there: a placeholder nothing consults, the window being idle and not written back). -/
def out0_B_7 (c : Dev nD) (i : grid0.Coords) (arg2 : Memref sig .tc .vmem S512x4096 .bf16) (harg2 : arg2.IsWhole) (arg3 : Memref sig .tc .vmem S4096x256 .bf16) (harg3 : arg3.IsWhole) (arg4 : Memref sig .tc .vmem S512x256 .bf16) (harg4 : arg4.IsWhole) (arg5 : Memref sig .tc .vmem S256x256 .bf16) (harg5 : arg5.IsWhole) (arg6 : Memref sig .tc .vmem S256 .f32) (harg6 : arg6.IsWhole) (arg7 : Memref sig .tc .vmem S256x256 .bf16) (harg7 : arg7.IsWhole) (arg8 : Memref sig .tc .vmem S256 .f32) (harg8 : arg8.IsWhole) (arg9 : Memref sig .tc .vmem S512x256 .f32) (harg9 : arg9.IsWhole) (arg10 : Memref sig .tc .vmem S512x256 .f32) (harg10 : arg10.IsWhole) (hc0 : ¬cond0_0 i) (hc1 : ¬cond0_1 i)
    (x0 : Vec F S512x4096 .bf16) (x1 : Vec F S4096x256 .bf16) (x2 : Vec F S512x256 .bf16) (x3 : Vec F S256x256 .bf16) (x4 : Vec F S256 .f32) (x5 : Vec F S256x256 .bf16) (x6 : Vec F S256 .f32) (xs0 : Vec F S512x256 .f32) : Vec F S512x256 .f32 :=
  VO0_7.read (Elt F) (VO0_7.writes (Elt F) VO0_7.junk (kernelRun0_B c i arg2 harg2 arg3 harg3 arg4 harg4 arg5 harg5 arg6 harg6 arg7 harg7 arg8 harg8 arg9 harg9 arg10 harg10 hc0 hc1 x0 x1 x2 x3 x4 x5 x6 xs0).1)

/-- The stores into the accumulator cover it. -/
theorem scover0_B_0 (c : Dev nD) (i : grid0.Coords) (arg2 : Memref sig .tc .vmem S512x4096 .bf16) (harg2 : arg2.IsWhole) (arg3 : Memref sig .tc .vmem S4096x256 .bf16) (harg3 : arg3.IsWhole) (arg4 : Memref sig .tc .vmem S512x256 .bf16) (harg4 : arg4.IsWhole) (arg5 : Memref sig .tc .vmem S256x256 .bf16) (harg5 : arg5.IsWhole) (arg6 : Memref sig .tc .vmem S256 .f32) (harg6 : arg6.IsWhole) (arg7 : Memref sig .tc .vmem S256x256 .bf16) (harg7 : arg7.IsWhole) (arg8 : Memref sig .tc .vmem S256 .f32) (harg8 : arg8.IsWhole) (arg9 : Memref sig .tc .vmem S512x256 .f32) (harg9 : arg9.IsWhole) (arg10 : Memref sig .tc .vmem S512x256 .f32) (harg10 : arg10.IsWhole) (hc0 : ¬cond0_0 i) (hc1 : ¬cond0_1 i)
    (x0 : Vec F S512x4096 .bf16) (x1 : Vec F S4096x256 .bf16) (x2 : Vec F S512x256 .bf16) (x3 : Vec F S256x256 .bf16) (x4 : Vec F S256 .f32) (x5 : Vec F S256x256 .bf16) (x6 : Vec F S256 .f32) (xs0 : Vec F S512x256 .f32) (y : S512x256.Idx) :
    ∃ pc ∈ (kernelRun0_B c i arg2 harg2 arg3 harg3 arg4 harg4 arg5 harg5 arg6 harg6 arg7 harg7 arg8 harg8 arg9 harg9 arg10 harg10 hc0 hc1 x0 x1 x2 x3 x4 x5 x6 xs0).2.1, y ∈ pc.1.set :=
  View.cover_of_tiledL (kernelRun0_B c i arg2 harg2 arg3 harg3 arg4 harg4 arg5 harg5 arg6 harg6 arg7 harg7 arg8 harg8 arg9 harg9 arg10 harg10 hc0 hc1 x0 x1 x2 x3 x4 x5 x6 xs0).2.1 S512x256.size (by sl_kernel_rfl) y

/-- What a step of this kind leaves in the accumulator: its pieces read back. -/
def sout0_B_0 (c : Dev nD) (i : grid0.Coords) (arg2 : Memref sig .tc .vmem S512x4096 .bf16) (harg2 : arg2.IsWhole) (arg3 : Memref sig .tc .vmem S4096x256 .bf16) (harg3 : arg3.IsWhole) (arg4 : Memref sig .tc .vmem S512x256 .bf16) (harg4 : arg4.IsWhole) (arg5 : Memref sig .tc .vmem S256x256 .bf16) (harg5 : arg5.IsWhole) (arg6 : Memref sig .tc .vmem S256 .f32) (harg6 : arg6.IsWhole) (arg7 : Memref sig .tc .vmem S256x256 .bf16) (harg7 : arg7.IsWhole) (arg8 : Memref sig .tc .vmem S256 .f32) (harg8 : arg8.IsWhole) (arg9 : Memref sig .tc .vmem S512x256 .f32) (harg9 : arg9.IsWhole) (arg10 : Memref sig .tc .vmem S512x256 .f32) (harg10 : arg10.IsWhole) (hc0 : ¬cond0_0 i) (hc1 : ¬cond0_1 i)
    (x0 : Vec F S512x4096 .bf16) (x1 : Vec F S4096x256 .bf16) (x2 : Vec F S512x256 .bf16) (x3 : Vec F S256x256 .bf16) (x4 : Vec F S256 .f32) (x5 : Vec F S256x256 .bf16) (x6 : Vec F S256 .f32) (xs0 : Vec F S512x256 .f32) : Vec F S512x256 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 hc0 hc1 x0 x1 x2 x3 x4 x5 x6 xs0).2.1)

/-- What a step of this kind leaves in the output's staging buffer: its pieces read back. -/
def out0_C_7 (c : Dev nD) (i : grid0.Coords) (arg2 : Memref sig .tc .vmem S512x4096 .bf16) (harg2 : arg2.IsWhole) (arg3 : Memref sig .tc .vmem S4096x256 .bf16) (harg3 : arg3.IsWhole) (arg4 : Memref sig .tc .vmem S512x256 .bf16) (harg4 : arg4.IsWhole) (arg5 : Memref sig .tc .vmem S256x256 .bf16) (harg5 : arg5.IsWhole) (arg6 : Memref sig .tc .vmem S256 .f32) (harg6 : arg6.IsWhole) (arg7 : Memref sig .tc .vmem S256x256 .bf16) (harg7 : arg7.IsWhole) (arg8 : Memref sig .tc .vmem S256 .f32) (harg8 : arg8.IsWhole) (arg9 : Memref sig .tc .vmem S512x256 .f32) (harg9 : arg9.IsWhole) (arg10 : Memref sig .tc .vmem S512x256 .f32) (harg10 : arg10.IsWhole) (hc0 : ¬cond0_0 i) (hc1 : cond0_1 i)
    (x0 : Vec F S512x4096 .bf16) (x1 : Vec F S4096x256 .bf16) (x2 : Vec F S512x256 .bf16) (x3 : Vec F S256x256 .bf16) (x4 : Vec F S256 .f32) (x5 : Vec F S256x256 .bf16) (x6 : Vec F S256 .f32) (xs0 : Vec F S512x256 .f32) : Vec F S512x256 .f32 :=
  VO0_7.read (Elt F) (VO0_7.writes (Elt F) VO0_7.junk (kernelRun0_C c i arg2 harg2 arg3 harg3 arg4 harg4 arg5 harg5 arg6 harg6 arg7 harg7 arg8 harg8 arg9 harg9 arg10 harg10 hc0 hc1 x0 x1 x2 x3 x4 x5 x6 xs0).1)

/-- The one store of the epilogue covers the output block. -/
theorem cover0_C_7 (c : Dev nD) (i : grid0.Coords) (arg2 : Memref sig .tc .vmem S512x4096 .bf16) (harg2 : arg2.IsWhole) (arg3 : Memref sig .tc .vmem S4096x256 .bf16) (harg3 : arg3.IsWhole) (arg4 : Memref sig .tc .vmem S512x256 .bf16) (harg4 : arg4.IsWhole) (arg5 : Memref sig .tc .vmem S256x256 .bf16) (harg5 : arg5.IsWhole) (arg6 : Memref sig .tc .vmem S256 .f32) (harg6 : arg6.IsWhole) (arg7 : Memref sig .tc .vmem S256x256 .bf16) (harg7 : arg7.IsWhole) (arg8 : Memref sig .tc .vmem S256 .f32) (harg8 : arg8.IsWhole) (arg9 : Memref sig .tc .vmem S512x256 .f32) (harg9 : arg9.IsWhole) (arg10 : Memref sig .tc .vmem S512x256 .f32) (harg10 : arg10.IsWhole) (hc0 : ¬cond0_0 i) (hc1 : cond0_1 i)
    (x0 : Vec F S512x4096 .bf16) (x1 : Vec F S4096x256 .bf16) (x2 : Vec F S512x256 .bf16) (x3 : Vec F S256x256 .bf16) (x4 : Vec F S256 .f32) (x5 : Vec F S256x256 .bf16) (x6 : Vec F S256 .f32) (xs0 : Vec F S512x256 .f32) (y : S512x256.Idx) :
    ∃ pc ∈ (kernelRun0_C c i arg2 harg2 arg3 harg3 arg4 harg4 arg5 harg5 arg6 harg6 arg7 harg7 arg8 harg8 arg9 harg9 arg10 harg10 hc0 hc1 x0 x1 x2 x3 x4 x5 x6 xs0).1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 x3 x4 x5 x6 xs0).1 S512x256.size (by sl_kernel_rfl) y

/-- The stores into the accumulator cover it. -/
theorem scover0_C_0 (c : Dev nD) (i : grid0.Coords) (arg2 : Memref sig .tc .vmem S512x4096 .bf16) (harg2 : arg2.IsWhole) (arg3 : Memref sig .tc .vmem S4096x256 .bf16) (harg3 : arg3.IsWhole) (arg4 : Memref sig .tc .vmem S512x256 .bf16) (harg4 : arg4.IsWhole) (arg5 : Memref sig .tc .vmem S256x256 .bf16) (harg5 : arg5.IsWhole) (arg6 : Memref sig .tc .vmem S256 .f32) (harg6 : arg6.IsWhole) (arg7 : Memref sig .tc .vmem S256x256 .bf16) (harg7 : arg7.IsWhole) (arg8 : Memref sig .tc .vmem S256 .f32) (harg8 : arg8.IsWhole) (arg9 : Memref sig .tc .vmem S512x256 .f32) (harg9 : arg9.IsWhole) (arg10 : Memref sig .tc .vmem S512x256 .f32) (harg10 : arg10.IsWhole) (hc0 : ¬cond0_0 i) (hc1 : cond0_1 i)
    (x0 : Vec F S512x4096 .bf16) (x1 : Vec F S4096x256 .bf16) (x2 : Vec F S512x256 .bf16) (x3 : Vec F S256x256 .bf16) (x4 : Vec F S256 .f32) (x5 : Vec F S256x256 .bf16) (x6 : Vec F S256 .f32) (xs0 : Vec F S512x256 .f32) (y : S512x256.Idx) :
    ∃ pc ∈ (kernelRun0_C c i arg2 harg2 arg3 harg3 arg4 harg4 arg5 harg5 arg6 harg6 arg7 harg7 arg8 harg8 arg9 harg9 arg10 harg10 hc0 hc1 x0 x1 x2 x3 x4 x5 x6 xs0).2.1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 x3 x4 x5 x6 xs0).2.1 S512x256.size (by sl_kernel_rfl) y

/-- What a step of this kind leaves in the accumulator: its pieces read back. -/
def sout0_C_0 (c : Dev nD) (i : grid0.Coords) (arg2 : Memref sig .tc .vmem S512x4096 .bf16) (harg2 : arg2.IsWhole) (arg3 : Memref sig .tc .vmem S4096x256 .bf16) (harg3 : arg3.IsWhole) (arg4 : Memref sig .tc .vmem S512x256 .bf16) (harg4 : arg4.IsWhole) (arg5 : Memref sig .tc .vmem S256x256 .bf16) (harg5 : arg5.IsWhole) (arg6 : Memref sig .tc .vmem S256 .f32) (harg6 : arg6.IsWhole) (arg7 : Memref sig .tc .vmem S256x256 .bf16) (harg7 : arg7.IsWhole) (arg8 : Memref sig .tc .vmem S256 .f32) (harg8 : arg8.IsWhole) (arg9 : Memref sig .tc .vmem S512x256 .f32) (harg9 : arg9.IsWhole) (arg10 : Memref sig .tc .vmem S512x256 .f32) (harg10 : arg10.IsWhole) (hc0 : ¬cond0_0 i) (hc1 : cond0_1 i)
    (x0 : Vec F S512x4096 .bf16) (x1 : Vec F S4096x256 .bf16) (x2 : Vec F S512x256 .bf16) (x3 : Vec F S256x256 .bf16) (x4 : Vec F S256 .f32) (x5 : Vec F S256x256 .bf16) (x6 : Vec F S256 .f32) (xs0 : Vec F S512x256 .f32) : Vec F S512x256 .f32 :=
  VS0_0.read (Elt F) (VS0_0.writes (Elt F) VS0_0.junk (kernelRun0_C c i arg2 harg2 arg3 harg3 arg4 harg4 arg5 harg5 arg6 harg6 arg7 harg7 arg8 harg8 arg9 harg9 arg10 harg10 hc0 hc1 x0 x1 x2 x3 x4 x5 x6 xs0).2.1)

/-! ## What the output's buffer and the accumulator hold after each point -/

def outsAt0 (c : Dev nD) : (n : ℕ) → n < cfg0.N → Vec F S512x256 .f32 × Vec F S512x256 .f32
  | 0, hn => (out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩))
  | n + 1, hn =>
    if h0 : (n + 1) % 4 = 0 then
      if h1 : (n + 1) % 4 = 3 then
        False.elim (by omega)
      else
        (out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩))
    else
      if h1 : (n + 1) % 4 = 3 then
        (out0_C_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2)
      else
        (out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2)

theorem outsAt0_A (c : Dev nD) (t : Fin cfg0.N) (h0 : t.val % 4 = 0) (h1 : ¬t.val % 4 = 3) :
    outsAt0 m c t.val t.isLt = (out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t)) := by
  obtain ⟨n, hn⟩ := t
  cases n with
  | zero => exact rfl
  | succ n => exact (dif_pos h0).trans ((dif_neg h1).trans rfl)

theorem outsAt0_B (c : Dev nD) (t : Fin cfg0.N) (h0 : ¬t.val % 4 = 0) (h1 : ¬t.val % 4 = 3) :
    outsAt0 m c t.val t.isLt = (out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 4 = 0) (h1 : t.val % 4 = 3) :
    outsAt0 m c t.val t.isLt = (out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point the accumulator holds anything;
    afterwards what the point before left in it. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (outsAt0 m c t.val t.isLt).1
  Φ t := PhiS m c t.val (Nat.le_of_lt_succ t.isLt)
  q w := qshare w
  owed _ := 0

theorem A_eq (c : Dev nD) (w : Fin cfg0.W) : (dats m 0 c).A w = V m c (Pipeline.arrRef spec0 w) := by
  dsimp only [dats]

theorem q_eq (c : Dev nD) (w : Fin cfg0.W) : (dats m 0 c).q w = qshare w := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl]
  rw [show (dats m 0 c).Φ t.succ = PhiS m c (t.val + 1) t.isLt from rfl, PhiS_succ]
  have hN : t.val < 128 := lt_of_lt_of_eq t.isLt (show cfg0.N = 128 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  by_cases h0 : t.val % 4 = 0
  · by_cases h1 : t.val % 4 = 3
    · exfalso; omega
    · rw [Dat.leavesExact_idle (dats m 0 c) 7 t (idleAt0_7 t (fun h => h1 ((hcond0_1 t).mp h))) (noFlush0_7 t (fun h => h1 ((hcond0_1 t).mp h)))]
      rw [outsAt0_A m c t h0 h1]
      unfold sout0_A_0; (try dsimp only)
      by_cases hz : t.val = 0
      · rw [PhiS_castSucc m c t, PhiS_zero m c _ _ hz, PhiA0_eq]
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS0]; · iexact HS0
        iintro ⟨H0, H1, H2, H3, H4, H5, H6, H7, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexists _; iexact H7
      · rw [PhiS_castSucc m c t, PhiS_pos m c _ _ hz]
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS0]; · iexists _; iexact HS0
        iintro ⟨H0, H1, H2, H3, H4, H5, H6, H7, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexists _; iexact H7
  · by_cases h1 : t.val % 4 = 3
    · rw [show (dats m 0 c).leavesExact 7 t = owns (c : Thread nD τ) (ms0_7 t) fullShare ((dats m 0 c).after 7 t) from by
        unfold Dat.leavesExact; rw [liveAt0_7 t ((hcond0_1 t).mpr h1)], after0_7]
      rw [outsAt0_C m c t h0 h1]
      unfold out0_C_7 sout0_C_0; (try dsimp only)
      by_cases hz : t.val = 0
      · exfalso; omega
      · rw [PhiS_castSucc m c t, PhiS_pos m c _ _ hz]
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) _).2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        isplitl [HS0]; · iexact HS0
        iintro ⟨H0, H1, H2, H3, H4, H5, H6, ⟨%e7, H7⟩, ⟨%es0, HS0⟩⟩
        isplitl [HS0 Hg]
        · isplitl [HS0]
          · unfold owns; iexists _; isplitr
            swap; · iexact HS0
            ipureintro; exact View.read_writes_of_cover _ _ _ _ _ (scover0_C_0 c _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        unfold owns; iexists _; isplitr
        swap; · iexact H7
        ipureintro; exact View.read_writes_of_cover _ _ _ _ _ (cover0_C_7 c _ _ _ _ _ _ _ _ _ _ _ _ _ _ _ _ _ _ _ _ _ _ _ _ _ _ _ _ _)
    · rw [Dat.leavesExact_idle (dats m 0 c) 7 t (idleAt0_7 t (fun h => h1 ((hcond0_1 t).mp h))) (noFlush0_7 t (fun h => h1 ((hcond0_1 t).mp h)))]
      rw [outsAt0_B m c t h0 h1]
      unfold sout0_B_0; (try dsimp only)
      by_cases hz : t.val = 0
      · exfalso; omega
      · rw [PhiS_castSucc m c t, PhiS_pos m c _ _ hz]
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS0]; · iexact HS0
        iintro ⟨H0, H1, H2, H3, H4, H5, H6, H7, ⟨%es0, HS0⟩⟩
        isplitl [HS0 Hg]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexists _; iexact H7

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives back the class's: the accumulator's contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 128 := N_0; omega)

end Cert.Kernel.Hand

end
-- ==== Proof.K.Launch.lean ====
/-
  The launch of the kernel region when two input windows read one array.

  Windows 1 and 2 both read the bf16 node features (window 1 the rows of the current reduction step, window 2
  the rows of the current output block), so the eight windows stand on seven distinct buffers. At the region's
  entry each of those buffers is held whole at the full share; the windows' arrays are stated per window, each
  at the window's own share. The deal: the shared buffer's full share is cut into its left and right halves,
  one for each of its two readers (reading needs no more than a positive share, and nothing is written through
  an input window); every other buffer goes whole to its one window, the output window's among them.

  With that deal in hand the run of @main follows the general region theorem for windows that may share arrays:
  the generator register and the kernel's accumulator enter the point-by-point invariant and come back from it,
  the unscoped buffers that are no window's array bypass the region and are read back unchanged, and every
  window's array ends at what the proof data compute for it.
-/
import proofs.«165845_j14061722927244_1_alg».proof.Proof.K.Entry
import proofs.«165845_j14061722927244_1_alg».proof.Proof.K.Shares
import Idealize.ShloMosaic.Lib.Pipeline.Launch

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The share the proof data hold window `w`'s array at is `qshare w`: an input window's by hypothesis, the
    output window's (the full share) because `qshare` is the full share off windows 1 and 2. -/
theorem share_eq {c : Dev nD} (dat : Dat τ (Elt F) Unit ℕ (UR sig nD τ) ℕ cfg0 c)
    (hq : ∀ w, dat.q w = qshare w) (w : Fin 8) : dat.share w = qshare w := by
  unfold Dat.share; rw [hq]
  revert w; decide

/-- The windows' arrays at the region's entry, window by window: every array is a whole buffer, so its
    points-to is the buffer's, at the window's share and at the entry contents. -/
theorem arrays_eq_deal {c : Dev nD} (dat : Dat τ (Elt F) Unit ℕ (UR sig nD τ) ℕ cfg0 c)
    (hq : ∀ w, dat.q w = qshare w) (Vc : (b : Ref sig .tc) → Buf (Elt F) ((c : Thread nD τ).loc b))
    (hA : ∀ w, dat.A w = Vc (Pipeline.arrRef spec0 w)) :
    (dat.arrays (dat.arrAt · 0) : sProp 𝕄)
      = bigSep Finset.univ fun w : Fin 8 => (((c : Thread nD τ).loc (Pipeline.arrRef spec0 w)) ↦{qshare w} Vc (Pipeline.arrRef spec0 w) : sProp 𝕄) := by
  unfold Dat.arrays
  exact bigSep_congr fun w _ => by
    rw [(arr_whole0 w).set_eq_univ, share_eq dat hq w, show (fun x => dat.arrAt x 0) w = dat.A w from rfl, hA w]

/-- THE DEAL. The seven distinct buffers behind the eight windows' arrays, each whole at the full share, make the
    windows' arrays at their shares: the node features' full share splits into its two halves, one per reader;
    each other buffer is its one window's. -/
theorem arrays_deal {c : Dev nD} (dat : Dat τ (Elt F) Unit ℕ (UR sig nD τ) ℕ cfg0 c)
    (hq : ∀ w, dat.q w = qshare w) (Vc : (b : Ref sig .tc) → Buf (Elt F) ((c : Thread nD τ).loc b))
    (hA : ∀ w, dat.A w = Vc (Pipeline.arrRef spec0 w)) :
    (Pipeline.arrBufs spec0 c Vc : sProp 𝕄) ⊢ dat.arrays (dat.arrAt · 0) := by
  rw [arrays_eq_deal dat hq Vc hA, Gen.bigSep_W0]
  unfold Pipeline.arrBufs
  rw [bigSep_eq_bigSepL_of_eq [main_v34, main_v35, main_v37, main_arg5, main_v39, main_arg3, main_v40] (by decide) (by decide)]
  refine (show (iprop((((c : Thread nD τ).loc main_v34) ↦{fullShare} Vc main_v34)
      ∗ (((c : Thread nD τ).loc main_v35) ↦{fullShare} Vc main_v35)
      ∗ (((c : Thread nD τ).loc main_v37) ↦{fullShare} Vc main_v37)
      ∗ (((c : Thread nD τ).loc main_arg5) ↦{fullShare} Vc main_arg5)
      ∗ (((c : Thread nD τ).loc main_v39) ↦{fullShare} Vc main_v39)
      ∗ (((c : Thread nD τ).loc main_arg3) ↦{fullShare} Vc main_arg3)
      ∗ (((c : Thread nD τ).loc main_v40) ↦{fullShare} Vc main_v40)) : sProp 𝕄) ⊢ (iprop((((c : Thread nD τ).loc main_v34) ↦{fullShare} Vc main_v34)
      ∗ (((c : Thread nD τ).loc main_v35) ↦{fullShare.left} Vc main_v35)
      ∗ (((c : Thread nD τ).loc main_v35) ↦{fullShare.right} Vc main_v35)
      ∗ (((c : Thread nD τ).loc main_v37) ↦{fullShare} Vc main_v37)
      ∗ (((c : Thread nD τ).loc main_arg5) ↦{fullShare} Vc main_arg5)
      ∗ (((c : Thread nD τ).loc main_v39) ↦{fullShare} Vc main_v39)
      ∗ (((c : Thread nD τ).loc main_arg3) ↦{fullShare} Vc main_arg3)
      ∗ (((c : Thread nD τ).loc main_v40) ↦{fullShare} Vc main_v40)) : sProp 𝕄) from ?_)
  iintro ⟨HA, HB, HC, HD, HE, HF, HG⟩
  ihave HB := (pointsTo_share (PosShare.mem_left_op_right fullShare)).1 $$ HB
  icases HB with ⟨HB₁, HB₂⟩
  isplitl [HA]; · iexact HA
  isplitl [HB₁]; · iexact HB₁
  isplitl [HB₂]; · iexact HB₂
  isplitl [HC]; · iexact HC
  isplitl [HD]; · iexact HD
  isplitl [HE]; · iexact HE
  isplitl [HF]; · iexact HF
  iexact HG

set_option backward.isDefEq.respectTransparency.types false in
/-- THE RUN. From any memory with every counter at zero, every weakly fair execution of @main terminates, and in
    every final state each window's array holds what the proof data compute for it after the last point, and
    every other unscoped buffer what it held at the region's entry. Asked of the proof data: the body obligation
    at every point; that the input windows hold their arrays at the shares `qshare`; that nothing is owed; that
    the arrays at entry are the entry contents; and that the invariant is entered from, and returns to, the
    scoped rest with the generator register at some state. -/
theorem run_of (dats : (p : Fin 1) → (c : Dev nD) → Dat τ (Elt F) Unit ℕ (UR sig nD τ) ℕ (cfgs p) c)
    (hbody : ∀ c, Pipeline.BodyObligationLoose (dats 0 c) (defs₀ (F := F)) Variants.none () Set.univ)
    (hq : ∀ c w, (dats 0 c).q w = qshare w)
    (howed : ∀ c t, (dats 0 c).owed t = 0)
    (hA : ∀ c w, (dats 0 c).A w = V m c (Pipeline.arrRef spec0 w))
    (hin : ∀ c, Pipeline.ΦA spec0 c ⊢ (dats 0 c).Φ 0)
    (hout : ∀ c, (dats 0 c).Φ (Fin.last cfg0.N) ⊢ Pipeline.ΦA spec0 c) :
    θ_run defs (onTc (τ := τ) (main (F := F))) ⟨m, fun _ => 0, ρ⟩ (Pipeline.FramePost cfgs dats 0 (V m)) := by
  classical
  exact Pipeline.θ_run_region_pf (fun q => (cfgs q).toPCfg (Val := Elt F)) (fun q => (cfgs q).toPCfg_adm) dats () Gen.cellOf_inj (0 : Fin 1)
    Gen.winFacts₀0 (Pipeline.OwnSemFacts.none spec0) (Pipeline.PreFacts.none _) emb₁ defs₀ Variants.none m ρ main
    hbody Gen.block_pos0 Gen.arr_whole0 Gen.stage_whole0 howed
    (G := fun _ => iprop(emp))
    (u₀ := initOf (Pipeline.cells (Pipeline.pin (fun q => (cfgs q).toPCfg (Val := Elt F)) (fun q => (cfgs q).toPCfg_adm)) Gen.cellOf_inj)
      (Pipeline.launchToks (Pipeline.pin (fun q => (cfgs q).toPCfg (Val := Elt F)) (fun q => (cfgs q).toPCfg_adm)) Gen.cellOf_inj))
    (hu₀ := by
      iintro Hu; imodintro
      isplitl [Hu]
      · iapply (show (ownU _ : sProp 𝕄) ⊢ BI.own (emb₁ (initOf (Pipeline.cells (Pipeline.pin (fun q => (cfgs q).toPCfg (Val := Elt F)) (fun q => (cfgs q).toPCfg_adm)) Gen.cellOf_inj)
          (Pipeline.launchToks (Pipeline.pin (fun q => (cfgs q).toPCfg (Val := Elt F)) (fun q => (cfgs q).toPCfg_adm)) Gen.cellOf_inj))) from .rfl)
        iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := fun c => arrays_deal (dats 0 c) (hq c) (V m c) (hA c))
    (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) Pipeline.Prefetch.none spec0 c (V m c))
    (hX := fun c => by
      iintro ⟨HU, -, -, -, Hp, -⟩; imodintro
      isplitl [Hp]; · iexists _; iexact Hp
      iexact HU)
    (hin := fun c => (show _ ⊢ Pipeline.ΦA spec0 c by
        unfold Pipeline.ΦA; iintro ⟨Hp, -, Hr⟩
        isplitl [Hr] <;> iassumption).trans (hin c))
    (hout := fun c => (hout c).trans (by
        rw [Pipeline.ownSems0_none]; unfold Pipeline.ΦA
        iintro ⟨Hr, Hp⟩
        isplitl [Hp]; · iexact Hp
        isplitr; · iempintro
        iexact Hr))
    (QY := fun c s => ∀ b ∈ Pipeline.restRefsP sig Pipeline.Prefetch.none spec0, s.mem ((c : Thread nD τ).loc b) = V m c b)
    (hY := fun c s' => by
      iintro ⟨-, HU, HSI⟩
      unfold Pipeline.unscopedRestP
      imodintro
      iapply (pointsTo_read_all (Pipeline.restRefsP sig Pipeline.Prefetch.none spec0) (fun b => (c : Thread nD τ).loc b) (V m c) s')
      isplitl [HU] <;> iassumption)
    (hQ := fun s h c => ⟨(h c).1, Pipeline.rest_of_restP Pipeline.Prefetch.none spec0 _ c (V m c) s (fun k => k.elim0) (h c).2.1 (h c).2.2⟩)

end Cert.Kernel.Hand

end
-- ==== Proof.K.Run.lean ====
/-
  The program's run and its frame: @main's host operations, then the region — launched with the features'
  array dealt in halves to the two windows that read it —, terminate without a fault under every weakly fair
  schedule, every window's array ending at what the proof data compute and every other buffer as the region
  found it; in particular no argument array is changed.
-/
import proofs.«165845_j14061722927244_1_alg».proof.Proof.K.Frame
import proofs.«165845_j14061722927244_1_alg».proof.Proof.K.Launch

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem run_main : θ_run defs (onTc (τ := τ) (main (F := F))) ⟨m, fun _ => 0, ρ⟩ (Pipeline.FramePost cfgs (dats m) 0 (V m)) :=
  run_of m ρ (dats m) (fun c => (body_obligation m c).loose) (q_eq m) (fun _ _ => rfl) (A_eq m) (hin m) (hout m)

/-- The frame: every argument array ends as launched — two of them (the biases) are windows' arrays, read back by
    the pipeline's account of an input array; the others bypass the region. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).1 6).trans (((dats m 0 c).arrAt_in 6 rfl _).trans ((A_eq m c 6).trans (V_main_arg3 m c))),
      ((h c).2 main_arg4 (Pipeline.mem_restRefs_of main_arg4 (by decide) (by decide))).trans (V_main_arg4 m c),
      ((h c).1 4).trans (((dats m 0 c).arrAt_in 4 rfl _).trans ((A_eq m c 4).trans (V_main_arg5 m c)))⟩)
    (run_main m ρ)

end Cert.Kernel.Hand

end
-- ==== Proof.KI.Entry.lean ====
/-
  The region's surroundings, shared by everything about the kernel's run: what the TensorCore's buffers hold
  when the one kernel region is entered (the fold of the host operations before it over the launch memory),
  that @main is those operations followed by the region, that no host operation writes an argument array,
  each window's block at a grid point read off its array, the two conditions of the body's branches decided
  over the grid (the reduction's first step: point ≡ 0 mod 4; its last: point ≡ 3 mod 4), where the output
  window is idle and where it is written back, and the staging memrefs the body is called with.
-/
import proofs.«165845_j14061722927244_1_alg».proof.Proof.Gen.KernelIdeal.Launch
import proofs.«165845_j14061722927244_1_alg».proof.Proof.Gen.KernelIdeal.Skeleton
import proofs.«165845_j14061722927244_1_alg».proof.Proof.Gen.KernelIdeal.Points
import Idealize.ShloMosaic.Lib.Pipeline.FrameBody
import Idealize.ShloMosaic.Lib.Pipeline.Frame
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffer contents when the region is entered: the host operations before it, folded over the launch memory. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- @main is the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-! No host operation writes an argument array: the region finds each as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's current staging buffer holds its block at every point, fetched there or not: the index
    has not moved since the last fetch, the windows are uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- The condition of the body's first branch (the accumulator is reset), from the grid coordinates. -/
abbrev cond0_0 (i : grid0.Coords) : Prop := (Scalar.cmpi .ne (Scalar.extui (Scalar.cmpi .eq (BitVec.ofNat 32 (i 1).val) 0#32)) 0#32) = 1#1
/-- It holds at the points ≡ 0 (mod 4): the first step of each row block's reduction. -/
theorem hcond0_0 : ∀ t : Fin cfg0.N, cond0_0 (grid0.coords t) ↔ t.val % 4 = 0 :=
  (by decide +kernel : ∀ t : Fin grid0.N, cond0_0 (grid0.coords t) ↔ t.val % 4 = 0)
/-- The condition of the body's second branch (the epilogue: both linear layers, the output stored). -/
abbrev cond0_1 (i : grid0.Coords) : Prop := k0_cond2 i = 1#1
/-- It holds at the points ≡ 3 (mod 4): the last step of each row block's reduction. -/
theorem hcond0_1 : ∀ t : Fin cfg0.N, cond0_1 (grid0.coords t) ↔ t.val % 4 = 3 :=
  (by decide +kernel : ∀ t : Fin grid0.N, cond0_1 (grid0.coords t) ↔ t.val % 4 = 3)

/-! The input windows are never idle; the output window is idle, and not written back, away from the last step. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
theorem idleAt0_7 : ∀ t : Fin cfg0.N, ¬cond0_1 (grid0.coords t) → cfg0.idle 7 (grid0.coords t) = true := by decide +kernel
theorem noFlush0_7 : ∀ t : Fin cfg0.N, ¬cond0_1 (grid0.coords t) → (cfg0.win 7).flush t = false := by decide +kernel
theorem liveAt0_7 : ∀ t : Fin cfg0.N, cond0_1 (grid0.coords t) → cfg0.idle 7 (grid0.coords t) = false := by decide +kernel

/-- One staging buffer of the output window, through which its contents are stated. -/
abbrev VO0_7 : View sig .tc .vmem S512x256 .f32 := (Memref.whole cc0_stg7_0 : Memref sig .tc .vmem S512x256 .f32).view
/-! Each window's current staging memref at point `t`, as the pipeline passes it, and its wholeness. -/
abbrev ms0_0 (t : Fin cfg0.N) : Memref sig .tc .vmem S512x4096 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4096x256 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x256 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x256 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x256 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S512x256 .f32 := win0_7.stage (cfg0.slots t 7)
abbrev hs0_7 (t : Fin cfg0.N) : (ms0_7 t).IsWhole := hstage0_7 ((cfg0.slots t 7).cast nbuf0_7)
/-- The accumulator: a whole scoped buffer of the kernel's own, carried between points. -/
abbrev scM0_0 : Memref sig .tc .vmem S512x256 .f32 := Memref.whole cc0_scratch0
abbrev VS0_0 : View sig .tc .vmem S512x256 .f32 := scM0_0.view

/-- The region's invariant with the accumulator as a memref owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Hand

end
-- ==== Proof.KI.RunA.lean ====
/-
  The kernel body run once, at a first reduction step (the accumulator is reset, then the block's product added; no epilogue): on whole staging
  memrefs holding the seven input blocks, the output's buffer and the accumulator, the body terminates without
  a fault, leaves the inputs as they were, and leaves in each buffer it stores into the stores' pieces written
  over what was there — the pieces are the witness the run finds.
-/
import proofs.«165845_j14061722927244_1_alg».proof.Proof.KI.Entry

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def kernelRun0_A (c : Dev nD) (i : grid0.Coords) (arg2 : Memref sig .tc .vmem S512x4096 .bf16) (harg2 : arg2.IsWhole) (arg3 : Memref sig .tc .vmem S4096x256 .bf16) (harg3 : arg3.IsWhole) (arg4 : Memref sig .tc .vmem S512x256 .bf16) (harg4 : arg4.IsWhole) (arg5 : Memref sig .tc .vmem S256x256 .bf16) (harg5 : arg5.IsWhole) (arg6 : Memref sig .tc .vmem S256 .f32) (harg6 : arg6.IsWhole) (arg7 : Memref sig .tc .vmem S256x256 .bf16) (harg7 : arg7.IsWhole) (arg8 : Memref sig .tc .vmem S256 .f32) (harg8 : arg8.IsWhole) (arg9 : Memref sig .tc .vmem S512x256 .f32) (harg9 : arg9.IsWhole) (arg10 : Memref sig .tc .vmem S512x256 .f32) (harg10 : arg10.IsWhole) (hc0 : cond0_0 i) (hc1 : ¬cond0_1 i)
    (x0 : Vec F S512x4096 .bf16) (x1 : Vec F S4096x256 .bf16) (x2 : Vec F S512x256 .bf16) (x3 : Vec F S256x256 .bf16) (x4 : Vec F S256 .f32) (x5 : Vec F S256x256 .bf16) (x6 : Vec F S256 .f32) :
    Σ' (L7 : List (View.Piece (Elt F) S512x256 .f32)), { LS0 : List (View.Piece (Elt F) S512x256 .f32) //
      ∀ (xi7 : Vec F S512x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ (∃ f, arg10.view.loc (c : Thread nD τ) ↦[arg10.view.set]{fullShare} arg10.view.writes (Elt F) f LS0)) -∗ K ⟨⟩))
          ⊢ wp frame (wpE (defs₀ (F := F)) Variants.none c none) E (cc0__mp_kernel i arg2 harg2 arg3 harg3 arg4 harg4 arg5 harg5 arg6 harg6 arg7 harg7 arg8 harg8 arg9 harg9 arg10 harg10) K } := by
  refine ⟨[], ?_, fun xi7 E K => ?run⟩
  case run =>
    simp only [cc0__mp_kernel_eq_skeleton]; unfold cc0__mp_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    iexists _; iexact HS0

end Cert.KernelIdeal.Hand

end
-- ==== Proof.KI.RunB.lean ====
/-
  The kernel body run once, at a middle reduction step (the block's product added to the accumulator; no reset, no epilogue): on whole staging
  memrefs holding the seven input blocks, the output's buffer and the accumulator, the body terminates without
  a fault, leaves the inputs as they were, and leaves in each buffer it stores into the stores' pieces written
  over what was there — the pieces are the witness the run finds.
-/
import proofs.«165845_j14061722927244_1_alg».proof.Proof.KI.Entry

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def kernelRun0_B (c : Dev nD) (i : grid0.Coords) (arg2 : Memref sig .tc .vmem S512x4096 .bf16) (harg2 : arg2.IsWhole) (arg3 : Memref sig .tc .vmem S4096x256 .bf16) (harg3 : arg3.IsWhole) (arg4 : Memref sig .tc .vmem S512x256 .bf16) (harg4 : arg4.IsWhole) (arg5 : Memref sig .tc .vmem S256x256 .bf16) (harg5 : arg5.IsWhole) (arg6 : Memref sig .tc .vmem S256 .f32) (harg6 : arg6.IsWhole) (arg7 : Memref sig .tc .vmem S256x256 .bf16) (harg7 : arg7.IsWhole) (arg8 : Memref sig .tc .vmem S256 .f32) (harg8 : arg8.IsWhole) (arg9 : Memref sig .tc .vmem S512x256 .f32) (harg9 : arg9.IsWhole) (arg10 : Memref sig .tc .vmem S512x256 .f32) (harg10 : arg10.IsWhole) (hc0 : ¬cond0_0 i) (hc1 : ¬cond0_1 i)
    (x0 : Vec F S512x4096 .bf16) (x1 : Vec F S4096x256 .bf16) (x2 : Vec F S512x256 .bf16) (x3 : Vec F S256x256 .bf16) (x4 : Vec F S256 .f32) (x5 : Vec F S256x256 .bf16) (x6 : Vec F S256 .f32) (xs0 : Vec F S512x256 .f32) :
    Σ' (L7 : List (View.Piece (Elt F) S512x256 .f32)), { LS0 : List (View.Piece (Elt F) S512x256 .f32) //
      ∀ (xi7 : Vec F S512x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ owns (c : Thread nD τ) arg10 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ (∃ f, arg10.view.loc (c : Thread nD τ) ↦[arg10.view.set]{fullShare} arg10.view.writes (Elt F) f LS0)) -∗ K ⟨⟩))
          ⊢ wp frame (wpE (defs₀ (F := F)) Variants.none c none) E (cc0__mp_kernel i arg2 harg2 arg3 harg3 arg4 harg4 arg5 harg5 arg6 harg6 arg7 harg7 arg8 harg8 arg9 harg9 arg10 harg10) K } := by
  refine ⟨[], ?_, fun xi7 E K => ?run⟩
  case run =>
    simp only [cc0__mp_kernel_eq_skeleton]; unfold cc0__mp_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    iexists _; iexact HS0

end Cert.KernelIdeal.Hand

end
-- ==== Proof.KI.RunC.lean ====
/-
  The kernel body run once, at a last reduction step (the block's product added to the accumulator, then the epilogue: both linear layers and the output block stored): on whole staging
  memrefs holding the seven input blocks, the output's buffer and the accumulator, the body terminates without
  a fault, leaves the inputs as they were, and leaves in each buffer it stores into the stores' pieces written
  over what was there — the pieces are the witness the run finds.
-/
import proofs.«165845_j14061722927244_1_alg».proof.Proof.KI.Entry

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def kernelRun0_C (c : Dev nD) (i : grid0.Coords) (arg2 : Memref sig .tc .vmem S512x4096 .bf16) (harg2 : arg2.IsWhole) (arg3 : Memref sig .tc .vmem S4096x256 .bf16) (harg3 : arg3.IsWhole) (arg4 : Memref sig .tc .vmem S512x256 .bf16) (harg4 : arg4.IsWhole) (arg5 : Memref sig .tc .vmem S256x256 .bf16) (harg5 : arg5.IsWhole) (arg6 : Memref sig .tc .vmem S256 .f32) (harg6 : arg6.IsWhole) (arg7 : Memref sig .tc .vmem S256x256 .bf16) (harg7 : arg7.IsWhole) (arg8 : Memref sig .tc .vmem S256 .f32) (harg8 : arg8.IsWhole) (arg9 : Memref sig .tc .vmem S512x256 .f32) (harg9 : arg9.IsWhole) (arg10 : Memref sig .tc .vmem S512x256 .f32) (harg10 : arg10.IsWhole) (hc0 : ¬cond0_0 i) (hc1 : cond0_1 i)
    (x0 : Vec F S512x4096 .bf16) (x1 : Vec F S4096x256 .bf16) (x2 : Vec F S512x256 .bf16) (x3 : Vec F S256x256 .bf16) (x4 : Vec F S256 .f32) (x5 : Vec F S256x256 .bf16) (x6 : Vec F S256 .f32) (xs0 : Vec F S512x256 .f32) :
    Σ' (L7 : List (View.Piece (Elt F) S512x256 .f32)), { LS0 : List (View.Piece (Elt F) S512x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LS0)) -∗ K ⟨⟩))
          ⊢ wp frame (wpE (defs₀ (F := F)) Variants.none c none) E (cc0__mp_kernel i arg2 harg2 arg3 harg3 arg4 harg4 arg5 harg5 arg6 harg6 arg7 harg7 arg8 harg8 arg9 harg9 arg10 harg10) K } := by
  refine ⟨?_, ?_, fun E K => ?run⟩
  case run =>
    simp only [cc0__mp_kernel_eq_skeleton]; unfold cc0__mp_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    iexists _; iexact HS0

end Cert.KernelIdeal.Hand

end
-- ==== Proof.KI.Shares.lean ====
/-
  How the full share of each input window's array is dealt: the two windows that read the node features
  (window 1 its reduction rows, window 2 its output rows) each hold one half of that one array; every other
  input window holds its own array whole.
-/
import Idealize.ShloMosaic.Lib.Pipeline.Frame

noncomputable section

namespace Cert.KernelIdeal.Hand

open Idealize.ShloMosaic Idealize.SL Idealize.SL.RA

def qshare : Fin 8 → PosShare TreeShare :=
  fun w => if w = 1 then fullShare.left else if w = 2 then fullShare.right else fullShare

theorem qshare_1 : qshare 1 = fullShare.left := rfl
theorem qshare_2 : qshare 2 = fullShare.right := rfl

end Cert.KernelIdeal.Hand

end
-- ==== Proof.KI.Frame.lean ====
/-
  What the kernel leaves, step by step, and the body's obligation to the pipeline.  A grid point is (row
  block, reduction step); steps come in three kinds — first (≡ 0 mod 4: the accumulator reset, then the
  block's product added), middle (≡ 1, 2: the product added), last (≡ 3: the product added, then both
  linear layers applied and the output block stored).  `outsAt0` is, by recursion on the point, what the
  output's staging buffer and the accumulator hold after it: the step's kind run on the point's seven input
  blocks, a middle or last step over what the point before left in the accumulator.  The proof data name
  exactly that; the invariant carries the accumulator at it; and at every point the body, run from the
  invariant and the windows' blocks, re-establishes both.
-/
import proofs.«165845_j14061722927244_1_alg».proof.Proof.KI.RunA
import proofs.«165845_j14061722927244_1_alg».proof.Proof.KI.RunB
import proofs.«165845_j14061722927244_1_alg».proof.Proof.KI.RunC
import proofs.«165845_j14061722927244_1_alg».proof.Proof.KI.Shares
import Idealize.ShloMosaic.Lib.Ring

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each kind of step leaves -/

/-- What a step of this kind leaves in the output's staging buffer (it stores nothing there: a placeholder nothing consults, the window being idle and not written back). -/
def out0_A_7 (c : Dev nD) (i : grid0.Coords) (arg2 : Memref sig .tc .vmem S512x4096 .bf16) (harg2 : arg2.IsWhole) (arg3 : Memref sig .tc .vmem S4096x256 .bf16) (harg3 : arg3.IsWhole) (arg4 : Memref sig .tc .vmem S512x256 .bf16) (harg4 : arg4.IsWhole) (arg5 : Memref sig .tc .vmem S256x256 .bf16) (harg5 : arg5.IsWhole) (arg6 : Memref sig .tc .vmem S256 .f32) (harg6 : arg6.IsWhole) (arg7 : Memref sig .tc .vmem S256x256 .bf16) (harg7 : arg7.IsWhole) (arg8 : Memref sig .tc .vmem S256 .f32) (harg8 : arg8.IsWhole) (arg9 : Memref sig .tc .vmem S512x256 .f32) (harg9 : arg9.IsWhole) (arg10 : Memref sig .tc .vmem S512x256 .f32) (harg10 : arg10.IsWhole) (hc0 : cond0_0 i) (hc1 : ¬cond0_1 i)
    (x0 : Vec F S512x4096 .bf16) (x1 : Vec F S4096x256 .bf16) (x2 : Vec F S512x256 .bf16) (x3 : Vec F S256x256 .bf16) (x4 : Vec F S256 .f32) (x5 : Vec F S256x256 .bf16) (x6 : Vec F S256 .f32) : Vec F S512x256 .f32 :=
  VO0_7.read (Elt F) (VO0_7.writes (Elt F) VO0_7.junk (kernelRun0_A c i arg2 harg2 arg3 harg3 arg4 harg4 arg5 harg5 arg6 harg6 arg7 harg7 arg8 harg8 arg9 harg9 arg10 harg10 hc0 hc1 x0 x1 x2 x3 x4 x5 x6).1)

/-- The stores into the accumulator cover it. -/
theorem scover0_A_0 (c : Dev nD) (i : grid0.Coords) (arg2 : Memref sig .tc .vmem S512x4096 .bf16) (harg2 : arg2.IsWhole) (arg3 : Memref sig .tc .vmem S4096x256 .bf16) (harg3 : arg3.IsWhole) (arg4 : Memref sig .tc .vmem S512x256 .bf16) (harg4 : arg4.IsWhole) (arg5 : Memref sig .tc .vmem S256x256 .bf16) (harg5 : arg5.IsWhole) (arg6 : Memref sig .tc .vmem S256 .f32) (harg6 : arg6.IsWhole) (arg7 : Memref sig .tc .vmem S256x256 .bf16) (harg7 : arg7.IsWhole) (arg8 : Memref sig .tc .vmem S256 .f32) (harg8 : arg8.IsWhole) (arg9 : Memref sig .tc .vmem S512x256 .f32) (harg9 : arg9.IsWhole) (arg10 : Memref sig .tc .vmem S512x256 .f32) (harg10 : arg10.IsWhole) (hc0 : cond0_0 i) (hc1 : ¬cond0_1 i)
    (x0 : Vec F S512x4096 .bf16) (x1 : Vec F S4096x256 .bf16) (x2 : Vec F S512x256 .bf16) (x3 : Vec F S256x256 .bf16) (x4 : Vec F S256 .f32) (x5 : Vec F S256x256 .bf16) (x6 : Vec F S256 .f32) (y : S512x256.Idx) :
    ∃ pc ∈ (kernelRun0_A c i arg2 harg2 arg3 harg3 arg4 harg4 arg5 harg5 arg6 harg6 arg7 harg7 arg8 harg8 arg9 harg9 arg10 harg10 hc0 hc1 x0 x1 x2 x3 x4 x5 x6).2.1, y ∈ pc.1.set :=
  View.cover_of_tiledL (kernelRun0_A c i arg2 harg2 arg3 harg3 arg4 harg4 arg5 harg5 arg6 harg6 arg7 harg7 arg8 harg8 arg9 harg9 arg10 harg10 hc0 hc1 x0 x1 x2 x3 x4 x5 x6).2.1 S512x256.size (by sl_kernel_rfl) y

/-- What a step of this kind leaves in the accumulator: its pieces read back. -/
def sout0_A_0 (c : Dev nD) (i : grid0.Coords) (arg2 : Memref sig .tc .vmem S512x4096 .bf16) (harg2 : arg2.IsWhole) (arg3 : Memref sig .tc .vmem S4096x256 .bf16) (harg3 : arg3.IsWhole) (arg4 : Memref sig .tc .vmem S512x256 .bf16) (harg4 : arg4.IsWhole) (arg5 : Memref sig .tc .vmem S256x256 .bf16) (harg5 : arg5.IsWhole) (arg6 : Memref sig .tc .vmem S256 .f32) (harg6 : arg6.IsWhole) (arg7 : Memref sig .tc .vmem S256x256 .bf16) (harg7 : arg7.IsWhole) (arg8 : Memref sig .tc .vmem S256 .f32) (harg8 : arg8.IsWhole) (arg9 : Memref sig .tc .vmem S512x256 .f32) (harg9 : arg9.IsWhole) (arg10 : Memref sig .tc .vmem S512x256 .f32) (harg10 : arg10.IsWhole) (hc0 : cond0_0 i) (hc1 : ¬cond0_1 i)
    (x0 : Vec F S512x4096 .bf16) (x1 : Vec F S4096x256 .bf16) (x2 : Vec F S512x256 .bf16) (x3 : Vec F S256x256 .bf16) (x4 : Vec F S256 .f32) (x5 : Vec F S256x256 .bf16) (x6 : Vec F S256 .f32) : Vec F S512x256 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 hc0 hc1 x0 x1 x2 x3 x4 x5 x6).2.1)

/-- What a step of this kind leaves in the output's staging buffer (it stores nothing there: a placeholder nothing consults, the window being idle and not written back). -/
def out0_B_7 (c : Dev nD) (i : grid0.Coords) (arg2 : Memref sig .tc .vmem S512x4096 .bf16) (harg2 : arg2.IsWhole) (arg3 : Memref sig .tc .vmem S4096x256 .bf16) (harg3 : arg3.IsWhole) (arg4 : Memref sig .tc .vmem S512x256 .bf16) (harg4 : arg4.IsWhole) (arg5 : Memref sig .tc .vmem S256x256 .bf16) (harg5 : arg5.IsWhole) (arg6 : Memref sig .tc .vmem S256 .f32) (harg6 : arg6.IsWhole) (arg7 : Memref sig .tc .vmem S256x256 .bf16) (harg7 : arg7.IsWhole) (arg8 : Memref sig .tc .vmem S256 .f32) (harg8 : arg8.IsWhole) (arg9 : Memref sig .tc .vmem S512x256 .f32) (harg9 : arg9.IsWhole) (arg10 : Memref sig .tc .vmem S512x256 .f32) (harg10 : arg10.IsWhole) (hc0 : ¬cond0_0 i) (hc1 : ¬cond0_1 i)
    (x0 : Vec F S512x4096 .bf16) (x1 : Vec F S4096x256 .bf16) (x2 : Vec F S512x256 .bf16) (x3 : Vec F S256x256 .bf16) (x4 : Vec F S256 .f32) (x5 : Vec F S256x256 .bf16) (x6 : Vec F S256 .f32) (xs0 : Vec F S512x256 .f32) : Vec F S512x256 .f32 :=
  VO0_7.read (Elt F) (VO0_7.writes (Elt F) VO0_7.junk (kernelRun0_B c i arg2 harg2 arg3 harg3 arg4 harg4 arg5 harg5 arg6 harg6 arg7 harg7 arg8 harg8 arg9 harg9 arg10 harg10 hc0 hc1 x0 x1 x2 x3 x4 x5 x6 xs0).1)

/-- The stores into the accumulator cover it. -/
theorem scover0_B_0 (c : Dev nD) (i : grid0.Coords) (arg2 : Memref sig .tc .vmem S512x4096 .bf16) (harg2 : arg2.IsWhole) (arg3 : Memref sig .tc .vmem S4096x256 .bf16) (harg3 : arg3.IsWhole) (arg4 : Memref sig .tc .vmem S512x256 .bf16) (harg4 : arg4.IsWhole) (arg5 : Memref sig .tc .vmem S256x256 .bf16) (harg5 : arg5.IsWhole) (arg6 : Memref sig .tc .vmem S256 .f32) (harg6 : arg6.IsWhole) (arg7 : Memref sig .tc .vmem S256x256 .bf16) (harg7 : arg7.IsWhole) (arg8 : Memref sig .tc .vmem S256 .f32) (harg8 : arg8.IsWhole) (arg9 : Memref sig .tc .vmem S512x256 .f32) (harg9 : arg9.IsWhole) (arg10 : Memref sig .tc .vmem S512x256 .f32) (harg10 : arg10.IsWhole) (hc0 : ¬cond0_0 i) (hc1 : ¬cond0_1 i)
    (x0 : Vec F S512x4096 .bf16) (x1 : Vec F S4096x256 .bf16) (x2 : Vec F S512x256 .bf16) (x3 : Vec F S256x256 .bf16) (x4 : Vec F S256 .f32) (x5 : Vec F S256x256 .bf16) (x6 : Vec F S256 .f32) (xs0 : Vec F S512x256 .f32) (y : S512x256.Idx) :
    ∃ pc ∈ (kernelRun0_B c i arg2 harg2 arg3 harg3 arg4 harg4 arg5 harg5 arg6 harg6 arg7 harg7 arg8 harg8 arg9 harg9 arg10 harg10 hc0 hc1 x0 x1 x2 x3 x4 x5 x6 xs0).2.1, y ∈ pc.1.set :=
  View.cover_of_tiledL (kernelRun0_B c i arg2 harg2 arg3 harg3 arg4 harg4 arg5 harg5 arg6 harg6 arg7 harg7 arg8 harg8 arg9 harg9 arg10 harg10 hc0 hc1 x0 x1 x2 x3 x4 x5 x6 xs0).2.1 S512x256.size (by sl_kernel_rfl) y

/-- What a step of this kind leaves in the accumulator: its pieces read back. -/
def sout0_B_0 (c : Dev nD) (i : grid0.Coords) (arg2 : Memref sig .tc .vmem S512x4096 .bf16) (harg2 : arg2.IsWhole) (arg3 : Memref sig .tc .vmem S4096x256 .bf16) (harg3 : arg3.IsWhole) (arg4 : Memref sig .tc .vmem S512x256 .bf16) (harg4 : arg4.IsWhole) (arg5 : Memref sig .tc .vmem S256x256 .bf16) (harg5 : arg5.IsWhole) (arg6 : Memref sig .tc .vmem S256 .f32) (harg6 : arg6.IsWhole) (arg7 : Memref sig .tc .vmem S256x256 .bf16) (harg7 : arg7.IsWhole) (arg8 : Memref sig .tc .vmem S256 .f32) (harg8 : arg8.IsWhole) (arg9 : Memref sig .tc .vmem S512x256 .f32) (harg9 : arg9.IsWhole) (arg10 : Memref sig .tc .vmem S512x256 .f32) (harg10 : arg10.IsWhole) (hc0 : ¬cond0_0 i) (hc1 : ¬cond0_1 i)
    (x0 : Vec F S512x4096 .bf16) (x1 : Vec F S4096x256 .bf16) (x2 : Vec F S512x256 .bf16) (x3 : Vec F S256x256 .bf16) (x4 : Vec F S256 .f32) (x5 : Vec F S256x256 .bf16) (x6 : Vec F S256 .f32) (xs0 : Vec F S512x256 .f32) : Vec F S512x256 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 hc0 hc1 x0 x1 x2 x3 x4 x5 x6 xs0).2.1)

/-- What a step of this kind leaves in the output's staging buffer: its pieces read back. -/
def out0_C_7 (c : Dev nD) (i : grid0.Coords) (arg2 : Memref sig .tc .vmem S512x4096 .bf16) (harg2 : arg2.IsWhole) (arg3 : Memref sig .tc .vmem S4096x256 .bf16) (harg3 : arg3.IsWhole) (arg4 : Memref sig .tc .vmem S512x256 .bf16) (harg4 : arg4.IsWhole) (arg5 : Memref sig .tc .vmem S256x256 .bf16) (harg5 : arg5.IsWhole) (arg6 : Memref sig .tc .vmem S256 .f32) (harg6 : arg6.IsWhole) (arg7 : Memref sig .tc .vmem S256x256 .bf16) (harg7 : arg7.IsWhole) (arg8 : Memref sig .tc .vmem S256 .f32) (harg8 : arg8.IsWhole) (arg9 : Memref sig .tc .vmem S512x256 .f32) (harg9 : arg9.IsWhole) (arg10 : Memref sig .tc .vmem S512x256 .f32) (harg10 : arg10.IsWhole) (hc0 : ¬cond0_0 i) (hc1 : cond0_1 i)
    (x0 : Vec F S512x4096 .bf16) (x1 : Vec F S4096x256 .bf16) (x2 : Vec F S512x256 .bf16) (x3 : Vec F S256x256 .bf16) (x4 : Vec F S256 .f32) (x5 : Vec F S256x256 .bf16) (x6 : Vec F S256 .f32) (xs0 : Vec F S512x256 .f32) : Vec F S512x256 .f32 :=
  VO0_7.read (Elt F) (VO0_7.writes (Elt F) VO0_7.junk (kernelRun0_C c i arg2 harg2 arg3 harg3 arg4 harg4 arg5 harg5 arg6 harg6 arg7 harg7 arg8 harg8 arg9 harg9 arg10 harg10 hc0 hc1 x0 x1 x2 x3 x4 x5 x6 xs0).1)

/-- The one store of the epilogue covers the output block. -/
theorem cover0_C_7 (c : Dev nD) (i : grid0.Coords) (arg2 : Memref sig .tc .vmem S512x4096 .bf16) (harg2 : arg2.IsWhole) (arg3 : Memref sig .tc .vmem S4096x256 .bf16) (harg3 : arg3.IsWhole) (arg4 : Memref sig .tc .vmem S512x256 .bf16) (harg4 : arg4.IsWhole) (arg5 : Memref sig .tc .vmem S256x256 .bf16) (harg5 : arg5.IsWhole) (arg6 : Memref sig .tc .vmem S256 .f32) (harg6 : arg6.IsWhole) (arg7 : Memref sig .tc .vmem S256x256 .bf16) (harg7 : arg7.IsWhole) (arg8 : Memref sig .tc .vmem S256 .f32) (harg8 : arg8.IsWhole) (arg9 : Memref sig .tc .vmem S512x256 .f32) (harg9 : arg9.IsWhole) (arg10 : Memref sig .tc .vmem S512x256 .f32) (harg10 : arg10.IsWhole) (hc0 : ¬cond0_0 i) (hc1 : cond0_1 i)
    (x0 : Vec F S512x4096 .bf16) (x1 : Vec F S4096x256 .bf16) (x2 : Vec F S512x256 .bf16) (x3 : Vec F S256x256 .bf16) (x4 : Vec F S256 .f32) (x5 : Vec F S256x256 .bf16) (x6 : Vec F S256 .f32) (xs0 : Vec F S512x256 .f32) (y : S512x256.Idx) :
    ∃ pc ∈ (kernelRun0_C c i arg2 harg2 arg3 harg3 arg4 harg4 arg5 harg5 arg6 harg6 arg7 harg7 arg8 harg8 arg9 harg9 arg10 harg10 hc0 hc1 x0 x1 x2 x3 x4 x5 x6 xs0).1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 x3 x4 x5 x6 xs0).1 S512x256.size (by sl_kernel_rfl) y

/-- The stores into the accumulator cover it. -/
theorem scover0_C_0 (c : Dev nD) (i : grid0.Coords) (arg2 : Memref sig .tc .vmem S512x4096 .bf16) (harg2 : arg2.IsWhole) (arg3 : Memref sig .tc .vmem S4096x256 .bf16) (harg3 : arg3.IsWhole) (arg4 : Memref sig .tc .vmem S512x256 .bf16) (harg4 : arg4.IsWhole) (arg5 : Memref sig .tc .vmem S256x256 .bf16) (harg5 : arg5.IsWhole) (arg6 : Memref sig .tc .vmem S256 .f32) (harg6 : arg6.IsWhole) (arg7 : Memref sig .tc .vmem S256x256 .bf16) (harg7 : arg7.IsWhole) (arg8 : Memref sig .tc .vmem S256 .f32) (harg8 : arg8.IsWhole) (arg9 : Memref sig .tc .vmem S512x256 .f32) (harg9 : arg9.IsWhole) (arg10 : Memref sig .tc .vmem S512x256 .f32) (harg10 : arg10.IsWhole) (hc0 : ¬cond0_0 i) (hc1 : cond0_1 i)
    (x0 : Vec F S512x4096 .bf16) (x1 : Vec F S4096x256 .bf16) (x2 : Vec F S512x256 .bf16) (x3 : Vec F S256x256 .bf16) (x4 : Vec F S256 .f32) (x5 : Vec F S256x256 .bf16) (x6 : Vec F S256 .f32) (xs0 : Vec F S512x256 .f32) (y : S512x256.Idx) :
    ∃ pc ∈ (kernelRun0_C c i arg2 harg2 arg3 harg3 arg4 harg4 arg5 harg5 arg6 harg6 arg7 harg7 arg8 harg8 arg9 harg9 arg10 harg10 hc0 hc1 x0 x1 x2 x3 x4 x5 x6 xs0).2.1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 x3 x4 x5 x6 xs0).2.1 S512x256.size (by sl_kernel_rfl) y

/-- What a step of this kind leaves in the accumulator: its pieces read back. -/
def sout0_C_0 (c : Dev nD) (i : grid0.Coords) (arg2 : Memref sig .tc .vmem S512x4096 .bf16) (harg2 : arg2.IsWhole) (arg3 : Memref sig .tc .vmem S4096x256 .bf16) (harg3 : arg3.IsWhole) (arg4 : Memref sig .tc .vmem S512x256 .bf16) (harg4 : arg4.IsWhole) (arg5 : Memref sig .tc .vmem S256x256 .bf16) (harg5 : arg5.IsWhole) (arg6 : Memref sig .tc .vmem S256 .f32) (harg6 : arg6.IsWhole) (arg7 : Memref sig .tc .vmem S256x256 .bf16) (harg7 : arg7.IsWhole) (arg8 : Memref sig .tc .vmem S256 .f32) (harg8 : arg8.IsWhole) (arg9 : Memref sig .tc .vmem S512x256 .f32) (harg9 : arg9.IsWhole) (arg10 : Memref sig .tc .vmem S512x256 .f32) (harg10 : arg10.IsWhole) (hc0 : ¬cond0_0 i) (hc1 : cond0_1 i)
    (x0 : Vec F S512x4096 .bf16) (x1 : Vec F S4096x256 .bf16) (x2 : Vec F S512x256 .bf16) (x3 : Vec F S256x256 .bf16) (x4 : Vec F S256 .f32) (x5 : Vec F S256x256 .bf16) (x6 : Vec F S256 .f32) (xs0 : Vec F S512x256 .f32) : Vec F S512x256 .f32 :=
  VS0_0.read (Elt F) (VS0_0.writes (Elt F) VS0_0.junk (kernelRun0_C c i arg2 harg2 arg3 harg3 arg4 harg4 arg5 harg5 arg6 harg6 arg7 harg7 arg8 harg8 arg9 harg9 arg10 harg10 hc0 hc1 x0 x1 x2 x3 x4 x5 x6 xs0).2.1)

/-! ## What the output's buffer and the accumulator hold after each point -/

def outsAt0 (c : Dev nD) : (n : ℕ) → n < cfg0.N → Vec F S512x256 .f32 × Vec F S512x256 .f32
  | 0, hn => (out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩))
  | n + 1, hn =>
    if h0 : (n + 1) % 4 = 0 then
      if h1 : (n + 1) % 4 = 3 then
        False.elim (by omega)
      else
        (out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩))
    else
      if h1 : (n + 1) % 4 = 3 then
        (out0_C_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2)
      else
        (out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2)

theorem outsAt0_A (c : Dev nD) (t : Fin cfg0.N) (h0 : t.val % 4 = 0) (h1 : ¬t.val % 4 = 3) :
    outsAt0 m c t.val t.isLt = (out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t)) := by
  obtain ⟨n, hn⟩ := t
  cases n with
  | zero => exact rfl
  | succ n => exact (dif_pos h0).trans ((dif_neg h1).trans rfl)

theorem outsAt0_B (c : Dev nD) (t : Fin cfg0.N) (h0 : ¬t.val % 4 = 0) (h1 : ¬t.val % 4 = 3) :
    outsAt0 m c t.val t.isLt = (out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 4 = 0) (h1 : t.val % 4 = 3) :
    outsAt0 m c t.val t.isLt = (out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point the accumulator holds anything;
    afterwards what the point before left in it. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (outsAt0 m c t.val t.isLt).1
  Φ t := PhiS m c t.val (Nat.le_of_lt_succ t.isLt)
  q w := qshare w
  owed _ := 0

theorem A_eq (c : Dev nD) (w : Fin cfg0.W) : (dats m 0 c).A w = V m c (Pipeline.arrRef spec0 w) := by
  dsimp only [dats]

theorem q_eq (c : Dev nD) (w : Fin cfg0.W) : (dats m 0 c).q w = qshare w := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl]
  rw [show (dats m 0 c).Φ t.succ = PhiS m c (t.val + 1) t.isLt from rfl, PhiS_succ]
  have hN : t.val < 128 := lt_of_lt_of_eq t.isLt (show cfg0.N = 128 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  by_cases h0 : t.val % 4 = 0
  · by_cases h1 : t.val % 4 = 3
    · exfalso; omega
    · rw [Dat.leavesExact_idle (dats m 0 c) 7 t (idleAt0_7 t (fun h => h1 ((hcond0_1 t).mp h))) (noFlush0_7 t (fun h => h1 ((hcond0_1 t).mp h)))]
      rw [outsAt0_A m c t h0 h1]
      unfold sout0_A_0; (try dsimp only)
      by_cases hz : t.val = 0
      · rw [PhiS_castSucc m c t, PhiS_zero m c _ _ hz, PhiA0_eq]
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS0]; · iexact HS0
        iintro ⟨H0, H1, H2, H3, H4, H5, H6, H7, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexists _; iexact H7
      · rw [PhiS_castSucc m c t, PhiS_pos m c _ _ hz]
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS0]; · iexists _; iexact HS0
        iintro ⟨H0, H1, H2, H3, H4, H5, H6, H7, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexists _; iexact H7
  · by_cases h1 : t.val % 4 = 3
    · rw [show (dats m 0 c).leavesExact 7 t = owns (c : Thread nD τ) (ms0_7 t) fullShare ((dats m 0 c).after 7 t) from by
        unfold Dat.leavesExact; rw [liveAt0_7 t ((hcond0_1 t).mpr h1)], after0_7]
      rw [outsAt0_C m c t h0 h1]
      unfold out0_C_7 sout0_C_0; (try dsimp only)
      by_cases hz : t.val = 0
      · exfalso; omega
      · rw [PhiS_castSucc m c t, PhiS_pos m c _ _ hz]
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) _).2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        isplitl [HS0]; · iexact HS0
        iintro ⟨H0, H1, H2, H3, H4, H5, H6, ⟨%e7, H7⟩, ⟨%es0, HS0⟩⟩
        isplitl [HS0 Hg]
        · isplitl [HS0]
          · unfold owns; iexists _; isplitr
            swap; · iexact HS0
            ipureintro; exact View.read_writes_of_cover _ _ _ _ _ (scover0_C_0 c _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        unfold owns; iexists _; isplitr
        swap; · iexact H7
        ipureintro; exact View.read_writes_of_cover _ _ _ _ _ (cover0_C_7 c _ _ _ _ _ _ _ _ _ _ _ _ _ _ _ _ _ _ _ _ _ _ _ _ _ _ _ _ _)
    · rw [Dat.leavesExact_idle (dats m 0 c) 7 t (idleAt0_7 t (fun h => h1 ((hcond0_1 t).mp h))) (noFlush0_7 t (fun h => h1 ((hcond0_1 t).mp h)))]
      rw [outsAt0_B m c t h0 h1]
      unfold sout0_B_0; (try dsimp only)
      by_cases hz : t.val = 0
      · exfalso; omega
      · rw [PhiS_castSucc m c t, PhiS_pos m c _ _ hz]
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS0]; · iexact HS0
        iintro ⟨H0, H1, H2, H3, H4, H5, H6, H7, ⟨%es0, HS0⟩⟩
        isplitl [HS0 Hg]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexists _; iexact H7

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives back the class's: the accumulator's contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 128 := N_0; omega)

end Cert.KernelIdeal.Hand

end
-- ==== Proof.KI.Pieces.lean ====
/-
  What each kind of step leaves, as values: the pieces the runs found, read back.  A first step leaves in the
  accumulator the block product added to the zero block it has just stored; a middle or last step leaves the
  block product added to what the accumulator held; a last step also leaves in the output block the epilogue's
  value of the updated accumulator, the row block of the features, both weight blocks and both biases.
-/
import proofs.«165845_j14061722927244_1_alg».proof.Proof.KI.Frame
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz2 : (![0, 0] : Fin 2 → Nat) = fun _ => 0 := funext fun a => by fin_cases a <;> rfl
theorem hz1 : (![0] : Fin 1 → Nat) = fun _ => 0 := funext fun a => by fin_cases a; rfl

theorem sout_B (c : Dev nD) (i : grid0.Coords) (arg2 : Memref sig .tc .vmem S512x4096 .bf16) (harg2 : arg2.IsWhole) (arg3 : Memref sig .tc .vmem S4096x256 .bf16) (harg3 : arg3.IsWhole) (arg4 : Memref sig .tc .vmem S512x256 .bf16) (harg4 : arg4.IsWhole) (arg5 : Memref sig .tc .vmem S256x256 .bf16) (harg5 : arg5.IsWhole) (arg6 : Memref sig .tc .vmem S256 .f32) (harg6 : arg6.IsWhole) (arg7 : Memref sig .tc .vmem S256x256 .bf16) (harg7 : arg7.IsWhole) (arg8 : Memref sig .tc .vmem S256 .f32) (harg8 : arg8.IsWhole) (arg9 : Memref sig .tc .vmem S512x256 .f32) (harg9 : arg9.IsWhole) (arg10 : Memref sig .tc .vmem S512x256 .f32) (harg10 : arg10.IsWhole) (hc0 : ¬cond0_0 i) (hc1 : ¬cond0_1 i)
    (x0 : Vec F S512x4096 .bf16) (x1 : Vec F S4096x256 .bf16) (x2 : Vec F S512x256 .bf16) (x3 : Vec F S256x256 .bf16) (x4 : Vec F S256 .f32) (x5 : Vec F S256x256 .bf16) (x6 : Vec F S256 .f32) (xs0 : Vec F S512x256 .f32) :
    sout0_B_0 c i arg2 harg2 arg3 harg3 arg4 harg4 arg5 harg5 arg6 harg6 arg7 harg7 arg8 harg8 arg9 harg9 arg10 harg10 hc0 hc1 x0 x1 x2 x3 x4 x5 x6 xs0 = k0_pay2 xs0 x0 x1 := by
  unfold sout0_B_0
  rw [View.read_writes_eq_canon _ _ _ (scover0_B_0 c i arg2 harg2 arg3 harg3 arg4 harg4 arg5 harg5 arg6 harg6 arg7 harg7 arg8 harg8 arg9 harg9 arg10 harg10 hc0 hc1 x0 x1 x2 x3 x4 x5 x6 xs0)]
  unfold kernelRun0_B
  dsimp only
  rw [View.canon_unit_zero hz2]
  simp only [View.readAt_eq_ld, harg2.read_unread, harg3.read_unread, harg4.read_unread, harg5.read_unread, harg6.read_unread, harg7.read_unread, harg8.read_unread, harg9.read_unread, harg10.read_unread, View.ld_unit_zero (S := S512x256) hz2, View.ld_unit_zero (S := S512x4096) hz2, View.ld_unit_zero (S := S4096x256) hz2, View.ld_unit_zero (S := S256x256) hz2, View.ld_unit_zero (S := S256) hz1]

theorem sout_C (c : Dev nD) (i : grid0.Coords) (arg2 : Memref sig .tc .vmem S512x4096 .bf16) (harg2 : arg2.IsWhole) (arg3 : Memref sig .tc .vmem S4096x256 .bf16) (harg3 : arg3.IsWhole) (arg4 : Memref sig .tc .vmem S512x256 .bf16) (harg4 : arg4.IsWhole) (arg5 : Memref sig .tc .vmem S256x256 .bf16) (harg5 : arg5.IsWhole) (arg6 : Memref sig .tc .vmem S256 .f32) (harg6 : arg6.IsWhole) (arg7 : Memref sig .tc .vmem S256x256 .bf16) (harg7 : arg7.IsWhole) (arg8 : Memref sig .tc .vmem S256 .f32) (harg8 : arg8.IsWhole) (arg9 : Memref sig .tc .vmem S512x256 .f32) (harg9 : arg9.IsWhole) (arg10 : Memref sig .tc .vmem S512x256 .f32) (harg10 : arg10.IsWhole) (hc0 : ¬cond0_0 i) (hc1 : cond0_1 i)
    (x0 : Vec F S512x4096 .bf16) (x1 : Vec F S4096x256 .bf16) (x2 : Vec F S512x256 .bf16) (x3 : Vec F S256x256 .bf16) (x4 : Vec F S256 .f32) (x5 : Vec F S256x256 .bf16) (x6 : Vec F S256 .f32) (xs0 : Vec F S512x256 .f32) :
    sout0_C_0 c i arg2 harg2 arg3 harg3 arg4 harg4 arg5 harg5 arg6 harg6 arg7 harg7 arg8 harg8 arg9 harg9 arg10 harg10 hc0 hc1 x0 x1 x2 x3 x4 x5 x6 xs0 = k0_pay2 xs0 x0 x1 := by
  unfold sout0_C_0
  rw [View.read_writes_eq_canon _ _ _ (scover0_C_0 c i arg2 harg2 arg3 harg3 arg4 harg4 arg5 harg5 arg6 harg6 arg7 harg7 arg8 harg8 arg9 harg9 arg10 harg10 hc0 hc1 x0 x1 x2 x3 x4 x5 x6 xs0)]
  unfold kernelRun0_C
  dsimp only
  sl_unfold_words

  rw [View.canon_unit_zero hz2]
  simp only [View.readAt_eq_ld, harg2.read_unread, harg3.read_unread, harg4.read_unread, harg5.read_unread, harg6.read_unread, harg7.read_unread, harg8.read_unread, harg9.read_unread, harg10.read_unread, View.ld_unit_zero (S := S512x256) hz2, View.ld_unit_zero (S := S512x4096) hz2, View.ld_unit_zero (S := S4096x256) hz2, View.ld_unit_zero (S := S256x256) hz2, View.ld_unit_zero (S := S256) hz1]

theorem out_C (c : Dev nD) (i : grid0.Coords) (arg2 : Memref sig .tc .vmem S512x4096 .bf16) (harg2 : arg2.IsWhole) (arg3 : Memref sig .tc .vmem S4096x256 .bf16) (harg3 : arg3.IsWhole) (arg4 : Memref sig .tc .vmem S512x256 .bf16) (harg4 : arg4.IsWhole) (arg5 : Memref sig .tc .vmem S256x256 .bf16) (harg5 : arg5.IsWhole) (arg6 : Memref sig .tc .vmem S256 .f32) (harg6 : arg6.IsWhole) (arg7 : Memref sig .tc .vmem S256x256 .bf16) (harg7 : arg7.IsWhole) (arg8 : Memref sig .tc .vmem S256 .f32) (harg8 : arg8.IsWhole) (arg9 : Memref sig .tc .vmem S512x256 .f32) (harg9 : arg9.IsWhole) (arg10 : Memref sig .tc .vmem S512x256 .f32) (harg10 : arg10.IsWhole) (hc0 : ¬cond0_0 i) (hc1 : cond0_1 i)
    (x0 : Vec F S512x4096 .bf16) (x1 : Vec F S4096x256 .bf16) (x2 : Vec F S512x256 .bf16) (x3 : Vec F S256x256 .bf16) (x4 : Vec F S256 .f32) (x5 : Vec F S256x256 .bf16) (x6 : Vec F S256 .f32) (xs0 : Vec F S512x256 .f32) :
    out0_C_7 c i arg2 harg2 arg3 harg3 arg4 harg4 arg5 harg5 arg6 harg6 arg7 harg7 arg8 harg8 arg9 harg9 arg10 harg10 hc0 hc1 x0 x1 x2 x3 x4 x5 x6 xs0 = k0_pay3 (k0_pay2 xs0 x0 x1) x3 x4 x2 x5 x6 := by
  unfold out0_C_7
  rw [View.read_writes_eq_canon _ _ _ (cover0_C_7 c i arg2 harg2 arg3 harg3 arg4 harg4 arg5 harg5 arg6 harg6 arg7 harg7 arg8 harg8 arg9 harg9 arg10 harg10 hc0 hc1 x0 x1 x2 x3 x4 x5 x6 xs0)]
  unfold kernelRun0_C
  dsimp only
  sl_unfold_words

  rw [View.canon_unit_zero hz2]
  simp only [View.readCov_unit_zero (S := S512x256) _ hz2, View.readAt_eq_ld, harg2.read_unread, harg3.read_unread, harg4.read_unread, harg5.read_unread, harg6.read_unread, harg7.read_unread, harg8.read_unread, harg9.read_unread, harg10.read_unread, View.ld_unit_zero (S := S512x256) hz2, View.ld_unit_zero (S := S512x4096) hz2, View.ld_unit_zero (S := S4096x256) hz2, View.ld_unit_zero (S := S256x256) hz2, View.ld_unit_zero (S := S256) hz1]

theorem sout_A (c : Dev nD) (i : grid0.Coords) (arg2 : Memref sig .tc .vmem S512x4096 .bf16) (harg2 : arg2.IsWhole) (arg3 : Memref sig .tc .vmem S4096x256 .bf16) (harg3 : arg3.IsWhole) (arg4 : Memref sig .tc .vmem S512x256 .bf16) (harg4 : arg4.IsWhole) (arg5 : Memref sig .tc .vmem S256x256 .bf16) (harg5 : arg5.IsWhole) (arg6 : Memref sig .tc .vmem S256 .f32) (harg6 : arg6.IsWhole) (arg7 : Memref sig .tc .vmem S256x256 .bf16) (harg7 : arg7.IsWhole) (arg8 : Memref sig .tc .vmem S256 .f32) (harg8 : arg8.IsWhole) (arg9 : Memref sig .tc .vmem S512x256 .f32) (harg9 : arg9.IsWhole) (arg10 : Memref sig .tc .vmem S512x256 .f32) (harg10 : arg10.IsWhole) (hc0 : cond0_0 i) (hc1 : ¬cond0_1 i)
    (x0 : Vec F S512x4096 .bf16) (x1 : Vec F S4096x256 .bf16) (x2 : Vec F S512x256 .bf16) (x3 : Vec F S256x256 .bf16) (x4 : Vec F S256 .f32) (x5 : Vec F S256x256 .bf16) (x6 : Vec F S256 .f32) :
    sout0_A_0 c i arg2 harg2 arg3 harg3 arg4 harg4 arg5 harg5 arg6 harg6 arg7 harg7 arg8 harg8 arg9 harg9 arg10 harg10 hc0 hc1 x0 x1 x2 x3 x4 x5 x6 = k0_pay2 (k0_pay1 (F := F)) x0 x1 := by
  unfold sout0_A_0
  rw [View.read_writes_eq_canon _ _ _ (scover0_A_0 c i arg2 harg2 arg3 harg3 arg4 harg4 arg5 harg5 arg6 harg6 arg7 harg7 arg8 harg8 arg9 harg9 arg10 harg10 hc0 hc1 x0 x1 x2 x3 x4 x5 x6)]
  unfold kernelRun0_A
  dsimp only
  sl_unfold_words

  rw [View.canon_cons_unit_zero (S := S512x256) hz2]
  simp only [View.readCov_unit_zero (S := S512x256) _ hz2, View.readAt_eq_ld, harg2.read_unread, harg3.read_unread, harg4.read_unread, harg5.read_unread, harg6.read_unread, harg7.read_unread, harg8.read_unread, harg9.read_unread, harg10.read_unread, View.ld_unit_zero (S := S512x256) hz2, View.ld_unit_zero (S := S512x4096) hz2, View.ld_unit_zero (S := S4096x256) hz2, View.ld_unit_zero (S := S256x256) hz2, View.ld_unit_zero (S := S256) hz1]

end Cert.KernelIdeal.Hand

end
-- ==== Proof.KI.Blocks.lean ====
/-
  Each input window's block at a grid point, read at an index of the block.  The grid is 32 row blocks by
  4 reduction steps, point `t` being row block `t / 4` at step `t % 4`.  A block's element sits in its
  array at block index × block size + its coordinate inside the block: the adjacency's block
  [512, 4096] at (512·(t/4) + p, 4096·(t%4) + j); the features' block [4096, 256] at (4096·(t%4) + j, q)
  and their block [512, 256] at (512·(t/4) + p, k); the two weight matrices and the two biases are one
  block each, the whole array.
-/
import proofs.«165845_j14061722927244_1_alg».proof.Proof.KI.Entry
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The grid has 128 points. -/
theorem t_lt (t : Fin cfg0.N) : t.val < 128 := lt_of_lt_of_eq t.isLt N_0

/-! The windows' index maps over the grid, decided once. -/
theorem index0_0 : ∀ t : Fin cfg0.N, win0_0.index t 0 = t.val / 4 ∧ win0_0.index t 1 = t.val % 4 :=
  (by decide +kernel : ∀ t : Fin grid0.N, win0_0.index t 0 = t.val / 4 ∧ win0_0.index t 1 = t.val % 4)
theorem index0_1 : ∀ t : Fin cfg0.N, win0_1.index t 0 = t.val % 4 ∧ win0_1.index t 1 = 0 :=
  (by decide +kernel : ∀ t : Fin grid0.N, win0_1.index t 0 = t.val % 4 ∧ win0_1.index t 1 = 0)
theorem index0_2 : ∀ t : Fin cfg0.N, win0_2.index t 0 = t.val / 4 ∧ win0_2.index t 1 = 0 :=
  (by decide +kernel : ∀ t : Fin grid0.N, win0_2.index t 0 = t.val / 4 ∧ win0_2.index t 1 = 0)
theorem index0_3 : ∀ t : Fin cfg0.N, win0_3.index t 0 = 0 ∧ win0_3.index t 1 = 0 :=
  (by decide +kernel : ∀ t : Fin grid0.N, win0_3.index t 0 = 0 ∧ win0_3.index t 1 = 0)
theorem index0_4 : ∀ t : Fin cfg0.N, win0_4.index t 0 = 0 :=
  (by decide +kernel : ∀ t : Fin grid0.N, win0_4.index t 0 = 0)
theorem index0_5 : ∀ t : Fin cfg0.N, win0_5.index t 0 = 0 ∧ win0_5.index t 1 = 0 :=
  (by decide +kernel : ∀ t : Fin grid0.N, win0_5.index t 0 = 0 ∧ win0_5.index t 1 = 0)
theorem index0_6 : ∀ t : Fin cfg0.N, win0_6.index t 0 = 0 :=
  (by decide +kernel : ∀ t : Fin grid0.N, win0_6.index t 0 = 0)

/-- The adjacency's block at point `t`: rows 512·(t/4) …, columns 4096·(t%4) …. -/
theorem iblk0_apply (c : Dev nD) (t : Fin cfg0.N) (p : Fin 512) (j : Fin 4096) :
    (iblk m c 0 t : Vec F S512x4096 .bf16) (ix2 p j)
      = (V m c main_v34 : Vec F S16384x16384 .bf16)
          (ix2 (⟨512 * (t.val / 4) + p.val, by have := t_lt t; have := p.isLt; omega⟩ : Fin 16384)
            (⟨4096 * (t.val % 4) + j.val, by have := j.isLt; omega⟩ : Fin 16384)) := by
  have hi := index0_0 t
  unfold iblk
  rw [View.read_apply]
  show V m c main_v34 _ = V m c main_v34 _
  refine congrArg _ ?_
  funext a
  apply Fin.ext
  match a with
  | ⟨0, _⟩ => show win0_0.index t 0 * 512 + 1 * p.val = 512 * (t.val / 4) + p.val; rw [hi.1]; omega
  | ⟨1, _⟩ => show win0_0.index t 1 * 4096 + 1 * j.val = 4096 * (t.val % 4) + j.val; rw [hi.2]; omega

/-- The features' reduction block at point `t`: rows 4096·(t%4) …, every column. -/
theorem iblk1_apply (c : Dev nD) (t : Fin cfg0.N) (j : Fin 4096) (q : Fin 256) :
    (iblk m c 1 t : Vec F S4096x256 .bf16) (ix2 j q)
      = (V m c main_v35 : Vec F S16384x256 .bf16)
          (ix2 (⟨4096 * (t.val % 4) + j.val, by have := j.isLt; omega⟩ : Fin 16384) q) := by
  have hi := index0_1 t
  unfold iblk
  rw [View.read_apply]
  show V m c main_v35 _ = V m c main_v35 _
  refine congrArg _ ?_
  funext a
  apply Fin.ext
  match a with
  | ⟨0, _⟩ => show win0_1.index t 0 * 4096 + 1 * j.val = 4096 * (t.val % 4) + j.val; rw [hi.1]; omega
  | ⟨1, _⟩ => show win0_1.index t 1 * 256 + 1 * q.val = q.val; rw [hi.2]; omega

/-- The features' row block at point `t`: rows 512·(t/4) …, every column. -/
theorem iblk2_apply (c : Dev nD) (t : Fin cfg0.N) (p : Fin 512) (k : Fin 256) :
    (iblk m c 2 t : Vec F S512x256 .bf16) (ix2 p k)
      = (V m c main_v35 : Vec F S16384x256 .bf16)
          (ix2 (⟨512 * (t.val / 4) + p.val, by have := t_lt t; have := p.isLt; omega⟩ : Fin 16384) k) := by
  have hi := index0_2 t
  unfold iblk
  rw [View.read_apply]
  show V m c main_v35 _ = V m c main_v35 _
  refine congrArg _ ?_
  funext a
  apply Fin.ext
  match a with
  | ⟨0, _⟩ => show win0_2.index t 0 * 512 + 1 * p.val = 512 * (t.val / 4) + p.val; rw [hi.1]; omega
  | ⟨1, _⟩ => show win0_2.index t 1 * 256 + 1 * k.val = k.val; rw [hi.2]; omega

/-- The update layer's weights: one block, the whole array. -/
theorem iblk3_eq (c : Dev nD) (t : Fin cfg0.N) :
    (iblk m c 3 t : Vec F S256x256 .bf16) = (V m c main_v37 : Vec F S256x256 .bf16) := by
  have hi := index0_3 t
  funext i
  unfold iblk
  rw [View.read_apply]
  show V m c main_v37 _ = V m c main_v37 _
  refine congrArg _ ?_
  funext a
  apply Fin.ext
  match a with
  | ⟨0, _⟩ => show win0_3.index t 0 * 256 + 1 * (i 0).val = (i 0).val; rw [hi.1]; omega
  | ⟨1, _⟩ => show win0_3.index t 1 * 256 + 1 * (i 1).val = (i 1).val; rw [hi.2]; omega

/-- The aggregation layer's bias: one block, the whole array. -/
theorem iblk4_eq (c : Dev nD) (t : Fin cfg0.N) :
    (iblk m c 4 t : Vec F S256 .f32) = (V m c main_arg5 : Vec F S256 .f32) := by
  have hi := index0_4 t
  funext i
  unfold iblk
  rw [View.read_apply]
  show V m c main_arg5 _ = V m c main_arg5 _
  refine congrArg _ ?_
  funext a
  apply Fin.ext
  match a with
  | ⟨0, _⟩ => show win0_4.index t 0 * 256 + 1 * (i 0).val = (i 0).val; rw [hi]; omega

/-- The aggregation layer's weights: one block, the whole array. -/
theorem iblk5_eq (c : Dev nD) (t : Fin cfg0.N) :
    (iblk m c 5 t : Vec F S256x256 .bf16) = (V m c main_v39 : Vec F S256x256 .bf16) := by
  have hi := index0_5 t
  funext i
  unfold iblk
  rw [View.read_apply]
  show V m c main_v39 _ = V m c main_v39 _
  refine congrArg _ ?_
  funext a
  apply Fin.ext
  match a with
  | ⟨0, _⟩ => show win0_5.index t 0 * 256 + 1 * (i 0).val = (i 0).val; rw [hi.1]; omega
  | ⟨1, _⟩ => show win0_5.index t 1 * 256 + 1 * (i 1).val = (i 1).val; rw [hi.2]; omega

/-- The update layer's bias: one block, the whole array. -/
theorem iblk6_eq (c : Dev nD) (t : Fin cfg0.N) :
    (iblk m c 6 t : Vec F S256 .f32) = (V m c main_arg3 : Vec F S256 .f32) := by
  have hi := index0_6 t
  funext i
  unfold iblk
  rw [View.read_apply]
  show V m c main_arg3 _ = V m c main_arg3 _
  refine congrArg _ ?_
  funext a
  apply Fin.ext
  match a with
  | ⟨0, _⟩ => show win0_6.index t 0 * 256 + 1 * (i 0).val = (i 0).val; rw [hi]; omega

end Cert.KernelIdeal.Hand

end
-- ==== Proof.Payload.lean ====
import proofs.«165845_j14061722927244_1_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

/-!
# The values the kernel body stores, read at one index

At the ideal instance every float is an extended real, a change of format is the identity, a shape cast to the
same shape is the identity, and a matrix product into the zero splat is the plain sum of products over the
contraction axis. So each of the three values the body stores is, entry by entry, a textbook expression of the
values it loaded:

* the reset of the accumulator stores 0 everywhere;
* the accumulation step stores acc + A X (one block of the adjacency times one block of the features);
* the final step stores (acc Wa + ba) + (xrow Wu + bu), each bias laid along every row.

Only 0 + x = x is used of the arithmetic, so everything holds at the infinities too.
-/

noncomputable section

namespace Cert.PayloadAt

open Cert.KernelIdeal Cert.KernelIdeal.Gen Idealize.ShloMosaic Idealize.ShloMosaic.ValueIdx

open scoped BigOperators

/-! ## A matrix product into the zero splat, read at (p, q) -/

/-! The operand indices of the [512, 4096] by [4096, 256] product: the left operand is read at (row of the output, contraction position),
    the right operand at (contraction position, column of the output). -/
theorem adj_lhs0 (i : S512x256.Idx) (c : dot_S512x4096_S4096x256_S512x256_1_0_0_1_n_n.contr.Idx) :
    (dot_S512x4096_S4096x256_S512x256_1_0_0_1_n_n.lhsIdx i c 0).val = (i 0).val := by
  unfold DotDims.lhsIdx
  rw [dif_neg (show ¬(0 : Fin S512x4096.rank) ∈ dot_S512x4096_S4096x256_S512x256_1_0_0_1_n_n.lhsBatch by decide),
    dif_pos (show (0 : Fin S512x4096.rank) ∈ dot_S512x4096_S4096x256_S512x256_1_0_0_1_n_n.lhsNonContracting by decide)]
  rfl
theorem adj_lhs1 (i : S512x256.Idx) (c : dot_S512x4096_S4096x256_S512x256_1_0_0_1_n_n.contr.Idx) :
    (dot_S512x4096_S4096x256_S512x256_1_0_0_1_n_n.lhsIdx i c 1).val = (c ⟨0, by decide⟩).val :=
  dot_S512x4096_S4096x256_S512x256_1_0_0_1_n_n.lhsIdx_val_of_single rfl i c
theorem adj_rhs0 (i : S512x256.Idx) (c : dot_S512x4096_S4096x256_S512x256_1_0_0_1_n_n.contr.Idx) :
    (dot_S512x4096_S4096x256_S512x256_1_0_0_1_n_n.rhsIdx i c 0).val = (c ⟨0, by decide⟩).val :=
  dot_S512x4096_S4096x256_S512x256_1_0_0_1_n_n.rhsIdx_val_of_single rfl i c
theorem adj_rhs1 (i : S512x256.Idx) (c : dot_S512x4096_S4096x256_S512x256_1_0_0_1_n_n.contr.Idx) :
    (dot_S512x4096_S4096x256_S512x256_1_0_0_1_n_n.rhsIdx i c 1).val = (i 1).val := by
  unfold DotDims.rhsIdx
  rw [dif_neg (show ¬(1 : Fin S4096x256.rank) ∈ dot_S512x4096_S4096x256_S512x256_1_0_0_1_n_n.rhsBatch by decide),
    dif_pos (show (1 : Fin S4096x256.rank) ∈ dot_S512x4096_S4096x256_S512x256_1_0_0_1_n_n.rhsNonContracting by decide)]
  rfl

/-- The [512, 4096] by [4096, 256] product into the zero splat is, at (p, q), the sum over the 4096 contraction
    positions k of the left operand at (p, k) times the right operand at (k, q). -/
theorem matmul_adj_apply (L : FVec Ideal S512x4096 .bf16) (R : FVec Ideal S4096x256 .bf16) (p : Fin 512) (q : Fin 256) :
    matmul dot_S512x4096_S4096x256_S512x256_1_0_0_1_n_n none L R (constant S512x256 .f32 0x00000000#32) (ix2 p q)
      = ∑ k : Fin 4096, L (ix2 p k) * R (ix2 k q) := by
  show FloatOps.matmul dot_S512x4096_S4096x256_S512x256_1_0_0_1_n_n none L R (constant S512x256 .f32 0x00000000#32) (ix2 p q) = _
  rw [Ideal.matmul_constant_zero_apply, ← Equiv.sum_comp (contrEquiv1 dot_S512x4096_S4096x256_S512x256_1_0_0_1_n_n 4096 rfl rfl).symm]
  refine Finset.sum_congr rfl fun k _ => ?_
  have hk := contrEquiv1_symm_val dot_S512x4096_S4096x256_S512x256_1_0_0_1_n_n 4096 rfl rfl k
  have el : dot_S512x4096_S4096x256_S512x256_1_0_0_1_n_n.lhsIdx (ix2 p q) ((contrEquiv1 dot_S512x4096_S4096x256_S512x256_1_0_0_1_n_n 4096 rfl rfl).symm k) = ix2 p k :=
    funext fun a => Fin.ext (by
      match a with
      | ⟨0, _⟩ => exact adj_lhs0 _ _
      | ⟨1, _⟩ => exact (adj_lhs1 _ _).trans hk)
  have er : dot_S512x4096_S4096x256_S512x256_1_0_0_1_n_n.rhsIdx (ix2 p q) ((contrEquiv1 dot_S512x4096_S4096x256_S512x256_1_0_0_1_n_n 4096 rfl rfl).symm k) = ix2 k q :=
    funext fun a => Fin.ext (by
      match a with
      | ⟨0, _⟩ => exact (adj_rhs0 _ _).trans hk
      | ⟨1, _⟩ => exact adj_rhs1 _ _)
  rw [el, er]

/-! The operand indices of the [512, 256] by [256, 256] product: the left operand is read at (row of the output, contraction position),
    the right operand at (contraction position, column of the output). -/
theorem lin_lhs0 (i : S512x256.Idx) (c : dot_S512x256_S256x256_S512x256_1_0_0_1_n_n.contr.Idx) :
    (dot_S512x256_S256x256_S512x256_1_0_0_1_n_n.lhsIdx i c 0).val = (i 0).val := by
  unfold DotDims.lhsIdx
  rw [dif_neg (show ¬(0 : Fin S512x256.rank) ∈ dot_S512x256_S256x256_S512x256_1_0_0_1_n_n.lhsBatch by decide),
    dif_pos (show (0 : Fin S512x256.rank) ∈ dot_S512x256_S256x256_S512x256_1_0_0_1_n_n.lhsNonContracting by decide)]
  rfl
theorem lin_lhs1 (i : S512x256.Idx) (c : dot_S512x256_S256x256_S512x256_1_0_0_1_n_n.contr.Idx) :
    (dot_S512x256_S256x256_S512x256_1_0_0_1_n_n.lhsIdx i c 1).val = (c ⟨0, by decide⟩).val :=
  dot_S512x256_S256x256_S512x256_1_0_0_1_n_n.lhsIdx_val_of_single rfl i c
theorem lin_rhs0 (i : S512x256.Idx) (c : dot_S512x256_S256x256_S512x256_1_0_0_1_n_n.contr.Idx) :
    (dot_S512x256_S256x256_S512x256_1_0_0_1_n_n.rhsIdx i c 0).val = (c ⟨0, by decide⟩).val :=
  dot_S512x256_S256x256_S512x256_1_0_0_1_n_n.rhsIdx_val_of_single rfl i c
theorem lin_rhs1 (i : S512x256.Idx) (c : dot_S512x256_S256x256_S512x256_1_0_0_1_n_n.contr.Idx) :
    (dot_S512x256_S256x256_S512x256_1_0_0_1_n_n.rhsIdx i c 1).val = (i 1).val := by
  unfold DotDims.rhsIdx
  rw [dif_neg (show ¬(1 : Fin S256x256.rank) ∈ dot_S512x256_S256x256_S512x256_1_0_0_1_n_n.rhsBatch by decide),
    dif_pos (show (1 : Fin S256x256.rank) ∈ dot_S512x256_S256x256_S512x256_1_0_0_1_n_n.rhsNonContracting by decide)]
  rfl

/-- The [512, 256] by [256, 256] product into the zero splat is, at (p, q), the sum over the 256 contraction
    positions k of the left operand at (p, k) times the right operand at (k, q). -/
theorem matmul_lin_apply (L : FVec Ideal S512x256 .bf16) (R : FVec Ideal S256x256 .bf16) (p : Fin 512) (q : Fin 256) :
    matmul dot_S512x256_S256x256_S512x256_1_0_0_1_n_n none L R (constant S512x256 .f32 0x00000000#32) (ix2 p q)
      = ∑ k : Fin 256, L (ix2 p k) * R (ix2 k q) := by
  show FloatOps.matmul dot_S512x256_S256x256_S512x256_1_0_0_1_n_n none L R (constant S512x256 .f32 0x00000000#32) (ix2 p q) = _
  rw [Ideal.matmul_constant_zero_apply, ← Equiv.sum_comp (contrEquiv1 dot_S512x256_S256x256_S512x256_1_0_0_1_n_n 256 rfl rfl).symm]
  refine Finset.sum_congr rfl fun k _ => ?_
  have hk := contrEquiv1_symm_val dot_S512x256_S256x256_S512x256_1_0_0_1_n_n 256 rfl rfl k
  have el : dot_S512x256_S256x256_S512x256_1_0_0_1_n_n.lhsIdx (ix2 p q) ((contrEquiv1 dot_S512x256_S256x256_S512x256_1_0_0_1_n_n 256 rfl rfl).symm k) = ix2 p k :=
    funext fun a => Fin.ext (by
      match a with
      | ⟨0, _⟩ => exact lin_lhs0 _ _
      | ⟨1, _⟩ => exact (lin_lhs1 _ _).trans hk)
  have er : dot_S512x256_S256x256_S512x256_1_0_0_1_n_n.rhsIdx (ix2 p q) ((contrEquiv1 dot_S512x256_S256x256_S512x256_1_0_0_1_n_n 256 rfl rfl).symm k) = ix2 k q :=
    funext fun a => Fin.ext (by
      match a with
      | ⟨0, _⟩ => exact (lin_rhs0 _ _).trans hk
      | ⟨1, _⟩ => exact lin_rhs1 _ _)
  rw [el, er]

/-! ## A bias laid along every row -/

/-- A vector of 256 entries cast to one row and broadcast down 512 rows reads, at (p, q), its entry q. -/
theorem bias_rows_apply (b : FVec Ideal S256 .f32) (p : Fin 512) (q : Fin 256) :
    broadcastTo S512x256 (shapeCast S1x256 b shapeCasts_S256_S1x256) broadcasts_S1x256_S512x256 (ix2 p q) = b (ix1 q) :=
  (broadcastTo_1b_ab_apply _ broadcasts_S1x256_S512x256 p q).trans
    (shapeCast_a_1a_apply b shapeCasts_S256_S1x256 (0 : Fin 1) q)

/-! ## The three stored values -/

/-- The reset stores zero at every entry. -/
theorem pay1_apply (p : Fin 512) (q : Fin 256) : k0_pay1 (F := Ideal) (ix2 p q) = 0 := by
  unfold k0_pay1
  rw [shapeCast_self]
  exact Ideal.ofBits_zero_f32

/-- The accumulation step stores the accumulator plus the product of the adjacency block and the feature block. -/
theorem pay2_apply (v3 : Vec Ideal S512x256 .f32) (v4 : Vec Ideal S512x4096 .bf16) (v6 : Vec Ideal S4096x256 .bf16)
    (p : Fin 512) (q : Fin 256) :
    k0_pay2 (F := Ideal) v3 v4 v6 (ix2 p q) = v3 (ix2 p q) + ∑ k : Fin 4096, v4 (ix2 p k) * v6 (ix2 k q) := by
  unfold k0_pay2
  rw [shapeCast_self, shapeCast_self, shapeCast_self]
  exact congrArg (v3 (ix2 p q) + ·) (matmul_adj_apply v4 v6 p q)

/-- The final step stores the sum of the two affine maps: the accumulated messages through the aggregation weights
    and bias, and the row block of the features through the update weights and bias. -/
theorem pay3_apply (v16 : Vec Ideal S512x256 .f32) (v18 : Vec Ideal S256x256 .bf16) (v21 : Vec Ideal S256 .f32)
    (v25 : Vec Ideal S512x256 .bf16) (v27 : Vec Ideal S256x256 .bf16) (v30 : Vec Ideal S256 .f32)
    (p : Fin 512) (q : Fin 256) :
    k0_pay3 (F := Ideal) v16 v18 v21 v25 v27 v30 (ix2 p q)
      = ((∑ k : Fin 256, v25 (ix2 p k) * v27 (ix2 k q)) + v30 (ix1 q))
        + ((∑ k : Fin 256, v16 (ix2 p k) * v18 (ix2 k q)) + v21 (ix1 q)) := by
  unfold k0_pay3
  rw [shapeCast_self, shapeCast_self, shapeCast_self]
  exact congrArg₂ (· + ·)
    (congrArg₂ (· + ·) (matmul_lin_apply v25 v27 p q) (bias_rows_apply v30 p q))
    (congrArg₂ (· + ·) (matmul_lin_apply (truncf .bf16 v16 bitsLt_bf16_f32) v18 p q) (bias_rows_apply v21 p q))

end Cert.PayloadAt

end
-- ==== Proof.Spec.lean ====
/-
  The specification: the result array as ONE function of the argument arrays, index by index, over the
  extended reals.  With `adj` the dense 0/1 adjacency (whatever the two scatters built — it enters as a
  parameter and is never opened), `x` the node features, `Wu`, `bu` the update layer and `Wa`, `ba` the
  aggregation layer,

      messages[n, k] = Σ_j adj[n, j] · x[j, k]
      out[n, d]      = (Σ_k x[n, k] · Wu[d, k] + bu[d]) + (Σ_k messages[n, k] · Wa[d, k] + ba[d]).

  The kernel accumulates `messages` over four column blocks of 4096, starting from zero: `acc` is that
  running sum, block by block, and `part` one block's share.
-/
import Idealize.ShloMosaic.PureOps.Ideal
import Idealize.ShloMosaic.Lib.ValueIdx

noncomputable section

namespace Cert.Spec

open Idealize.ShloMosaic Idealize.ShloMosaic.ValueIdx

abbrev SNN : Shape := ⟨2, ![16384, 16384]⟩
abbrev SND : Shape := ⟨2, ![16384, 256]⟩
abbrev SDD : Shape := ⟨2, ![256, 256]⟩
abbrev SD : Shape := ⟨1, ![256]⟩

/-- Row `n` of `adj` against column `k` of `x`: one entry of the aggregated messages. -/
def msg (adj : SNN.Idx → EReal) (x : SND.Idx → EReal) (n : Fin 16384) (k : Fin 256) : EReal :=
  ∑ j : Fin 16384, adj (ix2 n j) * x (ix2 j k)

/-- The share of `msg` that column block `b` (columns 4096·b … 4096·b + 4095) contributes. -/
def part (adj : SNN.Idx → EReal) (x : SND.Idx → EReal) (n : Fin 16384) (k : Fin 256) (b : Fin 4) : EReal :=
  ∑ j : Fin 4096, adj (ix2 n ⟨4096 * b.val + j.val, by have := b.isLt; have := j.isLt; omega⟩)
    * x (ix2 ⟨4096 * b.val + j.val, by have := b.isLt; have := j.isLt; omega⟩ k)

/-- The running sum after the first `s` column blocks, from zero, each block added on the right. -/
def acc (adj : SNN.Idx → EReal) (x : SND.Idx → EReal) (n : Fin 16384) (k : Fin 256) : (s : ℕ) → s ≤ 4 → EReal
  | 0, _ => 0
  | s + 1, h => acc adj x n k s (Nat.le_of_succ_le h) + part adj x n k ⟨s, h⟩

/-- The result at row `n`, column `d`. -/
def Gat (adj : SNN.Idx → EReal) (x : SND.Idx → EReal) (Wu : SDD.Idx → EReal) (bu : SD.Idx → EReal)
    (Wa : SDD.Idx → EReal) (ba : SD.Idx → EReal) (n : Fin 16384) (d : Fin 256) : EReal :=
  ((∑ k : Fin 256, x (ix2 n k) * Wu (ix2 d k)) + bu (ix1 d))
    + ((∑ k : Fin 256, msg adj x n k * Wa (ix2 d k)) + ba (ix1 d))

/-- The result array. -/
def G (adj : SNN.Idx → EReal) (x : SND.Idx → EReal) (Wu : SDD.Idx → EReal) (bu : SD.Idx → EReal)
    (Wa : SDD.Idx → EReal) (ba : SD.Idx → EReal) : SND.Idx → EReal :=
  fun i => Gat adj x Wu bu Wa ba (i 0) (i 1)

theorem G_ix2 (adj : SNN.Idx → EReal) (x : SND.Idx → EReal) (Wu : SDD.Idx → EReal) (bu : SD.Idx → EReal)
    (Wa : SDD.Idx → EReal) (ba : SD.Idx → EReal) (n : Fin 16384) (d : Fin 256) :
    G adj x Wu bu Wa ba (ix2 n d) = Gat adj x Wu bu Wa ba n d := rfl

end Cert.Spec

end
-- ==== Proof.SpecLaws.lean ====
/-
  Laws of the specification: the running sum over the four column blocks of 4096 is the whole sum over
  the 16384 columns.  A sum over `Fin 16384` is regrouped through the bijection
  `Fin 4 × Fin 4096 ≃ Fin 16384`, `(b, j) ↦ 4096·b + j`; only commutativity and associativity of `+`
  are used, so nothing depends on finiteness of the summands.
-/
import proofs.«165845_j14061722927244_1_alg».proof.Proof.Spec
import Mathlib.Algebra.BigOperators.Fin
import Mathlib.Logic.Equiv.Fin.Basic

noncomputable section

namespace Cert.Spec

open Idealize.ShloMosaic Idealize.ShloMosaic.ValueIdx

/-- A sum over the 16384 columns is the sum, over the four blocks, of each block's 4096 terms. -/
theorem sum_four_blocks {M : Type*} [AddCommMonoid M] (f : Fin 16384 → M) :
    ∑ j : Fin 16384, f j
      = ∑ b : Fin 4, ∑ j : Fin 4096,
          f ⟨4096 * b.val + j.val, by have := b.isLt; have := j.isLt; omega⟩ := by
  rw [← Equiv.sum_comp (finProdFinEquiv : Fin 4 × Fin 4096 ≃ Fin 16384) f, Fintype.sum_prod_type]
  refine Finset.sum_congr rfl fun b _ => Finset.sum_congr rfl fun j _ => ?_
  refine congrArg f (Fin.ext ?_)
  show j.val + 4096 * b.val = 4096 * b.val + j.val
  omega

/-- Before any block the running sum is zero. -/
theorem acc_zero (adj : SNN.Idx → EReal) (x : SND.Idx → EReal) (n : Fin 16384) (k : Fin 256) (h : 0 ≤ 4) :
    acc adj x n k 0 h = 0 := rfl

/-- One more block adds that block's share on the right. -/
theorem acc_succ (adj : SNN.Idx → EReal) (x : SND.Idx → EReal) (n : Fin 16384) (k : Fin 256) (s : ℕ)
    (h : s + 1 ≤ 4) :
    acc adj x n k (s + 1) h = acc adj x n k s (Nat.le_of_succ_le h) + part adj x n k ⟨s, h⟩ := rfl

/-- The message entry is the sum of the four blocks' shares. -/
theorem msg_eq_sum_part (adj : SNN.Idx → EReal) (x : SND.Idx → EReal) (n : Fin 16384) (k : Fin 256) :
    msg adj x n k = ∑ b : Fin 4, part adj x n k b := by
  unfold msg
  rw [sum_four_blocks (fun j => adj (ix2 n j) * x (ix2 j k))]
  rfl

/-- After all four blocks the running sum is the message entry. -/
theorem acc_four (adj : SNN.Idx → EReal) (x : SND.Idx → EReal) (n : Fin 16384) (k : Fin 256) :
    acc adj x n k 4 (le_refl 4) = msg adj x n k := by
  have h4 : acc adj x n k 4 (le_refl 4)
      = 0 + part adj x n k 0 + part adj x n k 1 + part adj x n k 2 + part adj x n k 3 := rfl
  rw [h4, zero_add, msg_eq_sum_part, Fin.sum_univ_four]

end Cert.Spec

end
-- ==== Proof.AdjBridge.lean ====
import proofs.«165845_j14061722927244_1_alg».proof.Proof.KI.Entry
import proofs.«165845_j14061722927244_1_alg».proof.Proof.Gen.ReferenceIdeal.Read
import Idealize.ShloMosaic.Lib.IdealHost
import Idealize.ShloMosaic.Lib.ValueLayout
import Idealize.ShloMosaic.Lib.StableHlo.Run

/-!
# What the kernel region finds in its input arrays, in the reference's words

Before the one kernel region the kernel's program runs host operations that build the dense adjacency from the
edge list, convert the node features to the narrower format, and transpose and convert the two weight matrices.
At the ideal instance a change of format is the identity and every float is an extended real, so:

* the adjacency is the reference's own adjacency: both programs scatter the value one onto a canvas of zeros at
  (source, target) and then at (target, source) of every edge, through the same integer chain on the edge list;
  the kernel's program writes the 16-bit patterns of zero and one where the reference writes the 32-bit ones, and
  both pairs denote the extended reals 0 and 1;
* the converted features are the features;
* each converted, transposed weight matrix read at (k, d) is the weight matrix at (d, k).
-/

set_option maxRecDepth 16384

noncomputable section

namespace Cert.AdjBridge

open Cert.KernelIdeal Cert.KernelIdeal.Gen Idealize.ShloMosaic Idealize.ShloMosaic.TcCoe Idealize.ShloMosaic.ValueIdx
open Idealize.SL.Sem Idealize.ShloMosaic.StableHlo

/-! ## The adjacency -/

/-- The dense adjacency both programs build, over the two values it is made of: a canvas of z everywhere, the value o
    written at (source, target) of every edge, then at (target, source) of every edge. The edge list's two rows go
    through the same integer chain in both programs (a negative node number wraps by the node count). -/
def adjWith (z o : EReal) (x1 : (⟨S2x524288, .i32⟩ : BufTy).Contents (Elt Ideal)) : S16384x16384.Idx → EReal :=
  Host.scatter scatter_S16384x16384_S524288x2_S524288_n_01_01_1 (fun _ b => b)
    (Host.scatter scatter_S16384x16384_S524288x2_S524288_n_01_01_1 (fun _ b => b)
      (broadcastInDim (s := S_) S16384x16384 ![] bcast_S_S16384x16384 (fun _ => z))
      (Cert.ReferenceIdeal.Read.val_main_v17 (F := Ideal) x1)
      (broadcastInDim (s := S_) S524288 ![] bcast_S_S524288 (fun _ => o)))
    (Cert.ReferenceIdeal.Read.val_main_v32 (F := Ideal) x1)
    (broadcastInDim (s := S_) S524288 ![] bcast_S_S524288 (fun _ => o))

/-- The kernel program's adjacency is that array over the bf16 patterns of zero and one. -/
theorem V_adj_kernel (m : (ℓ : Loc nD τ sig) → Buf (Elt Ideal) ℓ) (c : Dev nD) :
    (Cert.KernelIdeal.Hand.V m c main_v34 : S16384x16384.Idx → EReal)
      = adjWith (Ideal.ofBits .bf16 0x0000#16) (Ideal.ofBits .bf16 0x3F80#16) (m ((c.tc : Thread nD τ).loc main_arg1)) := by
  dsimp only [Cert.KernelIdeal.Hand.V, hostOps0]
  after_results_simp
  rfl

/-- The reference's adjacency is the same array over the f32 patterns of zero and one. -/
theorem adj_reference (x1 : (⟨S2x524288, .i32⟩ : BufTy).Contents (Elt Ideal)) :
    (Cert.ReferenceIdeal.Read.val_main_v34 (F := Ideal) x1 : S16384x16384.Idx → EReal)
      = adjWith (Ideal.ofBits .f32 0x00000000#32) (Ideal.ofBits .f32 0x3F800000#32) x1 := by
  unfold Cert.ReferenceIdeal.Read.val_main_v34 Cert.ReferenceIdeal.Read.val_main_v33 Cert.ReferenceIdeal.Read.val_main_cst_8
    Cert.ReferenceIdeal.Read.val_main_v19 Cert.ReferenceIdeal.Read.val_main_v18 Cert.ReferenceIdeal.Read.val_main_cst_3
    Cert.ReferenceIdeal.Read.val_main_v4 Cert.ReferenceIdeal.Read.val_main_cst adjWith
  rfl

/-- The two programs build the same adjacency: both patterns of zero are the extended real 0 and both patterns of one
    are 1, and everything else is the same integer computation on the edge list. -/
theorem V_adj (m : (ℓ : Loc nD τ sig) → Buf (Elt Ideal) ℓ) (c : Dev nD) :
    (Cert.KernelIdeal.Hand.V m c main_v34 : S16384x16384.Idx → EReal)
      = Cert.ReferenceIdeal.Read.val_main_v34 (F := Ideal) (m ((c.tc : Thread nD τ).loc main_arg1)) := by
  rw [V_adj_kernel, adj_reference, Ideal.ofBits_zero_bf16, Ideal.ofBits_one_bf16, Ideal.ofBits_zero_f32, Ideal.ofBits_one_f32]

/-! ## The features and the weights -/

/-- The converted node features are the node features. -/
theorem V_x (m : (ℓ : Loc nD τ sig) → Buf (Elt Ideal) ℓ) (c : Dev nD) :
    (Cert.KernelIdeal.Hand.V m c main_v35 : S16384x256.Idx → EReal) = m ((c.tc : Thread nD τ).loc main_arg0) := by
  dsimp only [Cert.KernelIdeal.Hand.V, hostOps0]
  after_results_simp
  rfl

/-- The converted, transposed aggregation weights are the transpose of the aggregation weights. -/
theorem V_waggT_eq (m : (ℓ : Loc nD τ sig) → Buf (Elt Ideal) ℓ) (c : Dev nD) :
    (Cert.KernelIdeal.Hand.V m c main_v37 : S256x256.Idx → EReal)
      = transpose S256x256 [1, 0] (m ((c.tc : Thread nD τ).loc main_arg4)) transposes_S256x256_S256x256_1_0 := by
  dsimp only [Cert.KernelIdeal.Hand.V, hostOps0]
  after_results_simp
  rfl

/-- Read at (k, d) they are the aggregation weights at (d, k). -/
theorem V_waggT (m : (ℓ : Loc nD τ sig) → Buf (Elt Ideal) ℓ) (c : Dev nD) (k d : Fin 256) :
    (Cert.KernelIdeal.Hand.V m c main_v37 : S256x256.Idx → EReal) (ix2 k d)
      = m ((c.tc : Thread nD τ).loc main_arg4) (ix2 d k) := by
  rw [V_waggT_eq]
  exact transpose_ix2_apply _ transposes_S256x256_S256x256_1_0 k d

/-- The converted, transposed update weights are the transpose of the update weights. -/
theorem V_wupdT_eq (m : (ℓ : Loc nD τ sig) → Buf (Elt Ideal) ℓ) (c : Dev nD) :
    (Cert.KernelIdeal.Hand.V m c main_v39 : S256x256.Idx → EReal)
      = transpose S256x256 [1, 0] (m ((c.tc : Thread nD τ).loc main_arg2)) transposes_S256x256_S256x256_1_0 := by
  dsimp only [Cert.KernelIdeal.Hand.V, hostOps0]
  after_results_simp
  rfl

/-- Read at (k, d) they are the update weights at (d, k). -/
theorem V_wupdT (m : (ℓ : Loc nD τ sig) → Buf (Elt Ideal) ℓ) (c : Dev nD) (k d : Fin 256) :
    (Cert.KernelIdeal.Hand.V m c main_v39 : S256x256.Idx → EReal) (ix2 k d)
      = m ((c.tc : Thread nD τ).loc main_arg2) (ix2 d k) := by
  rw [V_wupdT_eq]
  exact transpose_ix2_apply _ transposes_S256x256_S256x256_1_0 k d

end Cert.AdjBridge

end
-- ==== Proof.KI.Value.lean ====
/-
  The kernel's values over the extended reals.  With `adj` the adjacency and `x` the features as the region
  finds them: after the point (row block I, step s) the accumulator holds, at (p, q), the running sum of the
  first s + 1 column blocks of row 512·I + p of `adj` against column q of `x` — by induction on the point: a
  first step leaves 0 + the block's share, a later step the point before's sum + its own share —; so after a
  last step it holds the whole aggregated message, and the output block stored there is the specification's
  result at those rows.
-/
import proofs.«165845_j14061722927244_1_alg».proof.Proof.KI.Pieces
import proofs.«165845_j14061722927244_1_alg».proof.Proof.KI.Blocks
import proofs.«165845_j14061722927244_1_alg».proof.Proof.Payload
import proofs.«165845_j14061722927244_1_alg».proof.Proof.SpecLaws
import proofs.«165845_j14061722927244_1_alg».proof.Proof.AdjBridge

set_option maxRecDepth 16384

noncomputable section

namespace Cert.KernelIdeal.Val

open Cert.KernelIdeal Cert.KernelIdeal.Gen Cert.KernelIdeal.Hand Cert.Spec Cert.PayloadAt
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

/-- The adjacency and the features as the region finds them. -/
abbrev adjV (c : Dev nD) : SNN.Idx → EReal := (V m c main_v34 : Vec Ideal S16384x16384 .bf16)
abbrev xV (c : Dev nD) : SND.Idx → EReal := (V m c main_v35 : Vec Ideal S16384x256 .bf16)

theorem acc_congr (adj : SNN.Idx → EReal) (x : SND.Idx → EReal) {n n' : Fin 16384} (k : Fin 256) {s s' : ℕ} (h : s ≤ 4) (h' : s' ≤ 4)
    (hn : n = n') (hs : s = s') : acc adj x n k s h = acc adj x n' k s' h' := by
  subst hn; subst hs; rfl

theorem acc_first (adj : SNN.Idx → EReal) (x : SND.Idx → EReal) (n : Fin 16384) (k : Fin 256) {s : ℕ} (h : s + 1 ≤ 4) (hs : s = 0) :
    acc adj x n k (s + 1) h = 0 + part adj x n k ⟨s, h⟩ := by
  subst hs; rfl

theorem part_congr (adj : SNN.Idx → EReal) (x : SND.Idx → EReal) {n n' : Fin 16384} (k : Fin 256) {b b' : Fin 4}
    (hn : n = n') (hb : b = b') : part adj x n k b = part adj x n' k b' := by
  subst hn; subst hb; rfl

/-- One point's block product is that column block's share of the message. -/
theorem blockprod (c : Dev nD) (t : Fin cfg0.N) (p : Fin 512) (q : Fin 256)
    (x0 : Vec Ideal S512x4096 .bf16) (x1 : Vec Ideal S4096x256 .bf16) (h0 : x0 = iblk m c 0 t) (h1 : x1 = iblk m c 1 t) :
    (∑ k : Fin 4096, x0 (ix2 p k) * x1 (ix2 k q))
      = part (adjV m c) (xV m c) (⟨512 * (t.val / 4) + p.val, by have := t_lt t; have := p.isLt; omega⟩ : Fin 16384) q
          (⟨t.val % 4, Nat.mod_lt _ (by decide)⟩ : Fin 4) := by
  subst h0; subst h1
  unfold part
  refine Finset.sum_congr rfl fun k _ => ?_
  rw [iblk0_apply, iblk1_apply]

/-- THE ACCUMULATION: after point `n` the accumulator holds the running sum of the first `n % 4 + 1` column blocks. -/
theorem acc_inv (c : Dev nD) : ∀ (n : ℕ) (hn : n < cfg0.N) (p : Fin 512) (q : Fin 256),
    (outsAt0 m c n hn).2 (ix2 p q)
      = acc (adjV m c) (xV m c) (⟨512 * (n / 4) + p.val, by have := t_lt ⟨n, hn⟩; have := p.isLt; dsimp only at *; omega⟩ : Fin 16384) q
          (n % 4 + 1) (by have := Nat.mod_lt n (show 0 < 4 by decide); omega)
  | 0, hn, p, q => by
    rw [outsAt0_A m c ⟨0, hn⟩ rfl (by dsimp only; omega)]
    dsimp only
    rw [sout_A, pay2_apply, pay1_apply, blockprod m c _ p q _ _ rfl rfl]
    exact (acc_first _ _ _ _ _ rfl).symm
  | n + 1, hn, p, q => by
    have hN : n + 1 < 128 := t_lt ⟨n + 1, hn⟩
    have ih := acc_inv c n (Nat.lt_of_succ_lt hn) p q
    by_cases h0 : (n + 1) % 4 = 0
    · rw [outsAt0_A m c ⟨n + 1, hn⟩ h0 (by dsimp only; omega)]
      dsimp only
      rw [sout_A, pay2_apply, pay1_apply, blockprod m c _ p q _ _ rfl rfl]
      exact (acc_first _ _ _ _ _ h0).symm
    · have hstep : ∀ (xs0 : Vec Ideal S512x256 .f32), xs0 = (outsAt0 m c n (Nat.lt_of_succ_lt hn)).2 →
          (k0_pay2 (F := Ideal) xs0 (iblk m c 0 ⟨n + 1, hn⟩) (iblk m c 1 ⟨n + 1, hn⟩)) (ix2 p q)
            = acc (adjV m c) (xV m c) (⟨512 * ((n + 1) / 4) + p.val, by have := p.isLt; omega⟩ : Fin 16384) q
                ((n + 1) % 4 + 1) (by have := Nat.mod_lt (n + 1) (show 0 < 4 by decide); omega) := by
        intro xs0 hxs
        rw [pay2_apply, blockprod m c _ p q _ _ rfl rfl, hxs, ih, acc_succ _ _ _ _ ((n + 1) % 4)]
        refine congrArg₂ (· + ·) (acc_congr _ _ _ _ _ (Fin.ext ?_) ?_) (part_congr _ _ _ rfl (Fin.ext ?_))
        · dsimp only; omega
        · omega
        · rfl
      by_cases h1 : (n + 1) % 4 = 3
      · rw [outsAt0_C m c ⟨n + 1, hn⟩ h0 h1]
        dsimp only
        rw [sout_C]
        exact hstep _ rfl
      · rw [outsAt0_B m c ⟨n + 1, hn⟩ h0 h1]
        dsimp only
        rw [sout_B]
        exact hstep _ rfl

/-- After a last step the accumulator holds the whole aggregated message. -/
theorem msg_at (c : Dev nD) (t : Fin cfg0.N) (h3 : t.val % 4 = 3) (p : Fin 512) (k : Fin 256) :
    (outsAt0 m c t.val t.isLt).2 (ix2 p k)
      = msg (adjV m c) (xV m c) (⟨512 * (t.val / 4) + p.val, by have := t_lt t; have := p.isLt; omega⟩ : Fin 16384) k := by
  rw [acc_inv m c t.val t.isLt p k, ← acc_four]
  exact acc_congr _ _ _ _ _ rfl (by omega)

/-- THE OUTPUT BLOCK: what a last step stores is the specification's result at the block's rows. -/
theorem out_val (c : Dev nD) (t : Fin cfg0.N) (h3 : t.val % 4 = 3) (p : Fin 512) (q : Fin 256) :
    (outsAt0 m c t.val t.isLt).1 (ix2 p q)
      = Gat (adjV m c) (xV m c) (m ((c.tc : Thread nD τ).loc main_arg2)) (m ((c.tc : Thread nD τ).loc main_arg3))
          (m ((c.tc : Thread nD τ).loc main_arg4)) (m ((c.tc : Thread nD τ).loc main_arg5))
          (⟨512 * (t.val / 4) + p.val, by have := t_lt t; have := p.isLt; omega⟩ : Fin 16384) q := by
  have h0 : ¬t.val % 4 = 0 := by omega
  have hC := outsAt0_C m c t h0 h3
  have h2 : (outsAt0 m c t.val t.isLt).2
      = k0_pay2 (F := Ideal) (outsAt0 m c (t.val - 1) (Nat.lt_of_le_of_lt (Nat.sub_le _ _) t.isLt)).2 (iblk m c 0 t) (iblk m c 1 t) := by
    rw [hC]; dsimp only; rw [sout_C]
  have h1 : (outsAt0 m c t.val t.isLt).1
      = k0_pay3 (F := Ideal) (k0_pay2 (F := Ideal) (outsAt0 m c (t.val - 1) (Nat.lt_of_le_of_lt (Nat.sub_le _ _) t.isLt)).2 (iblk m c 0 t) (iblk m c 1 t))
          (iblk m c 3 t) (iblk m c 4 t) (iblk m c 2 t) (iblk m c 5 t) (iblk m c 6 t) := by
    rw [hC]; dsimp only; rw [out_C]
  rw [h1, ← h2, pay3_apply]
  unfold Gat
  refine congrArg₂ (· + ·) (congrArg₂ (· + ·) (Finset.sum_congr rfl fun k _ => ?_) ?_) (congrArg₂ (· + ·) (Finset.sum_congr rfl fun k _ => ?_) ?_)
  · rw [iblk2_apply, iblk5_eq]
    exact congrArg _ (Cert.AdjBridge.V_wupdT m c k q)
  · rw [iblk6_eq]
    exact congrFun (V_main_arg3 m c) _
  · rw [msg_at m c t h3 p k, iblk3_eq]
    exact congrArg _ (Cert.AdjBridge.V_waggT m c k q)
  · rw [iblk4_eq]
    exact congrFun (V_main_arg5 m c) _

end Cert.KernelIdeal.Val

end
-- ==== Proof.KI.Final.lean ====
/-
  From the output window's blocks to the result array.  The output window is written back at the last
  reduction step of each row block (the points ≡ 3 mod 4); the block written at point `t` is rows
  512·(t/4) … 512·(t/4) + 511 of the array, all 256 columns.  These 32 blocks tile the array: row `r` lies
  in the block of point 4·(r/512) + 3.  So if, at every such point, the staging buffer holds the rows of one
  function of the array's index, the array ends holding that function.
-/
import proofs.«165845_j14061722927244_1_alg».proof.Proof.KI.Frame
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The output window's index map over the grid, decided once: row block `t / 4`, the one column block. -/
theorem index0_7 : ∀ t : Fin cfg0.N, win0_7.index t 0 = t.val / 4 ∧ win0_7.index t 1 = 0 :=
  (by decide +kernel : ∀ t : Fin grid0.N, win0_7.index t 0 = t.val / 4 ∧ win0_7.index t 1 = 0)

/-- An index of the array is in point `t`'s block iff each coordinate is in the block's range on its axis. -/
theorem mem_blk7 (t : Fin cfg0.N) (i : S16384x256.Idx) :
    i ∈ ((cfg0.win 7).blk t).view.set
      ↔ ∀ a : Fin 2, win0_7.index t a * S512x256.size a ≤ (i a).val
          ∧ (i a).val < win0_7.index t a * S512x256.size a + S512x256.size a := by
  show i ∈ ((View.whole main_v40).slice (win0_7.rect t)).set ↔ _
  rw [View.set_slice_whole, Rect.mem_set_unit]
  exact Iff.rfl

/-- What a write-back point writes is its block of `Gf`, when its staging buffer holds those rows of `Gf`. -/
theorem flushed7_eq (c : Dev nD) (Gf : S16384x256.Idx → Elt F .f32)
    (hblk : ∀ (t : Fin cfg0.N), t.val % 4 = 3 → ∀ (p : Fin 512) (q : Fin 256),
      (outsAt0 m c t.val t.isLt).1 (ix2 p q)
        = Gf (ix2 (⟨512 * (t.val / 4) + p.val, by
            have := lt_of_lt_of_eq t.isLt N_0; have := p.isLt; omega⟩ : Fin 16384) q))
    (t : Fin cfg0.N) (hf : (cfg0.win 7).flush t = true) :
    (dats m 0 c).flushed 7 t = ((cfg0.win 7).blk t).view.read (Elt F) Gf := by
  have h3 : t.val % 4 = 3 := (flush0_7 t).mp hf
  have hi := index0_7 t
  show (cfg0.win 7).cut (grid0.coords t) ((dats m 0 c).after 7 t) = _
  rw [after0_7]
  refine funext fun (j : S512x256.Idx) => ?_
  have e1 : (cfg0.win 7).xinj (grid0.coords t) j = ix2 (j 0) (j 1) :=
    funext fun a => Fin.ext (by match a with | ⟨0, _⟩ => rfl | ⟨1, _⟩ => rfl)
  have e2 : ((cfg0.win 7).blk t).view.emb j
      = ix2 (⟨512 * (t.val / 4) + (j 0).val, by
          have := lt_of_lt_of_eq t.isLt N_0; have : (j 0).val < 512 := (j 0).isLt; omega⟩ : Fin 16384) (j 1) :=
    funext fun a => Fin.ext (by
      match a with
      | ⟨0, _⟩ => show win0_7.index t 0 * 512 + 1 * (j 0).val = 512 * (t.val / 4) + (j 0).val; rw [hi.1]; omega
      | ⟨1, _⟩ => show win0_7.index t 1 * 256 + 1 * (j 1).val = (j 1).val; rw [hi.2]; omega)
  rw [View.read_apply]
  show (outsAt0 m c t.val t.isLt).1 ((cfg0.win 7).xinj (grid0.coords t) j) = Gf (((cfg0.win 7).blk t).view.emb j)
  exact (congrArg (outsAt0 m c t.val t.isLt).1 e1).trans ((hblk t h3 (j 0) (j 1)).trans (congrArg Gf e2.symm))

/-- The result array after the run is `Gf`, when every write-back point's staging buffer holds its rows of `Gf`. -/
theorem final7 (c : Dev nD) (Gf : S16384x256.Idx → Elt F .f32)
    (hblk : ∀ (t : Fin cfg0.N), t.val % 4 = 3 → ∀ (p : Fin 512) (q : Fin 256),
      (outsAt0 m c t.val t.isLt).1 (ix2 p q)
        = Gf (ix2 (⟨512 * (t.val / 4) + p.val, by
            have := lt_of_lt_of_eq t.isLt N_0; have := p.isLt; omega⟩ : Fin 16384) q)) :
    (dats m 0 c).arrAt 7 cfg0.N = Gf :=
  (dats m 0 c).arrAt_eq_of_cover 7 Gf (flushed7_eq m c Gf hblk) fun i => by
    have h0 : (i 0).val < 16384 := (i 0).isLt
    have h1 : (i 1).val < 256 := (i 1).isLt
    have hN : cfg0.N = 128 := N_0
    refine ⟨⟨4 * ((i 0).val / 512) + 3, by rw [hN]; omega⟩, (flush0_7 _).mpr (by show (4 * ((i 0).val / 512) + 3) % 4 = 3; omega), ?_⟩
    have hi := index0_7 ⟨4 * ((i 0).val / 512) + 3, by rw [hN]; omega⟩
    rw [mem_blk7]
    intro a
    match a with
    | ⟨0, _⟩ =>
      show win0_7.index _ 0 * 512 ≤ (i 0).val ∧ (i 0).val < win0_7.index _ 0 * 512 + 512
      rw [hi.1]
      show (4 * ((i 0).val / 512) + 3) / 4 * 512 ≤ (i 0).val ∧ (i 0).val < (4 * ((i 0).val / 512) + 3) / 4 * 512 + 512
      omega
    | ⟨1, _⟩ =>
      show win0_7.index _ 1 * 256 ≤ (i 1).val ∧ (i 1).val < win0_7.index _ 1 * 256 + 256
      rw [hi.2]
      omega

end Cert.KernelIdeal.Hand

end
-- ==== Proof.KI.Launch.lean ====
/-
  The launch of the kernel region when two input windows read one array.

  Windows 1 and 2 both read the bf16 node features (window 1 the rows of the current reduction step, window 2
  the rows of the current output block), so the eight windows stand on seven distinct buffers. At the region's
  entry each of those buffers is held whole at the full share; the windows' arrays are stated per window, each
  at the window's own share. The deal: the shared buffer's full share is cut into its left and right halves,
  one for each of its two readers (reading needs no more than a positive share, and nothing is written through
  an input window); every other buffer goes whole to its one window, the output window's among them.

  With that deal in hand the run of @main follows the general region theorem for windows that may share arrays:
  the generator register and the kernel's accumulator enter the point-by-point invariant and come back from it,
  the unscoped buffers that are no window's array bypass the region and are read back unchanged, and every
  window's array ends at what the proof data compute for it.
-/
import proofs.«165845_j14061722927244_1_alg».proof.Proof.KI.Entry
import proofs.«165845_j14061722927244_1_alg».proof.Proof.KI.Shares
import Idealize.ShloMosaic.Lib.Pipeline.Launch

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The share the proof data hold window `w`'s array at is `qshare w`: an input window's by hypothesis, the
    output window's (the full share) because `qshare` is the full share off windows 1 and 2. -/
theorem share_eq {c : Dev nD} (dat : Dat τ (Elt F) Unit ℕ (UR sig nD τ) ℕ cfg0 c)
    (hq : ∀ w, dat.q w = qshare w) (w : Fin 8) : dat.share w = qshare w := by
  unfold Dat.share; rw [hq]
  revert w; decide

/-- The windows' arrays at the region's entry, window by window: every array is a whole buffer, so its
    points-to is the buffer's, at the window's share and at the entry contents. -/
theorem arrays_eq_deal {c : Dev nD} (dat : Dat τ (Elt F) Unit ℕ (UR sig nD τ) ℕ cfg0 c)
    (hq : ∀ w, dat.q w = qshare w) (Vc : (b : Ref sig .tc) → Buf (Elt F) ((c : Thread nD τ).loc b))
    (hA : ∀ w, dat.A w = Vc (Pipeline.arrRef spec0 w)) :
    (dat.arrays (dat.arrAt · 0) : sProp 𝕄)
      = bigSep Finset.univ fun w : Fin 8 => (((c : Thread nD τ).loc (Pipeline.arrRef spec0 w)) ↦{qshare w} Vc (Pipeline.arrRef spec0 w) : sProp 𝕄) := by
  unfold Dat.arrays
  exact bigSep_congr fun w _ => by
    rw [(arr_whole0 w).set_eq_univ, share_eq dat hq w, show (fun x => dat.arrAt x 0) w = dat.A w from rfl, hA w]

/-- THE DEAL. The seven distinct buffers behind the eight windows' arrays, each whole at the full share, make the
    windows' arrays at their shares: the node features' full share splits into its two halves, one per reader;
    each other buffer is its one window's. -/
theorem arrays_deal {c : Dev nD} (dat : Dat τ (Elt F) Unit ℕ (UR sig nD τ) ℕ cfg0 c)
    (hq : ∀ w, dat.q w = qshare w) (Vc : (b : Ref sig .tc) → Buf (Elt F) ((c : Thread nD τ).loc b))
    (hA : ∀ w, dat.A w = Vc (Pipeline.arrRef spec0 w)) :
    (Pipeline.arrBufs spec0 c Vc : sProp 𝕄) ⊢ dat.arrays (dat.arrAt · 0) := by
  rw [arrays_eq_deal dat hq Vc hA, Gen.bigSep_W0]
  unfold Pipeline.arrBufs
  rw [bigSep_eq_bigSepL_of_eq [main_v34, main_v35, main_v37, main_arg5, main_v39, main_arg3, main_v40] (by decide) (by decide)]
  refine (show (iprop((((c : Thread nD τ).loc main_v34) ↦{fullShare} Vc main_v34)
      ∗ (((c : Thread nD τ).loc main_v35) ↦{fullShare} Vc main_v35)
      ∗ (((c : Thread nD τ).loc main_v37) ↦{fullShare} Vc main_v37)
      ∗ (((c : Thread nD τ).loc main_arg5) ↦{fullShare} Vc main_arg5)
      ∗ (((c : Thread nD τ).loc main_v39) ↦{fullShare} Vc main_v39)
      ∗ (((c : Thread nD τ).loc main_arg3) ↦{fullShare} Vc main_arg3)
      ∗ (((c : Thread nD τ).loc main_v40) ↦{fullShare} Vc main_v40)) : sProp 𝕄) ⊢ (iprop((((c : Thread nD τ).loc main_v34) ↦{fullShare} Vc main_v34)
      ∗ (((c : Thread nD τ).loc main_v35) ↦{fullShare.left} Vc main_v35)
      ∗ (((c : Thread nD τ).loc main_v35) ↦{fullShare.right} Vc main_v35)
      ∗ (((c : Thread nD τ).loc main_v37) ↦{fullShare} Vc main_v37)
      ∗ (((c : Thread nD τ).loc main_arg5) ↦{fullShare} Vc main_arg5)
      ∗ (((c : Thread nD τ).loc main_v39) ↦{fullShare} Vc main_v39)
      ∗ (((c : Thread nD τ).loc main_arg3) ↦{fullShare} Vc main_arg3)
      ∗ (((c : Thread nD τ).loc main_v40) ↦{fullShare} Vc main_v40)) : sProp 𝕄) from ?_)
  iintro ⟨HA, HB, HC, HD, HE, HF, HG⟩
  ihave HB := (pointsTo_share (PosShare.mem_left_op_right fullShare)).1 $$ HB
  icases HB with ⟨HB₁, HB₂⟩
  isplitl [HA]; · iexact HA
  isplitl [HB₁]; · iexact HB₁
  isplitl [HB₂]; · iexact HB₂
  isplitl [HC]; · iexact HC
  isplitl [HD]; · iexact HD
  isplitl [HE]; · iexact HE
  isplitl [HF]; · iexact HF
  iexact HG

set_option backward.isDefEq.respectTransparency.types false in
/-- THE RUN. From any memory with every counter at zero, every weakly fair execution of @main terminates, and in
    every final state each window's array holds what the proof data compute for it after the last point, and
    every other unscoped buffer what it held at the region's entry. Asked of the proof data: the body obligation
    at every point; that the input windows hold their arrays at the shares `qshare`; that nothing is owed; that
    the arrays at entry are the entry contents; and that the invariant is entered from, and returns to, the
    scoped rest with the generator register at some state. -/
theorem run_of (dats : (p : Fin 1) → (c : Dev nD) → Dat τ (Elt F) Unit ℕ (UR sig nD τ) ℕ (cfgs p) c)
    (hbody : ∀ c, Pipeline.BodyObligationLoose (dats 0 c) (defs₀ (F := F)) Variants.none () Set.univ)
    (hq : ∀ c w, (dats 0 c).q w = qshare w)
    (howed : ∀ c t, (dats 0 c).owed t = 0)
    (hA : ∀ c w, (dats 0 c).A w = V m c (Pipeline.arrRef spec0 w))
    (hin : ∀ c, Pipeline.ΦA spec0 c ⊢ (dats 0 c).Φ 0)
    (hout : ∀ c, (dats 0 c).Φ (Fin.last cfg0.N) ⊢ Pipeline.ΦA spec0 c) :
    θ_run defs (onTc (τ := τ) (main (F := F))) ⟨m, fun _ => 0, ρ⟩ (Pipeline.FramePost cfgs dats 0 (V m)) := by
  classical
  exact Pipeline.θ_run_region_pf (fun q => (cfgs q).toPCfg (Val := Elt F)) (fun q => (cfgs q).toPCfg_adm) dats () Gen.cellOf_inj (0 : Fin 1)
    Gen.winFacts₀0 (Pipeline.OwnSemFacts.none spec0) (Pipeline.PreFacts.none _) emb₁ defs₀ Variants.none m ρ main
    hbody Gen.block_pos0 Gen.arr_whole0 Gen.stage_whole0 howed
    (G := fun _ => iprop(emp))
    (u₀ := initOf (Pipeline.cells (Pipeline.pin (fun q => (cfgs q).toPCfg (Val := Elt F)) (fun q => (cfgs q).toPCfg_adm)) Gen.cellOf_inj)
      (Pipeline.launchToks (Pipeline.pin (fun q => (cfgs q).toPCfg (Val := Elt F)) (fun q => (cfgs q).toPCfg_adm)) Gen.cellOf_inj))
    (hu₀ := by
      iintro Hu; imodintro
      isplitl [Hu]
      · iapply (show (ownU _ : sProp 𝕄) ⊢ BI.own (emb₁ (initOf (Pipeline.cells (Pipeline.pin (fun q => (cfgs q).toPCfg (Val := Elt F)) (fun q => (cfgs q).toPCfg_adm)) Gen.cellOf_inj)
          (Pipeline.launchToks (Pipeline.pin (fun q => (cfgs q).toPCfg (Val := Elt F)) (fun q => (cfgs q).toPCfg_adm)) Gen.cellOf_inj))) from .rfl)
        iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := fun c => arrays_deal (dats 0 c) (hq c) (V m c) (hA c))
    (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) Pipeline.Prefetch.none spec0 c (V m c))
    (hX := fun c => by
      iintro ⟨HU, -, -, -, Hp, -⟩; imodintro
      isplitl [Hp]; · iexists _; iexact Hp
      iexact HU)
    (hin := fun c => (show _ ⊢ Pipeline.ΦA spec0 c by
        unfold Pipeline.ΦA; iintro ⟨Hp, -, Hr⟩
        isplitl [Hr] <;> iassumption).trans (hin c))
    (hout := fun c => (hout c).trans (by
        rw [Pipeline.ownSems0_none]; unfold Pipeline.ΦA
        iintro ⟨Hr, Hp⟩
        isplitl [Hp]; · iexact Hp
        isplitr; · iempintro
        iexact Hr))
    (QY := fun c s => ∀ b ∈ Pipeline.restRefsP sig Pipeline.Prefetch.none spec0, s.mem ((c : Thread nD τ).loc b) = V m c b)
    (hY := fun c s' => by
      iintro ⟨-, HU, HSI⟩
      unfold Pipeline.unscopedRestP
      imodintro
      iapply (pointsTo_read_all (Pipeline.restRefsP sig Pipeline.Prefetch.none spec0) (fun b => (c : Thread nD τ).loc b) (V m c) s')
      isplitl [HU] <;> iassumption)
    (hQ := fun s h c => ⟨(h c).1, Pipeline.rest_of_restP Pipeline.Prefetch.none spec0 _ c (V m c) s (fun k => k.elim0) (h c).2.1 (h c).2.2⟩)

end Cert.KernelIdeal.Hand

end
-- ==== Proof.KI.Run.lean ====
/-
  The program's run and its frame: @main's host operations, then the region — launched with the features'
  array dealt in halves to the two windows that read it —, terminate without a fault under every weakly fair
  schedule, every window's array ending at what the proof data compute and every other buffer as the region
  found it; in particular no argument array is changed.
-/
import proofs.«165845_j14061722927244_1_alg».proof.Proof.KI.Frame
import proofs.«165845_j14061722927244_1_alg».proof.Proof.KI.Launch

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem run_main : θ_run defs (onTc (τ := τ) (main (F := F))) ⟨m, fun _ => 0, ρ⟩ (Pipeline.FramePost cfgs (dats m) 0 (V m)) :=
  run_of m ρ (dats m) (fun c => (body_obligation m c).loose) (q_eq m) (fun _ _ => rfl) (A_eq m) (hin m) (hout m)

/-- The frame: every argument array ends as launched — two of them (the biases) are windows' arrays, read back by
    the pipeline's account of an input array; the others bypass the region. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).1 6).trans (((dats m 0 c).arrAt_in 6 rfl _).trans ((A_eq m c 6).trans (V_main_arg3 m c))),
      ((h c).2 main_arg4 (Pipeline.mem_restRefs_of main_arg4 (by decide) (by decide))).trans (V_main_arg4 m c),
      ((h c).1 4).trans (((dats m 0 c).arrAt_in 4 rfl _).trans ((A_eq m c 4).trans (V_main_arg5 m c)))⟩)
    (run_main m ρ)

end Cert.KernelIdeal.Hand

end
-- ==== Proof.KI.Result.lean ====
/-
  The kernel program's run, read: the result array ends at the specification's function of the argument
  arrays — the adjacency the two scatters build from the edge list (the very term the reference builds: kept
  opaque), the features, both weight matrices and both biases —, and no argument array is changed.
-/
import proofs.«165845_j14061722927244_1_alg».proof.Proof.KI.Value
import proofs.«165845_j14061722927244_1_alg».proof.Proof.KI.Final
import proofs.«165845_j14061722927244_1_alg».proof.Proof.KI.Run

set_option maxRecDepth 16384

noncomputable section

namespace Cert.KernelIdeal.Val

open Cert.KernelIdeal Cert.KernelIdeal.Gen Cert.KernelIdeal.Hand Cert.Spec
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- Every output block being the specification's rows, the result array is the specification. -/
theorem result_array (c : Dev nD) :
    (dats m 0 c).arrAt 7 cfg0.N
      = G (adjV m c) (xV m c) (m ((c.tc : Thread nD τ).loc main_arg2)) (m ((c.tc : Thread nD τ).loc main_arg3)) (m ((c.tc : Thread nD τ).loc main_arg4)) (m ((c.tc : Thread nD τ).loc main_arg5)) :=
  final7 m c _ (fun t h3 p q => (out_val m c t h3 p q).trans (G_ix2 _ _ _ _ _ _ _ _).symm)

theorem result_args (c : Dev nD) :
    G (adjV m c) (xV m c) (m ((c.tc : Thread nD τ).loc main_arg2)) (m ((c.tc : Thread nD τ).loc main_arg3)) (m ((c.tc : Thread nD τ).loc main_arg4)) (m ((c.tc : Thread nD τ).loc main_arg5))
      = G (Cert.ReferenceIdeal.Read.val_main_v34 (F := Ideal) (m ((c.tc : Thread nD τ).loc main_arg1))) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) := by
  have e1 : adjV m c = Cert.ReferenceIdeal.Read.val_main_v34 (F := Ideal) (m ((c.tc : Thread nD τ).loc main_arg1)) := Cert.AdjBridge.V_adj m c
  have e2 : xV m c = (m ((c.tc : Thread nD τ).loc main_arg0)) := Cert.AdjBridge.V_x m c
  rw [e1, e2]

theorem run : θ_run defs (onTc (τ := τ) (main (F := Ideal))) ⟨m, fun _ => 0, ρ⟩ (fun r => ∀ c : Dev nD,
      r.2.mem ((c.tc : Thread nD τ).loc main_v40)
        = G (Cert.ReferenceIdeal.Read.val_main_v34 (F := Ideal) (m ((c.tc : Thread nD τ).loc main_arg1))) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨
      ((h c).1 7).trans ((result_array m c).trans (result_args m c)),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).1 6).trans (((dats m 0 c).arrAt_in 6 rfl _).trans ((A_eq m c 6).trans (V_main_arg3 m c))),
      ((h c).2 main_arg4 (Pipeline.mem_restRefs_of main_arg4 (by decide) (by decide))).trans (V_main_arg4 m c),
      ((h c).1 4).trans (((dats m 0 c).arrAt_in 4 rfl _).trans ((A_eq m c 4).trans (V_main_arg5 m c)))⟩)
    (run_main m ρ)

end Cert.KernelIdeal.Val

end
-- ==== Proof.RefIsG.lean ====
/-
  The reference computes the specification's result array.  Its last stage is the sum of two affine
  layers, `(x · Wuᵀ + bu) + (messages · Waᵀ + ba)` with `messages = adj · x`; read at row `n` and
  column `d`, every product with a transposed weight matrix is `Σ_k · [n, k] · W[d, k]`, every bias is read
  at `d`, and the inner product with the adjacency is `Σ_j adj[n, j] · x[j, k]`.  The adjacency itself (the
  result of the two scatters) is carried as one opaque array and never opened.
-/
import proofs.«165845_j14061722927244_1_alg».proof.Proof.Gen.ReferenceIdeal.Read
import proofs.«165845_j14061722927244_1_alg».proof.Proof.Spec

noncomputable section

namespace Cert.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-- A bias broadcast along the rows reads the bias at the column. -/
theorem bias_u_at (x3 : (⟨S256, .f32⟩ : BufTy).Contents (Elt Ideal)) (n : Fin 16384) (d : Fin 256) :
    val_main_v44 (F := Ideal) x3 (ix2 n d) = x3 (ix1 d) := by
  rw [val_main_v44_apply, val_main_v43_apply]
  exact congrArg x3 (funext fun a => Fin.ext (by match a with | ⟨0, _⟩ => rfl))

/-- The same for the aggregation layer's bias. -/
theorem bias_a_at (x5 : (⟨S256, .f32⟩ : BufTy).Contents (Elt Ideal)) (n : Fin 16384) (d : Fin 256) :
    val_main_v39 (F := Ideal) x5 (ix2 n d) = x5 (ix1 d) := by
  rw [val_main_v39_apply, val_main_v38_apply]
  exact congrArg x5 (funext fun a => Fin.ext (by match a with | ⟨0, _⟩ => rfl))

/-- The update layer's product: `x · Wuᵀ` at `(n, d)` is `Σ_k x[n, k] · Wu[d, k]`. -/
theorem update_at (x0 : (⟨S16384x256, .f32⟩ : BufTy).Contents (Elt Ideal))
    (x2 : (⟨S256x256, .f32⟩ : BufTy).Contents (Elt Ideal)) (n : Fin 16384) (d : Fin 256) :
    val_main_v42 (F := Ideal) x0 x2 (ix2 n d) = ∑ k : Fin 256, x0 (ix2 n k) * x2 (ix2 d k) := by
  rw [val_main_v42_apply]
  refine Finset.sum_congr rfl fun k _ => ?_
  rw [val_main_v41_apply]
  have e1 : lidx_main_v42 (ix2 n d) k = ix2 n k :=
    funext fun a => Fin.ext (by match a with | ⟨0, _⟩ => rfl | ⟨1, _⟩ => rfl)
  have e2 : idx_main_v41 (ridx_main_v42 (ix2 n d) k) = ix2 d k :=
    funext fun a => Fin.ext (by match a with | ⟨0, _⟩ => rfl | ⟨1, _⟩ => rfl)
  rw [e1, e2]

/-- The messages: `adj · x` at `(n, k)` is the specification's `msg`. -/
theorem messages_at (adj : (⟨S16384x16384, .f32⟩ : BufTy).Contents (Elt Ideal))
    (x0 : (⟨S16384x256, .f32⟩ : BufTy).Contents (Elt Ideal)) (n : Fin 16384) (k : Fin 256) :
    (∑ j : Fin 16384, adj (lidx_main_v35 (ix2 n k) j) * x0 (ridx_main_v35 (ix2 n k) j))
      = Cert.Spec.msg adj x0 n k := by
  unfold Cert.Spec.msg
  refine Finset.sum_congr rfl fun j _ => ?_
  have e1 : lidx_main_v35 (ix2 n k) j = ix2 n j :=
    funext fun a => Fin.ext (by match a with | ⟨0, _⟩ => rfl | ⟨1, _⟩ => rfl)
  have e2 : ridx_main_v35 (ix2 n k) j = ix2 j k :=
    funext fun a => Fin.ext (by match a with | ⟨0, _⟩ => rfl | ⟨1, _⟩ => rfl)
  rw [e1, e2]

/-- The aggregation layer's product: `messages · Waᵀ` at `(n, d)` is `Σ_k msg[n, k] · Wa[d, k]`. -/
theorem aggregate_at (x0 : (⟨S16384x256, .f32⟩ : BufTy).Contents (Elt Ideal))
    (x1 : (⟨S2x524288, .i32⟩ : BufTy).Contents (Elt Ideal))
    (x4 : (⟨S256x256, .f32⟩ : BufTy).Contents (Elt Ideal)) (n : Fin 16384) (d : Fin 256) :
    val_main_v37 (F := Ideal) x0 x1 x4 (ix2 n d)
      = ∑ k : Fin 256, Cert.Spec.msg (val_main_v34 (F := Ideal) x1) x0 n k * x4 (ix2 d k) := by
  rw [val_main_v37_apply]
  refine Finset.sum_congr rfl fun k _ => ?_
  rw [val_main_v36_apply]
  have e1 : lidx_main_v37 (ix2 n d) k = ix2 n k :=
    funext fun a => Fin.ext (by match a with | ⟨0, _⟩ => rfl | ⟨1, _⟩ => rfl)
  have e2 : idx_main_v36 (ridx_main_v37 (ix2 n d) k) = ix2 d k :=
    funext fun a => Fin.ext (by match a with | ⟨0, _⟩ => rfl | ⟨1, _⟩ => rfl)
  rw [e1, e2, val_main_v35_apply]
  generalize val_main_v34 (F := Ideal) x1 = adj
  rw [messages_at adj x0 n k]

/-- The reference's last stage, as a function of its arguments, is the specification's result array. -/
theorem val_is_G (x0 : (⟨S16384x256, .f32⟩ : BufTy).Contents (Elt Ideal))
    (x1 : (⟨S2x524288, .i32⟩ : BufTy).Contents (Elt Ideal))
    (x2 : (⟨S256x256, .f32⟩ : BufTy).Contents (Elt Ideal)) (x3 : (⟨S256, .f32⟩ : BufTy).Contents (Elt Ideal))
    (x4 : (⟨S256x256, .f32⟩ : BufTy).Contents (Elt Ideal)) (x5 : (⟨S256, .f32⟩ : BufTy).Contents (Elt Ideal)) :
    val_main_v46 (F := Ideal) x0 x1 x2 x3 x4 x5
      = Cert.Spec.G (val_main_v34 (F := Ideal) x1) x0 x2 x3 x4 x5 := by
  funext i
  obtain ⟨n, d, rfl⟩ : ∃ (n : Fin 16384) (d : Fin 256), i = ix2 n d := ⟨i 0, i 1, eq_ix2 i⟩
  rw [Cert.Spec.G_ix2, val_main_v46_apply, val_main_v45_apply, val_main_v40_apply, update_at, bias_u_at,
    aggregate_at, bias_a_at]
  rfl

/-- The reference's result, read back from the run, is the specification's result array of the arguments. -/
theorem ref_is_G (m : (ℓ : Loc nD τ sig) → Buf (Elt Ideal) ℓ) (c : Dev nD) :
    Cert.ReferenceIdeal.Value.res_main_v46 (F := Ideal) m c
      = Cert.Spec.G (val_main_v34 (F := Ideal) (m ((c.tc : Thread nD τ).loc main_arg1)))
          (m ((c.tc : Thread nD τ).loc main_arg0)) (m ((c.tc : Thread nD τ).loc main_arg2))
          (m ((c.tc : Thread nD τ).loc main_arg3)) (m ((c.tc : Thread nD τ).loc main_arg4))
          (m ((c.tc : Thread nD τ).loc main_arg5)) :=
  (val_main_v46_eq (F := Ideal) m c).trans (val_is_G _ _ _ _ _ _)

end Cert.RefValue

end
-- ==== Proof.lean ====
/-
  The certificate of the message-passing kernel against its jnp reference.

  Both programs first build the dense 0/1 adjacency `adj` by the same two scatters from the edge list.  The
  kernel then runs ONE pipelined region over a grid of 32 row blocks × 4 reduction steps: at step s of row
  block I it multiplies the [512, 4096] block (I, s) of `adj` with the matching [4096, 256] block of the
  features `x` and adds the product to an accumulator it keeps between steps (reset at step 0); at the last
  step it applies both linear layers and stores

      out[n, d] = (Σ_k x[n, k] · W_update[d, k] + b_update[d]) + (Σ_k messages[n, k] · W_aggregate[d, k] + b_aggregate[d]),
      messages[n, k] = Σ_j adj[n, j] · x[j, k].

  The reference computes the same expression with whole-array products.  Over the extended reals the two agree
  index by index: the only difference is the grouping of the sum over j into four consecutive runs of 4096
  added left to right from zero, and addition of extended reals is associative and commutative with 0 its
  unit (no distributivity and no finiteness is needed, so the precondition is never opened); rounding to
  bf16 on the way into a product is the identity there.  The ideal pass rewrote nothing, so `preserves` is
  trivial.  The three frames: the two kernel programs run by the launch of their region — the features'
  array, read by two windows, dealt to them in halves — and the reference by its straight line of host
  operations; none writes an argument array.
-/
import proofs.«165845_j14061722927244_1_alg».proof.Defs
import proofs.«165845_j14061722927244_1_alg».proof.Proof.Gen.Kernel
import proofs.«165845_j14061722927244_1_alg».proof.Proof.Gen.KernelIdeal
import proofs.«165845_j14061722927244_1_alg».proof.Proof.Gen.ReferenceIdeal
import proofs.«165845_j14061722927244_1_alg».proof.Proof.Gen.Pre_finite_inputs
import proofs.«165845_j14061722927244_1_alg».proof.Proof.Gen.ReferenceIdeal.Read
import proofs.«165845_j14061722927244_1_alg».proof.Proof.K.Run
import proofs.«165845_j14061722927244_1_alg».proof.Proof.KI.Result
import proofs.«165845_j14061722927244_1_alg».proof.Proof.RefIsG
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result array at the specification's function of the argument arrays, which agree. -/
theorem algebraic : Cert.algebraic_KernelIdeal_ReferenceIdeal := by
  intro m ρ m' ρ' _ hagree
  refine ⟨_, Cert.KernelIdeal.Val.run m ρ, ?_⟩
  refine (θ_run Cert.ReferenceIdeal.defs _ _).mono (fun _ h c => ⟨(h c).1.trans ?_, (h c).2⟩)
    (Cert.ReferenceIdeal.Value.run (F := Ideal) m' ρ')
  rw [Cert.RefValue.ref_is_G, (hagree c).1, (hagree c).2.1, (hagree c).2.2.1, (hagree c).2.2.2.1, (hagree c).2.2.2.2.1,
    (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
